-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S1 : Shape := ⟨1, ![1]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1 : S_.BroadcastsInDim S1 (![] : Fin 0 → Fin S1.rank)
  reducesTo_S1_S_d0 : S1.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_arg9 : FVec F S128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128 .f32) (main_arg6 : FVec F S128 .f32) (main_arg7 : FVec F S128x128 .f32) (main_arg8 : FVec F S128 .f32) (main_arg9 : FVec F S128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S1 .f32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S1 : Shape := ⟨1, ![1]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x1 : Shape := ⟨2, ![1, 1]⟩
abbrev S1x128 : Shape := ⟨2, ![1, 128]⟩
abbrev S80x128 : Shape := ⟨2, ![80, 128]⟩
abbrev S5000x128 : Shape := ⟨2, ![5000, 128]⟩
abbrev S8x128 : Shape := ⟨2, ![8, 128]⟩
abbrev S10x8x128 : Shape := ⟨3, ![10, 8, 128]⟩
abbrev S10x1x128 : Shape := ⟨3, ![10, 1, 128]⟩
abbrev S10x128 : Shape := ⟨2, ![10, 128]⟩

abbrev nBuf : Space → Nat
  | .hbm => 83
  | .vmem => 35
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S1, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S1x1, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S50000x128, .f32⟩
  | .hbm, ⟨37, _⟩ => ⟨S80x128, .f32⟩
  | .hbm, ⟨38, _⟩ => ⟨S80x128, .f32⟩
  | .hbm, ⟨39, _⟩ => ⟨S10x8x128, .f32⟩
  | .hbm, ⟨40, _⟩ => ⟨S10x1x128, .f32⟩
  | .hbm, ⟨41, _⟩ => ⟨S10x128, .f32⟩
  | .hbm, ⟨42, _⟩ => ⟨S_, .f32⟩
  | .hbm, ⟨43, _⟩ => ⟨S128, .f32⟩
  | .hbm, ⟨44, _⟩ => ⟨S10x8x128, .f32⟩
  | .hbm, ⟨45, _⟩ => ⟨S10x1x128, .f32⟩
  | .hbm, ⟨46, _⟩ => ⟨S10x128, .f32⟩
  | .hbm, ⟨47, _⟩ => ⟨S_, .f32⟩
  | .hbm, ⟨48, _⟩ => ⟨S128, .f32⟩
  | .hbm, ⟨49, _⟩ => ⟨S_, .f32⟩
  | .hbm, ⟨50, _⟩ => ⟨S128, .f32⟩
  | .hbm, ⟨51, _⟩ => ⟨S128, .f32⟩
  | .hbm, ⟨52, _⟩ => ⟨S1x128, .f32⟩
  | .hbm, ⟨53, _⟩ => ⟨S_, .f32⟩
  | .hbm, ⟨54, _⟩ => ⟨S128, .f32⟩
  | .hbm, ⟨55, _⟩ => ⟨S128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S50000x128, .f32⟩
  | .hbm, ⟨60, _⟩ => ⟨S80x128, .f32⟩
  | .hbm, ⟨61, _⟩ => ⟨S80x128, .f32⟩
  | .hbm, ⟨62, _⟩ => ⟨S10x8x128, .f32⟩
  | .hbm, ⟨63, _⟩ => ⟨S10x1x128, .f32⟩
  | .hbm, ⟨64, _⟩ => ⟨S10x128, .f32⟩
  | .hbm, ⟨65, _⟩ => ⟨S_, .f32⟩
  | .hbm, ⟨66, _⟩ => ⟨S128, .f32⟩
  | .hbm, ⟨67, _⟩ => ⟨S10x8x128, .f32⟩
  | .hbm, ⟨68, _⟩ => ⟨S10x1x128, .f32⟩
  | .hbm, ⟨69, _⟩ => ⟨S10x128, .f32⟩
  | .hbm, ⟨70, _⟩ => ⟨S_, .f32⟩
  | .hbm, ⟨71, _⟩ => ⟨S128, .f32⟩
  | .hbm, ⟨72, _⟩ => ⟨S_, .f32⟩
  | .hbm, ⟨73, _⟩ => ⟨S128, .f32⟩
  | .hbm, ⟨74, _⟩ => ⟨S128, .f32⟩
  | .hbm, ⟨75, _⟩ => ⟨S1x128, .f32⟩
  | .hbm, ⟨76, _⟩ => ⟨S_, .f32⟩
  | .hbm, ⟨77, _⟩ => ⟨S128, .f32⟩
  | .hbm, ⟨78, _⟩ => ⟨S128, .f32⟩
  | .hbm, ⟨79, _⟩ => ⟨S1x128, .f32⟩
  | .hbm, ⟨80, _⟩ => ⟨S1x128, .f32⟩
  | .hbm, ⟨81, _⟩ => ⟨S1x128, .f32⟩
  | .hbm, ⟨82, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S128x128, .f32⟩
  | .local _ .vmem, ⟨20, _⟩ => ⟨S1x128, .f32⟩
  | .local _ .vmem, ⟨21, _⟩ => ⟨S5000x128, .f32⟩
  | .local _ .vmem, ⟨22, _⟩ => ⟨S5000x128, .f32⟩
  | .local _ .vmem, ⟨23, _⟩ => ⟨S8x128, .f32⟩
  | .local _ .vmem, ⟨24, _⟩ => ⟨S8x128, .f32⟩
  | .local _ .vmem, ⟨25, _⟩ => ⟨S8x128, .f32⟩
  | .local _ .vmem, ⟨26, _⟩ => ⟨S8x128, .f32⟩
  | .local _ .vmem, ⟨27, _⟩ => ⟨S5000x128, .f32⟩
  | .local _ .vmem, ⟨28, _⟩ => ⟨S5000x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S5000x128, .f32⟩
  | .local _ .vmem, ⟨34, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22_0 : Ref sig .tc := ⟨.hbm, 36, rfl⟩
abbrev main_v22_1 : Ref sig .tc := ⟨.hbm, 37, rfl⟩
abbrev main_v22_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_1 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_2 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39_0 : Ref sig .tc := ⟨.hbm, 59, rfl⟩
abbrev main_v39_1 : Ref sig .tc := ⟨.hbm, 60, rfl⟩
abbrev main_v39_2 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_5 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_6 : Ref sig .tc := ⟨.hbm, 70, rfl⟩
abbrev main_v47 : Ref sig .tc := ⟨.hbm, 71, rfl⟩
abbrev main_cst_7 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_8 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc1_stg8_0 : Ref sig .tc := ⟨.vmem, 23, rfl⟩
abbrev cc1_stg8_1 : Ref sig .tc := ⟨.vmem, 24, rfl⟩
abbrev cc1_stg9_0 : Ref sig .tc := ⟨.vmem, 25, rfl⟩
abbrev cc1_stg9_1 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg5_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem7_1 : DmaSem sig := 22
abbrev cc1_sem8_0 : DmaSem sig := 23
abbrev cc1_sem8_1 : DmaSem sig := 24
abbrev cc1_sem9_0 : DmaSem sig := 25
abbrev cc1_sem9_1 : DmaSem sig := 26
abbrev cc2_sem0_0 : DmaSem sig := 27
abbrev cc2_sem0_1 : DmaSem sig := 28
abbrev cc2_sem1_0 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem5_1 : DmaSem sig := 34

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S8x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S8x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S1_S1x1 : S1.ShapeCasts S1x1
  bcast_S1x1_S1x128_0_1 : S1x1.BroadcastsInDim S1x128 (![0, 1] : Fin 2 → Fin S1x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  broadcasts_S1x128_S5000x128 : S1x128.Broadcasts S5000x128
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  reduces_S5000x128_S128 : S5000x128.Reduces [0] S128
  broadcasts_S1x128_S8x128 : S1x128.Broadcasts S8x128
  inb_S8x128_S8x128_0_0 : ∀ a, (![0, 0] : Fin 2 → Nat) a + S8x128.size a ≤ S8x128.size a
  h_S8x128 : 0 < S8x128.numel
  shapeCasts_S80x128_S10x8x128 : S80x128.ShapeCasts S10x8x128
  slices_S10x8x128_S10x1x128_0_0_0 : S10x8x128.Slices ![0, 0, 0] S10x1x128
  shapeCasts_S10x1x128_S10x128 : S10x1x128.ShapeCasts S10x128
  reducesTo_S10x128_S128_d0 : S10x128.ReducesTo [0] S128
  h_S_ : 0 < S_.numel
  bcast_S_S128 : S_.BroadcastsInDim S128 (![] : Fin 0 → Fin S128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S80x128.size a
  hwx0_6 : ∀ i : grid0.Coords, EltTy.bits .f32 = 32 ∨ (Rect.block (s := S80x128) S8x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x128.size a ≤ S80x128.size a
  hwx0_7 : ∀ i : grid0.Coords, EltTy.bits .f32 = 32 ∨ (Rect.block (s := S80x128) S8x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S8x128.size a ≤ S80x128.size a
  hwx1_8 : ∀ i : grid1.Coords, EltTy.bits .f32 = 32 ∨ (Rect.block (s := S80x128) S8x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S8x128.size a ≤ S80x128.size a
  hwx1_9 : ∀ i : grid1.Coords, EltTy.bits .f32 = 32 ∨ (Rect.block (s := S80x128) S8x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v22_1) S8x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v22_2) S8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v22_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v19) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v39_0) S5000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v39_1) S8x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v39_2) S8x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v39_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v20) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v21) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S1 : Shape := ⟨1, ![1]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x1 : Shape := ⟨2, ![1, 1]⟩
abbrev S1x128 : Shape := ⟨2, ![1, 128]⟩

abbrev nBuf : Space → Nat
  | .hbm => 109
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S1, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S_, .f32⟩
  | .hbm, ⟨29, _⟩ => ⟨S1, .f32⟩
  | .hbm, ⟨30, _⟩ => ⟨S1, .f32⟩
  | .hbm, ⟨31, _⟩ => ⟨S1x1, .f32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S1x128, .f32⟩
  | .hbm, ⟨37, _⟩ => ⟨S50000x128, .f32⟩
  | .hbm, ⟨38, _⟩ => ⟨S50000x128, .f32⟩
  | .hbm, ⟨39, _⟩ => ⟨S_, .f32⟩
  | .hbm, ⟨40, _⟩ => ⟨S128, .f32⟩
  | .hbm, ⟨41, _⟩ => ⟨S_, .f32⟩
  | .hbm, ⟨42, _⟩ => ⟨S128, .f32⟩
  | .hbm, ⟨43, _⟩ => ⟨S128, .f32⟩
  | .hbm, ⟨44, _⟩ => ⟨S1x128, .f32⟩
  | .hbm, ⟨45, _⟩ => ⟨S50000x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S128, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S1x128, .f32⟩
  | .hbm, ⟨54, _⟩ => ⟨S50000x128, .f32⟩
  | .hbm, ⟨55, _⟩ => ⟨S50000x128, .f32⟩
  | .hbm, ⟨56, _⟩ => ⟨S_, .f32⟩
  | .hbm, ⟨57, _⟩ => ⟨S128, .f32⟩
  | .hbm, ⟨58, _⟩ => ⟨S128, .f32⟩
  | .hbm, ⟨59, _⟩ => ⟨S128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S1x128, .f32⟩
  | .hbm, ⟨74, _⟩ => ⟨S50000x128, .f32⟩
  | .hbm, ⟨75, _⟩ => ⟨S50000x128, .f32⟩
  | .hbm, ⟨76, _⟩ => ⟨S_, .f32⟩
  | .hbm, ⟨77, _⟩ => ⟨S128, .f32⟩
  | .hbm, ⟨78, _⟩ => ⟨S_, .f32⟩
  | .hbm, ⟨79, _⟩ => ⟨S128, .f32⟩
  | .hbm, ⟨80, _⟩ => ⟨S128, .f32⟩
  | .hbm, ⟨81, _⟩ => ⟨S1x128, .f32⟩
  | .hbm, ⟨82, _⟩ => ⟨S50000x128, .f32⟩
  | .hbm, ⟨83, _⟩ => ⟨S50000x128, .f32⟩
  | .hbm, ⟨84, _⟩ => ⟨S50000x128, .f32⟩
  | .hbm, ⟨85, _⟩ => ⟨S_, .f32⟩
  | .hbm, ⟨86, _⟩ => ⟨S128, .f32⟩
  | .hbm, ⟨87, _⟩ => ⟨S_, .f32⟩
  | .hbm, ⟨88, _⟩ => ⟨S128, .f32⟩
  | .hbm, ⟨89, _⟩ => ⟨S128, .f32⟩
  | .hbm, ⟨90, _⟩ => ⟨S1x128, .f32⟩
  | .hbm, ⟨91, _⟩ => ⟨S50000x128, .f32⟩
  | .hbm, ⟨92, _⟩ => ⟨S50000x128, .f32⟩
  | .hbm, ⟨93, _⟩ => ⟨S_, .f32⟩
  | .hbm, ⟨94, _⟩ => ⟨S128, .f32⟩
  | .hbm, ⟨95, _⟩ => ⟨S128, .f32⟩
  | .hbm, ⟨96, _⟩ => ⟨S128, .f32⟩
  | .hbm, ⟨97, _⟩ => ⟨S1x128, .f32⟩
  | .hbm, ⟨98, _⟩ => ⟨S50000x128, .f32⟩
  | .hbm, ⟨99, _⟩ => ⟨S50000x128, .f32⟩
  | .hbm, ⟨100, _⟩ => ⟨S1x128, .f32⟩
  | .hbm, ⟨101, _⟩ => ⟨S50000x128, .f32⟩
  | .hbm, ⟨102, _⟩ => ⟨S50000x128, .f32⟩
  | .hbm, ⟨103, _⟩ => ⟨S1x128, .f32⟩
  | .hbm, ⟨104, _⟩ => ⟨S50000x128, .f32⟩
  | .hbm, ⟨105, _⟩ => ⟨S50000x128, .f32⟩
  | .hbm, ⟨106, _⟩ => ⟨S_, .f32⟩
  | .hbm, ⟨107, _⟩ => ⟨S50000x128, .f32⟩
  | .hbm, ⟨108, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call0_cst : Ref sig .tc := ⟨.hbm, 69, rfl⟩
abbrev main_call0_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_7 : Ref sig .tc := ⟨.hbm, 76, rfl⟩
abbrev main_v54 : Ref sig .tc := ⟨.hbm, 77, rfl⟩
abbrev main_cst_8 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_9 : Ref sig .tc := ⟨.hbm, 85, rfl⟩
abbrev main_v61 : Ref sig .tc := ⟨.hbm, 86, rfl⟩
abbrev main_cst_10 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_11 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_call1_cst : Ref sig .tc := ⟨.hbm, 106, rfl⟩
abbrev main_call1_v0 : Ref sig .tc := ⟨.hbm, 107, rfl⟩
abbrev main_v79 : Ref sig .tc := ⟨.hbm, 108, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S1 : S_.BroadcastsInDim S1 (![] : Fin 0 → Fin S1.rank)
  bcast_S1_S1x1_1 : S1.BroadcastsInDim S1x1 (![1] : Fin 1 → Fin S1x1.rank)
  bcast_S1x1_S50000x128_0_1 : S1x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel program's run, with its result named.

  Every weakly fair execution of the program terminates without a fault; afterwards each argument array is as launched
  and the result array holds what the last of the three grid computations wrote back: the contents of the buffers at the
  last boundary of the program's alternation of host stretches and grid computations, read at the result's buffer.
-/
import proofs.«158323_j1486058684700_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: termination without a fault, the result array at the last boundary's contents, the arguments unchanged. -/
theorem run_value : θ_run defs (onTc (τ := τ) (main (F := F))) ⟨m, fun _ => 0, ρ⟩ (fun r => ∀ c : Dev nD,
      r.2.mem ((c.tc : Thread nD τ).loc main_v56) = W6 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v56 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.RunValue

end
-- ==== Proof.Spec.lean ====
/-
  One graph layer with two normalised dense stages, entry by entry over the extended reals.

  Rows are the 50000 nodes, columns the 128 features.  A node's own features, scaled by one plus a weight, are added to
  the sum of its neighbours' features; two stages follow, each a dense layer (rows times a weight matrix plus a bias),
  a normalisation of every column by that column's mean and variance over all rows, a scale and a shift, and a clamp
  below at zero.

  The variance of a column is written in two ways: the mean of the squared deviations from the column's mean, and the
  mean of the squares minus the square of the mean, the sums taken tile by tile (ten tiles of 5000 rows).  Over the
  reals the two agree; over the extended reals they agree when every entry of the column is a real number, and this
  module's definitions are what the two sides are compared through.
-/
import Idealize.ShloMosaic.PureOps.Ideal
import Idealize.ShloMosaic.PureOps.Ideal.Laws

noncomputable section

open scoped BigOperators

namespace GinSpec

open Idealize.ShloMosaic

/-- The float words both programs spell: one, the row count 50000, the variance's guard 1e-5 (as a binary32), zero. -/
abbrev cOne : EReal := Ideal.ofBits .f32 0x3F800000#32
abbrev cCount : EReal := Ideal.ofBits .f32 0x47435000#32
abbrev cEps : EReal := Ideal.ofBits .f32 0x3727C5AC#32
abbrev cZero : EReal := Ideal.ofBits .f32 0x00000000#32

/-- A matrix of node features, a weight matrix, a per-column vector. -/
abbrev Mat := Fin 50000 → Fin 128 → EReal
abbrev Wt := Fin 128 → Fin 128 → EReal
abbrev Col := Fin 128 → EReal

/-- Row `p` of tile `t`: ten tiles of 5000 consecutive rows. -/
def tileRow (t : Fin 10) (p : Fin 5000) : Fin 50000 := ⟨t.val * 5000 + p.val, by have := t.isLt; have := p.isLt; omega⟩

/-- A node's own features scaled by one plus the weight `e` of its column, plus its neighbours' sum. -/
def combine (e : Col) (x aggr : Mat) : Mat := fun r n => (cOne + e n) * x r n + aggr r n

/-- A dense layer: a row times the weights, plus the bias. -/
def dense (a : Mat) (w : Wt) (b : Col) : Mat := fun r q => (∑ n : Fin 128, a r n * w n q) + b q

/-- A column's sum over all rows, started from the zero word. -/
def colSum (h : Mat) : Col := fun q => cZero + ∑ r : Fin 50000, h r q

/-- A column's sum taken tile by tile: the ten tiles' sums, added from the zero word. -/
def colSumTiled (h : Mat) : Col := fun q => cZero + ∑ t : Fin 10, ∑ p : Fin 5000, h (tileRow t p) q

/-- A column's mean. -/
def colMean (h : Mat) : Col := fun q => Ideal.div (colSum h q) cCount

/-- A column's variance as the mean of the squared deviations from the mean. -/
def colVar (h : Mat) : Col := fun q =>
  Ideal.div (cZero + ∑ r : Fin 50000, (h r q - colMean h q) * (h r q - colMean h q)) cCount

/-- A column's mean from tile sums. -/
def colMeanTiled (h : Mat) : Col := fun q => Ideal.div (colSumTiled h q) cCount

/-- A column's variance as the mean of the squares minus the square of the mean, from tile sums. -/
def colVarTiled (h : Mat) : Col := fun q =>
  Ideal.div (colSumTiled (fun r q => h r q * h r q) q) cCount - colMeanTiled h q * colMeanTiled h q

/-- Normalise by a column's mean and variance, scale, shift, clamp below at zero. -/
def normRelu (h : Mat) (mu var g beta : Col) : Mat := fun r q =>
  max (((h r q - mu q) * Ideal.rsqrt (var q + cEps)) * g q + beta q) cZero

/-- The layer with each variance as the mean of squared deviations. -/
def layerDev (e : Col) (x aggr : Mat) (w1 : Wt) (b1 g1 be1 : Col) (w2 : Wt) (b2 g2 be2 : Col) : Mat :=
  let l1 := dense (combine e x aggr) w1 b1
  let h1 := normRelu l1 (colMean l1) (colVar l1) g1 be1
  let l2 := dense h1 w2 b2
  normRelu l2 (colMean l2) (colVar l2) g2 be2

/-- The layer with each mean and variance from tile sums, the variance as mean of squares minus squared mean. -/
def layerTiled (e : Col) (x aggr : Mat) (w1 : Wt) (b1 g1 be1 : Col) (w2 : Wt) (b2 g2 be2 : Col) : Mat :=
  let l1 := dense (combine e x aggr) w1 b1
  let h1 := normRelu l1 (colMeanTiled l1) (colVarTiled l1) g1 be1
  let l2 := dense h1 w2 b2
  normRelu l2 (colMeanTiled l2) (colVarTiled l2) g2 be2

/-- An entry is a real number. -/
def IsReal (v : EReal) : Prop := ∃ r : ℝ, v = (r : EReal)

end GinSpec

end
-- ==== Proof.HostStat.lean ====
/-
  A column statistic from per-tile partial sums.

  The 80-row array holds, for each of the ten tiles of rows, eight copies of one row: the tile's column sums.  The host
  lays the array out as ten groups of eight rows, takes the first row of every group, adds the ten rows from the zero
  word, and divides by the row count 50000; the result is kept as one row.  At a column the value is the quotient by the
  row count of the zero word plus the sum over the ten tiles of the array's entry in row 8·t of that column.  The
  variance row is the same statistic of the squares' sums minus the square of the mean row.
-/
import proofs.«158323_j1486058684700_2_alg».proof.Proof.Gen.KernelIdeal
import proofs.«158323_j1486058684700_2_alg».proof.Proof.Spec
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open scoped BigOperators

namespace Cert.KernelIdeal.HostStat

open Cert.KernelIdeal Cert.KernelIdeal.Gen Idealize.ShloMosaic Idealize.ShloMosaic.ValueIdx

/-- The first row of each group of eight rows, as ten rows. -/
def firstRows (S : FVec Ideal S80x128 .f32) : FVec Ideal S10x128 .f32 :=
  shapeCast S10x128 (extractStridedSlice S10x1x128 ![0, 0, 0] (shapeCast S10x8x128 S shapeCasts_S80x128_S10x8x128)
    slices_S10x8x128_S10x1x128_0_0_0) shapeCasts_S10x1x128_S10x128

/-- Row `t` of the ten rows is row `8·t` of the eighty. -/
theorem firstRows_apply (S : FVec Ideal S80x128 .f32) (t : Fin 10) (q : Fin 128) :
    firstRows S (ix2 t q) = S (ix2 (⟨t.val * 8, by have := t.isLt; omega⟩ : Fin 80) q) := by
  have ht := t.isLt
  have hq := q.isLt
  unfold firstRows
  rw [shapeCast_apply _ shapeCasts_S10x1x128_S10x128 (ix2 t q) (ix3 t (0 : Fin 1) q) (by
      rw [Shape.rowMajor_val_three, Shape.rowMajor_val_two]
      show (t.val * 1 + 0) * 128 + q.val = t.val * 128 + q.val
      omega),
    extractStridedSlice_apply ![0, 0, 0] _ slices_S10x8x128_S10x1x128_0_0_0 (ix3 t (0 : Fin 1) q) (ix3 t (0 : Fin 8) q)
      (fun a => by
        match a with
        | ⟨0, _⟩ => show t.val = 0 + t.val; omega
        | ⟨1, _⟩ => show 0 = 0 + 0; rfl
        | ⟨2, _⟩ => show q.val = 0 + q.val; omega),
    shapeCast_apply _ shapeCasts_S80x128_S10x8x128 (ix3 t (0 : Fin 8) q) (ix2 (⟨t.val * 8, by omega⟩ : Fin 80) q) (by
      rw [Shape.rowMajor_val_three, Shape.rowMajor_val_two]
      show t.val * 8 * 128 + q.val = (t.val * 8 + 0) * 128 + q.val
      omega)]

/-- The statistic: the ten rows added from the zero word, divided by the row count, kept as one row. -/
def statRow (S : FVec Ideal S80x128 .f32) : FVec Ideal S1x128 .f32 :=
  shapeCast S1x128
    (Host.divf (Host.reduceAdd (firstRows S) (constant (F := Ideal) S_ .f32 0x00000000#32) reducesTo_S10x128_S128_d0 h_S_)
      (broadcastInDim S128 ![] bcast_S_S128 (constant (F := Ideal) S_ .f32 0x47435000#32)))
    shapeCasts_S128_S1x128

/-- The statistic at a column. -/
theorem statRow_apply (S : FVec Ideal S80x128 .f32) (q : Fin 128) :
    statRow S (ix2 (0 : Fin 1) q)
      = Ideal.div (GinSpec.cZero + ∑ t : Fin 10, S (ix2 (⟨t.val * 8, by have := t.isLt; omega⟩ : Fin 80) q)) GinSpec.cCount := by
  unfold statRow
  rw [shapeCast_a_1a_apply _ shapeCasts_S128_S1x128 (0 : Fin 1) q]
  show Ideal.div (Host.reduceAdd (firstRows S) (constant (F := Ideal) S_ .f32 0x00000000#32) reducesTo_S10x128_S128_d0 h_S_ (ix1 q))
      (broadcastInDim S128 ![] bcast_S_S128 (constant (F := Ideal) S_ .f32 0x47435000#32) (ix1 q)) = _
  have hb : broadcastInDim S128 ![] bcast_S_S128 (constant (F := Ideal) S_ .f32 0x47435000#32) (ix1 q) = GinSpec.cCount :=
    broadcastInDim_apply _ bcast_S_S128 _ (ix1 q) ix0 (fun a => a.elim0)
  rw [hb]
  congr 1
  simp only [Host.reduceAdd, Ideal.hostReduceAdd_def]
  rw [Ideal.hostReduceAdd_single reducesTo_S10x128_S128_d0 (by decide)]
  refine congrArg (_ + ·) (Finset.sum_congr rfl fun t _ => ?_)
  exact (congrArg (firstRows S) (funext fun a => Fin.ext (by match a with | ⟨0, _⟩ => rfl | ⟨1, _⟩ => rfl))).trans
    (firstRows_apply S t q)

/-- The variance row: the squares' statistic minus the square of the mean row. -/
def varRow (mu sq : FVec Ideal S1x128 .f32) : FVec Ideal S1x128 .f32 := subf sq (mulf mu mu)

theorem varRow_apply (mu sq : FVec Ideal S1x128 .f32) (i : S1x128.Idx) : varRow mu sq i = sq i - mu i * mu i := rfl

end Cert.KernelIdeal.HostStat

end
-- ==== Proof.GlueIn.lean ====
/-
  What each grid computation finds in its operand arrays.

  The program alternates host stretches with three grid computations.  Before the first, the host has summed every
  node's neighbours' features into one array, laid the self weight along one row, and laid each per-column vector as a
  row.  Between computations the host turns the per-tile partial sums the previous computation left into the mean row
  and the variance row of the next.  Here each operand array of each computation is named as a function of the launch
  memory and of the arrays the previous computation left, and read at an index.
-/
import proofs.«158323_j1486058684700_2_alg».proof.Proof.Gen.KernelIdeal.Frame
import proofs.«158323_j1486058684700_2_alg».proof.Proof.Spec
import proofs.«158323_j1486058684700_2_alg».proof.Proof.HostStat
import Idealize.ShloMosaic.Lib.Pipeline.Value
import Idealize.ShloMosaic.Lib.ValueLayout
import Idealize.ShloMosaic.Lib.ValueIdx
import Idealize.ShloMosaic.Lib.StableHlo.Run

set_option maxRecDepth 16384

noncomputable section

namespace Cert.KernelIdeal.Glue

open Cert.KernelIdeal Cert.KernelIdeal.Gen Cert.KernelIdeal.HostStat
open Idealize.ShloMosaic Idealize.ShloMosaic.TcCoe Idealize.ShloMosaic.Tactic Idealize.SL.Sem Idealize.ShloMosaic.ValueIdx

/-! ## The host's terms before the first computation -/

/-- The sources of the edges, a negative one counted from the end. -/
def srcCol (x1 : IVec S2x800000 32) : IVec S800000 32 :=
  select
    (cmpi .slt (shapeCast S800000 (extractStridedSlice S1x800000 ![0, 0] x1 slices_S2x800000_S1x800000_0_0) shapeCasts_S1x800000_S800000)
      (broadcastInDim S800000 ![] bcast_S_S800000 (constantI S_ 32 0#32)))
    (addi (shapeCast S800000 (extractStridedSlice S1x800000 ![0, 0] x1 slices_S2x800000_S1x800000_0_0) shapeCasts_S1x800000_S800000)
      (broadcastInDim S800000 ![] bcast_S_S800000 (constantI S_ 32 50000#32)))
    (shapeCast S800000 (extractStridedSlice S1x800000 ![0, 0] x1 slices_S2x800000_S1x800000_0_0) shapeCasts_S1x800000_S800000)

/-- Every node's neighbours' sum: the features gathered at the edges' sources, added into the rows the edges'
    destinations name, from zero. -/
def neighbourSum (x0 : FVec Ideal S50000x128 .f32) (x1 : IVec S2x800000 32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0
      (shapeCast S800000 (extractStridedSlice S1x800000 ![1, 0] x1 slices_S2x800000_S1x800000_1_0) shapeCasts_S1x800000_S800000))
    (Host.gather gather_S50000x128_S800000x1_S800000x128_1_0_n_n_0_1_1128 x0
      (broadcastInDim S800000x1 ![0] bcast_S800000_S800000x1_0 (srcCol x1)))

/-- The self weight laid along one row. -/
def weightRow (x2 : FVec Ideal S1 .f32) : FVec Ideal S1x128 .f32 :=
  broadcastInDim S1x128 ![0, 1] bcast_S1x1_S1x128_0_1 (shapeCast S1x1 x2 shapeCasts_S1_S1x1)

/-- A per-column vector as one row. -/
def asRow (x : FVec Ideal S128 .f32) : FVec Ideal S1x128 .f32 := shapeCast S1x128 x shapeCasts_S128_S1x128

theorem weightRow_apply (x2 : FVec Ideal S1 .f32) (n : Fin 128) : weightRow x2 (ix2 (0 : Fin 1) n) = x2 (ix1 (0 : Fin 1)) := by
  unfold weightRow
  rw [broadcastInDim_apply ![0, 1] bcast_S1x1_S1x128_0_1 _ (ix2 (0 : Fin 1) n) (ix2 (0 : Fin 1) (0 : Fin 1)) (fun a => by
      match a with
      | ⟨0, _⟩ => show (0 : ℕ) = if (1 : ℕ) = 1 then 0 else 0; simp
      | ⟨1, _⟩ => show (0 : ℕ) = if (1 : ℕ) = 1 then 0 else n.val; simp),
    shapeCast_a_1a_apply x2 shapeCasts_S1_S1x1 (0 : Fin 1) (0 : Fin 1)]

theorem asRow_apply (x : FVec Ideal S128 .f32) (q : Fin 128) : asRow x (ix2 (0 : Fin 1) q) = x (ix1 q) :=
  shapeCast_a_1a_apply x shapeCasts_S128_S1x128 (0 : Fin 1) q

variable (m : (ℓ : Loc nD τ sig) → Buf (Elt Ideal) ℓ) (ρ : Dev nD → PrngReg)

/-! ## The first computation's operands -/

theorem in0_0 (c : Dev nD) : (V1 m ρ c (Pipeline.arrRef spec0 0) : S50000x128.Idx → EReal) = m ((c : Thread nD τ).loc main_arg0) := by
  show StableHlo.after hostOps0 (W0 m ρ c) (Proc.devRef .tc main_arg0) = _
  after_results <;> rfl

set_option maxHeartbeats 1600000 in
theorem in0_1 (c : Dev nD) : (V1 m ρ c (Pipeline.arrRef spec0 1) : S50000x128.Idx → EReal)
    = neighbourSum (m ((c : Thread nD τ).loc main_arg0)) (m ((c : Thread nD τ).loc main_arg1)) := by
  show StableHlo.after hostOps0 (W0 m ρ c) (Proc.devRef .tc main_v13) = _
  generalize hX : neighbourSum (m ((c : Thread nD τ).loc main_arg0)) (m ((c : Thread nD τ).loc main_arg1)) = X
  after_results
  rw [← hX]
  rfl

theorem in0_2 (c : Dev nD) : (V1 m ρ c (Pipeline.arrRef spec0 2) : S1x128.Idx → EReal) = weightRow (m ((c : Thread nD τ).loc main_arg2)) := by
  show StableHlo.after hostOps0 (W0 m ρ c) (Proc.devRef .tc main_v15) = _
  after_results; rfl

theorem in0_3 (c : Dev nD) : (V1 m ρ c (Pipeline.arrRef spec0 3) : S128x128.Idx → EReal) = m ((c : Thread nD τ).loc main_arg3) := by
  show StableHlo.after hostOps0 (W0 m ρ c) (Proc.devRef .tc main_arg3) = _
  after_results <;> rfl

theorem in0_4 (c : Dev nD) : (V1 m ρ c (Pipeline.arrRef spec0 4) : S1x128.Idx → EReal) = asRow (m ((c : Thread nD τ).loc main_arg4)) := by
  show StableHlo.after hostOps0 (W0 m ρ c) (Proc.devRef .tc main_v16) = _
  after_results; rfl

end Cert.KernelIdeal.Glue

end
-- ==== Proof.GlueMid.lean ====
/-
  What the second and the third grid computation find in their operand arrays.

  The second computation reads the first one's dense output, the mean row and the variance row the host made from the
  first one's per-tile partial sums, and the rows and weights of the second stage as launched; the third reads the
  second one's outputs in the same way.  A buffer no later step writes keeps what it held, so every operand is traced
  back either to the launch memory or to an array the previous computation left.
-/
import proofs.«158323_j1486058684700_2_alg».proof.Proof.GlueIn

set_option maxRecDepth 16384

noncomputable section

namespace Cert.KernelIdeal.Glue

open Cert.KernelIdeal Cert.KernelIdeal.Gen Cert.KernelIdeal.HostStat
open Idealize.ShloMosaic Idealize.ShloMosaic.TcCoe Idealize.ShloMosaic.Tactic Idealize.SL.Sem Idealize.ShloMosaic.ValueIdx

variable (m : (ℓ : Loc nD τ sig) → Buf (Elt Ideal) ℓ) (ρ : Dev nD → PrngReg)

/-! ## The second computation's operands -/

theorem in1_0 (c : Dev nD) : (V3 m ρ c (Pipeline.arrRef spec1 0) : S50000x128.Idx → EReal) = (dat0 (V1 m ρ) c).arrAt 5 cfg0.N := by
  have h : StableHlo.after hostOps1 (W2 m ρ c) (Proc.devRef .tc main_v22_0) = W2 m ρ c (Proc.devRef .tc main_v22_0) := by after_results <;> rfl
  exact h.trans (W2_arr m ρ c 5)

theorem in1_1 (c : Dev nD) : (V3 m ρ c (Pipeline.arrRef spec1 1) : S1x128.Idx → EReal) = statRow ((dat0 (V1 m ρ) c).arrAt 6 cfg0.N) := by
  have h : StableHlo.after hostOps1 (W2 m ρ c) (Proc.devRef .tc main_v33) = statRow (W2 m ρ c (Proc.devRef .tc main_v22_1)) := by after_results <;> rfl
  exact h.trans (congrArg statRow (W2_arr m ρ c 6))

set_option maxHeartbeats 4000000 in
theorem in1_2 (c : Dev nD) : (V3 m ρ c (Pipeline.arrRef spec1 2) : S1x128.Idx → EReal)
    = varRow (statRow ((dat0 (V1 m ρ) c).arrAt 6 cfg0.N)) (statRow ((dat0 (V1 m ρ) c).arrAt 7 cfg0.N)) := by
  have h : StableHlo.after hostOps1 (W2 m ρ c) (Proc.devRef .tc main_v38)
      = varRow (statRow (W2 m ρ c (Proc.devRef .tc main_v22_1))) (statRow (W2 m ρ c (Proc.devRef .tc main_v22_2))) := by
    unfold varRow statRow firstRows
    after_results <;> rfl
  have e6 : W2 m ρ c (Proc.devRef .tc main_v22_1) = (dat0 (V1 m ρ) c).arrAt 6 cfg0.N := W2_arr m ρ c 6
  have e7 : W2 m ρ c (Proc.devRef .tc main_v22_2) = (dat0 (V1 m ρ) c).arrAt 7 cfg0.N := W2_arr m ρ c 7
  refine h.trans ?_
  rw [e6, e7]

theorem in1_3 (c : Dev nD) : (V3 m ρ c (Pipeline.arrRef spec1 3) : S1x128.Idx → EReal) = asRow (m ((c : Thread nD τ).loc main_arg5)) := by
  have h1 : StableHlo.after hostOps1 (W2 m ρ c) (Proc.devRef .tc main_v17) = W2 m ρ c (Proc.devRef .tc main_v17) := by after_results <;> rfl
  have h2 : W2 m ρ c (Proc.devRef .tc main_v17) = W1 m ρ c (Proc.devRef .tc main_v17) := W2_of_ne m ρ c main_v17 (by decide)
  have h3 : StableHlo.after hostOps0 (W0 m ρ c) (Proc.devRef .tc main_v17) = asRow (m ((c : Thread nD τ).loc main_arg5)) := by after_results <;> rfl
  exact h1.trans (h2.trans h3)

theorem in1_4 (c : Dev nD) : (V3 m ρ c (Pipeline.arrRef spec1 4) : S1x128.Idx → EReal) = asRow (m ((c : Thread nD τ).loc main_arg6)) := by
  have h1 : StableHlo.after hostOps1 (W2 m ρ c) (Proc.devRef .tc main_v18) = W2 m ρ c (Proc.devRef .tc main_v18) := by after_results <;> rfl
  have h2 : W2 m ρ c (Proc.devRef .tc main_v18) = W1 m ρ c (Proc.devRef .tc main_v18) := W2_of_ne m ρ c main_v18 (by decide)
  have h3 : StableHlo.after hostOps0 (W0 m ρ c) (Proc.devRef .tc main_v18) = asRow (m ((c : Thread nD τ).loc main_arg6)) := by after_results <;> rfl
  exact h1.trans (h2.trans h3)

theorem in1_5 (c : Dev nD) : (V3 m ρ c (Pipeline.arrRef spec1 5) : S128x128.Idx → EReal) = m ((c : Thread nD τ).loc main_arg7) := by
  have h1 : StableHlo.after hostOps1 (W2 m ρ c) (Proc.devRef .tc main_arg7) = W2 m ρ c (Proc.devRef .tc main_arg7) := by after_results <;> rfl
  have h2 : W2 m ρ c (Proc.devRef .tc main_arg7) = W1 m ρ c (Proc.devRef .tc main_arg7) := W2_of_ne m ρ c main_arg7 (by decide)
  have h3 : StableHlo.after hostOps0 (W0 m ρ c) (Proc.devRef .tc main_arg7) = m ((c : Thread nD τ).loc main_arg7) := by after_results <;> rfl
  exact h1.trans (h2.trans h3)

theorem in1_6 (c : Dev nD) : (V3 m ρ c (Pipeline.arrRef spec1 6) : S1x128.Idx → EReal) = asRow (m ((c : Thread nD τ).loc main_arg8)) := by
  have h1 : StableHlo.after hostOps1 (W2 m ρ c) (Proc.devRef .tc main_v19) = W2 m ρ c (Proc.devRef .tc main_v19) := by after_results <;> rfl
  have h2 : W2 m ρ c (Proc.devRef .tc main_v19) = W1 m ρ c (Proc.devRef .tc main_v19) := W2_of_ne m ρ c main_v19 (by decide)
  have h3 : StableHlo.after hostOps0 (W0 m ρ c) (Proc.devRef .tc main_v19) = asRow (m ((c : Thread nD τ).loc main_arg8)) := by after_results <;> rfl
  exact h1.trans (h2.trans h3)

/-! ## The third computation's operands -/

theorem in2_0 (c : Dev nD) : (V5 m ρ c (Pipeline.arrRef spec2 0) : S50000x128.Idx → EReal) = (dat1 (V3 m ρ) c).arrAt 7 cfg1.N := by
  have h : StableHlo.after hostOps2 (W4 m ρ c) (Proc.devRef .tc main_v39_0) = W4 m ρ c (Proc.devRef .tc main_v39_0) := by after_results <;> rfl
  exact h.trans (W4_arr m ρ c 7)

theorem in2_1 (c : Dev nD) : (V5 m ρ c (Pipeline.arrRef spec2 1) : S1x128.Idx → EReal) = statRow ((dat1 (V3 m ρ) c).arrAt 8 cfg1.N) := by
  have h : StableHlo.after hostOps2 (W4 m ρ c) (Proc.devRef .tc main_v50) = statRow (W4 m ρ c (Proc.devRef .tc main_v39_1)) := by after_results <;> rfl
  exact h.trans (congrArg statRow (W4_arr m ρ c 8))

set_option maxHeartbeats 4000000 in
theorem in2_2 (c : Dev nD) : (V5 m ρ c (Pipeline.arrRef spec2 2) : S1x128.Idx → EReal)
    = varRow (statRow ((dat1 (V3 m ρ) c).arrAt 8 cfg1.N)) (statRow ((dat1 (V3 m ρ) c).arrAt 9 cfg1.N)) := by
  have h : StableHlo.after hostOps2 (W4 m ρ c) (Proc.devRef .tc main_v55)
      = varRow (statRow (W4 m ρ c (Proc.devRef .tc main_v39_1))) (statRow (W4 m ρ c (Proc.devRef .tc main_v39_2))) := by
    unfold varRow statRow firstRows
    after_results <;> rfl
  have e8 : W4 m ρ c (Proc.devRef .tc main_v39_1) = (dat1 (V3 m ρ) c).arrAt 8 cfg1.N := W4_arr m ρ c 8
  have e9 : W4 m ρ c (Proc.devRef .tc main_v39_2) = (dat1 (V3 m ρ) c).arrAt 9 cfg1.N := W4_arr m ρ c 9
  refine h.trans ?_
  rw [e8, e9]

theorem in2_3 (c : Dev nD) : (V5 m ρ c (Pipeline.arrRef spec2 3) : S1x128.Idx → EReal) = asRow (m ((c : Thread nD τ).loc main_arg9)) := by
  have h0 : StableHlo.after hostOps2 (W4 m ρ c) (Proc.devRef .tc main_v20) = W4 m ρ c (Proc.devRef .tc main_v20) := by after_results <;> rfl
  have h0' : W4 m ρ c (Proc.devRef .tc main_v20) = W3 m ρ c (Proc.devRef .tc main_v20) := W4_of_ne m ρ c main_v20 (by decide)
  have h1 : StableHlo.after hostOps1 (W2 m ρ c) (Proc.devRef .tc main_v20) = W2 m ρ c (Proc.devRef .tc main_v20) := by after_results <;> rfl
  have h2 : W2 m ρ c (Proc.devRef .tc main_v20) = W1 m ρ c (Proc.devRef .tc main_v20) := W2_of_ne m ρ c main_v20 (by decide)
  have h3 : StableHlo.after hostOps0 (W0 m ρ c) (Proc.devRef .tc main_v20) = asRow (m ((c : Thread nD τ).loc main_arg9)) := by after_results <;> rfl
  exact h0.trans (h0'.trans (h1.trans (h2.trans h3)))

theorem in2_4 (c : Dev nD) : (V5 m ρ c (Pipeline.arrRef spec2 4) : S1x128.Idx → EReal) = asRow (m ((c : Thread nD τ).loc main_arg10)) := by
  have h0 : StableHlo.after hostOps2 (W4 m ρ c) (Proc.devRef .tc main_v21) = W4 m ρ c (Proc.devRef .tc main_v21) := by after_results <;> rfl
  have h0' : W4 m ρ c (Proc.devRef .tc main_v21) = W3 m ρ c (Proc.devRef .tc main_v21) := W4_of_ne m ρ c main_v21 (by decide)
  have h1 : StableHlo.after hostOps1 (W2 m ρ c) (Proc.devRef .tc main_v21) = W2 m ρ c (Proc.devRef .tc main_v21) := by after_results <;> rfl
  have h2 : W2 m ρ c (Proc.devRef .tc main_v21) = W1 m ρ c (Proc.devRef .tc main_v21) := W2_of_ne m ρ c main_v21 (by decide)
  have h3 : StableHlo.after hostOps0 (W0 m ρ c) (Proc.devRef .tc main_v21) = asRow (m ((c : Thread nD τ).loc main_arg10)) := by after_results <;> rfl
  exact h0.trans (h0'.trans (h1.trans (h2.trans h3)))

end Cert.KernelIdeal.Glue

end
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.LibDenseLayer.lean ====
/-
  A dense layer inside a kernel, read at an index.

  A kernel computes a layer on a block of `K` rows as a product of the block `[K, N]` with the weights laid out
  `[N, Q]`, into a zero accumulator, plus the bias, one row `[1, Q]` laid along every row of the block; a clamp
  between two constants may follow.  Over the extended reals entry `(p, q)` of the result is
  `Σ n, X (p, n) * Wt (n, q) + bias (0, q)`, clamped.
-/
import proofs.«158323_j1486058684700_2_alg».proof.Proof.LibDenseBlock
import Idealize.ShloMosaic.Lib.ValueLayout

noncomputable section

namespace Idealize.ShloMosaic.DenseLayer

open Idealize.ShloMosaic Idealize.ShloMosaic.ValueIdx Idealize.ShloMosaic.DenseBlock

variable {K N Q : Nat} (wf : DotDims.WF ⟨2, ![K, N]⟩ ⟨2, ![N, Q]⟩ ⟨2, ![K, Q]⟩ [1] [0] [0] [1] [] [])

/-- Entry `(p, q)` of `X · Wt + bias`, the bias one row laid along every row. -/
theorem affine_apply {φ₁ φ₂ : FTy} (X : FVec Ideal ⟨2, ![K, N]⟩ φ₁) (Wt : FVec Ideal ⟨2, ![N, Q]⟩ φ₂)
    (bias : FVec Ideal ⟨2, ![1, Q]⟩ .f32) (hb : (⟨2, ![1, Q]⟩ : Shape).Broadcasts ⟨2, ![K, Q]⟩) (p : Fin K) (q : Fin Q) :
    addf (matmul (mmDims K N Q wf) none X Wt (constant ⟨2, ![K, Q]⟩ .f32 0x00000000#32))
        (broadcastTo ⟨2, ![K, Q]⟩ bias hb) (ix2 p q)
      = (∑ n : Fin N, X (ix2 p n) * Wt (ix2 n q)) + bias (ix2 (0 : Fin 1) q) := by
  show FloatOps.matmul (mmDims K N Q wf) none X Wt (constant ⟨2, ![K, Q]⟩ .f32 0x00000000#32) (ix2 p q)
      + broadcastTo ⟨2, ![K, Q]⟩ bias hb (ix2 p q) = _
  rw [matmul_zero_apply wf X Wt p q, broadcastTo_1b_ab_apply bias hb p q]

/-- The same, clamped from below by the splat of `lo` and then from above by the splat of `hi`. -/
theorem affine_clamped_apply {φ₁ φ₂ : FTy} (X : FVec Ideal ⟨2, ![K, N]⟩ φ₁) (Wt : FVec Ideal ⟨2, ![N, Q]⟩ φ₂)
    (bias : FVec Ideal ⟨2, ![1, Q]⟩ .f32) (hb : (⟨2, ![1, Q]⟩ : Shape).Broadcasts ⟨2, ![K, Q]⟩) (lo hi : BitVec 32)
    (p : Fin K) (q : Fin Q) :
    minimumf (broadcast ⟨2, ![K, Q]⟩ (Scalar.ofBits (F := Ideal) .f32 hi))
        (maximumf (broadcast ⟨2, ![K, Q]⟩ (Scalar.ofBits (F := Ideal) .f32 lo))
          (addf (matmul (mmDims K N Q wf) none X Wt (constant ⟨2, ![K, Q]⟩ .f32 0x00000000#32))
            (broadcastTo ⟨2, ![K, Q]⟩ bias hb))) (ix2 p q)
      = min (Ideal.ofBits .f32 hi) (max (Ideal.ofBits .f32 lo)
          ((∑ n : Fin N, X (ix2 p n) * Wt (ix2 n q)) + bias (ix2 (0 : Fin 1) q))) := by
  show min (Ideal.ofBits .f32 hi) (max (Ideal.ofBits .f32 lo)
      (addf (matmul (mmDims K N Q wf) none X Wt (constant ⟨2, ![K, Q]⟩ .f32 0x00000000#32))
        (broadcastTo ⟨2, ![K, Q]⟩ bias hb) (ix2 p q))) = _
  rw [affine_apply wf X Wt bias hb p q]

end Idealize.ShloMosaic.DenseLayer

end
-- ==== Proof.RegionAPay.lean ====
/-
  The first dense stage on one tile of 5000 rows, entry by entry over the extended reals.

  A tile's rows are combined with their neighbours' sums (own features scaled by one plus the column's weight,
  plus the neighbours' sum), multiplied by the weight matrix and shifted by the bias.  Entry (p, q) of the result
  depends on row p of the two feature blocks, on the whole weight row and on column q of the weights and the bias.
  The tile's column sums, and the column sums of the squares, are then one row laid along eight rows: entry (k, q)
  is the sum over the tile's 5000 rows of the stage's entry (p, q), or of its square, whatever k.
-/
import proofs.«158323_j1486058684700_2_alg».proof.Proof.Gen.KernelIdeal.Skeleton
import proofs.«158323_j1486058684700_2_alg».proof.Proof.Spec
import proofs.«158323_j1486058684700_2_alg».proof.Proof.LibDenseLayer
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.RegionA

open Cert.KernelIdeal Cert.KernelIdeal.Gen Idealize.ShloMosaic Idealize.ShloMosaic.ValueIdx

/-- The dense stage of one tile at entry `(p, q)`: the combined row `p` times column `q` of the weights, plus the bias. -/
theorem pay1_apply (v0 : Vec Ideal S1x128 .f32) (v4 v7 : Vec Ideal S5000x128 .f32) (v11 : Vec Ideal S128x128 .f32)
    (v14 : Vec Ideal S1x128 .f32) (p : Fin 5000) (q : Fin 128) :
    k0_pay1 (F := Ideal) v0 v4 v7 v11 v14 (ix2 p q)
      = (∑ n : Fin 128, ((GinSpec.cOne + v0 (ix2 (0 : Fin 1) n)) * v4 (ix2 p n) + v7 (ix2 p n)) * v11 (ix2 n q))
        + v14 (ix2 (0 : Fin 1) q) := by
  unfold k0_pay1
  refine (DenseLayer.affine_apply (K := 5000) (N := 128) (Q := 128) dot_S5000x128_S128x128_S5000x128_1_0_0_1_n_n_wf _ _ _ _ p q).trans ?_
  simp only [shapeCast_self]
  refine congrArg (· + v14 (ix2 (0 : Fin 1) q)) (Finset.sum_congr rfl fun n _ => ?_)
  rw [truncf_apply, truncf_apply, addf_apply, mulf_apply, broadcastTo_1b_ab_apply, addf_apply, broadcast_apply]
  rfl

/-- The row sums of a tile's block along its 5000 rows, read at column `q`. -/
theorem colsum_apply (v : FVec Ideal S5000x128 .f32) (hφ : FKind.Formats .f32)
    (hacc : (0x00000000#32 : BitVec 32) = 0x00000000#32) (q : Fin 128) :
    multiReduction (F := Ideal) .add [0] S128 v 0x00000000#32 reduces_S5000x128_S128 hφ hacc (ix1 q)
      = ∑ p : Fin 5000, v (ix2 p q) := by
  refine (Ideal.multiReduction_add_single v 0x00000000#32 reduces_S5000x128_S128 hφ hacc (ix1 q)).trans ?_
  refine Finset.sum_congr rfl fun p _ => congrArg v ?_
  funext a
  match a with
  | ⟨0, _⟩ => rfl
  | ⟨1, _⟩ => rfl

/-- The tile's column sums laid along eight rows: entry `(k, q)` is the sum over the tile's rows of the dense stage's
    entry `(p, q)`. -/
theorem pay2_apply (v0 : Vec Ideal S1x128 .f32) (v4 v7 : Vec Ideal S5000x128 .f32) (v11 : Vec Ideal S128x128 .f32)
    (v14 : Vec Ideal S1x128 .f32) (k : Fin 8) (q : Fin 128) :
    k0_pay2 (F := Ideal) v0 v4 v7 v11 v14 (ix2 k q)
      = ∑ p : Fin 5000, k0_pay1 (F := Ideal) v0 v4 v7 v11 v14 (ix2 p q) := by
  unfold k0_pay2
  refine (broadcastTo_1b_ab_apply _ _ k q).trans ?_
  rw [shapeCast_self]
  refine (shapeCast_a_1a_apply _ _ (0 : Fin 1) q).trans ?_
  exact colsum_apply _ _ _ q

/-- The same for the squares: entry `(k, q)` is the sum over the tile's rows of the square of the dense stage's entry
    `(p, q)`. -/
theorem pay3_apply (v0 : Vec Ideal S1x128 .f32) (v4 v7 : Vec Ideal S5000x128 .f32) (v11 : Vec Ideal S128x128 .f32)
    (v14 : Vec Ideal S1x128 .f32) (k : Fin 8) (q : Fin 128) :
    k0_pay3 (F := Ideal) v0 v4 v7 v11 v14 (ix2 k q)
      = ∑ p : Fin 5000, k0_pay1 (F := Ideal) v0 v4 v7 v11 v14 (ix2 p q) * k0_pay1 (F := Ideal) v0 v4 v7 v11 v14 (ix2 p q) := by
  unfold k0_pay3
  refine (broadcastTo_1b_ab_apply _ _ k q).trans ?_
  rw [shapeCast_self]
  refine (shapeCast_a_1a_apply _ _ (0 : Fin 1) q).trans ?_
  exact (colsum_apply _ _ _ q).trans (Finset.sum_congr rfl fun p _ => mulf_apply _ _ _)

end Cert.KernelIdeal.RegionA

end
-- ==== Proof.RegionABlocks.lean ====
/-
  The blocks one pass over the ten tiles of 5000 rows reads, as rows of the whole arrays.

  At tile `t` the block of the node features, and of the neighbours' sums, is rows `5000 t … 5000 t + 4999` of its
  array; the weight row, the weight matrix and the bias row are read whole at every tile.  So the dense stage of the
  tile's blocks at entry `(p, q)` is the dense stage of the whole arrays at row `5000 t + p`: it depends on that one
  row of the two feature arrays, on the whole weight row, and on column `q` of the weights and of the bias.
-/
import proofs.«158323_j1486058684700_2_alg».proof.Proof.Gen.KernelIdeal.Frame
import proofs.«158323_j1486058684700_2_alg».proof.Proof.Spec
import proofs.«158323_j1486058684700_2_alg».proof.Proof.RegionAPay
import Idealize.ShloMosaic.Lib.ValueIdx
import Idealize.ShloMosaic.Lib.Pipeline.Value

set_option maxRecDepth 16384

noncomputable section

open scoped BigOperators

namespace Cert.KernelIdeal.RegionA

open Cert.KernelIdeal Cert.KernelIdeal.Gen Idealize.ShloMosaic Idealize.ShloMosaic.ValueIdx Idealize.ShloMosaic.TcCoe
open Idealize.SL.Sem
open Idealize.ShloMosaic.Pipeline (Dat)

variable (V : (c : Dev nD) → (b : Ref sig .tc) → Buf (Elt Ideal) ((c : Thread nD τ).loc b))

/-- The five arrays the pass reads, as the specification's matrices and columns. -/
def X (c : Dev nD) : GinSpec.Mat := fun r n => (V c (Pipeline.arrRef spec0 0) : S50000x128.Idx → EReal) (ix2 r n)
def A (c : Dev nD) : GinSpec.Mat := fun r n => (V c (Pipeline.arrRef spec0 1) : S50000x128.Idx → EReal) (ix2 r n)
def E (c : Dev nD) : GinSpec.Col := fun n => (V c (Pipeline.arrRef spec0 2) : S1x128.Idx → EReal) (ix2 (0 : Fin 1) n)
def W (c : Dev nD) : GinSpec.Wt := fun n q => (V c (Pipeline.arrRef spec0 3) : S128x128.Idx → EReal) (ix2 n q)
def B (c : Dev nD) : GinSpec.Col := fun q => (V c (Pipeline.arrRef spec0 4) : S1x128.Idx → EReal) (ix2 (0 : Fin 1) q)

/-- The first dense stage of the whole arrays. -/
def L (c : Dev nD) : GinSpec.Mat := GinSpec.dense (GinSpec.combine (E V c) (X V c) (A V c)) (W V c) (B V c)

/-- A point of the pass as a tile number. -/
def tileOf (t : Fin cfg0.N) : Fin 10 := Fin.cast N_0 t

theorem hz : (![0, 0] : Fin 2 → Nat) = fun _ => 0 := funext fun a => by fin_cases a <;> rfl

/-- Where each window's block sits at tile `t`: the three row-tiled inputs and outputs at block row `t`, the whole-array
    inputs at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row `p` of tile `t`'s block of the node features is row `5000 t + p` of the array. -/
theorem x_block (c : Dev nD) (t : Fin cfg0.N) (p : Fin 5000) (n : Fin 128) :
    (iblk0 V c 0 t : Vec Ideal S5000x128 .f32) (ix2 p n) = X V c (GinSpec.tileRow (tileOf t) p) n := by
  obtain ⟨e0, e1, -⟩ := idx_facts t
  unfold iblk0 X
  rw [View.read_apply]
  refine congrArg (V c (Pipeline.arrRef spec0 0) : S50000x128.Idx → EReal) ?_
  funext a; apply Fin.ext
  match a with
  | ⟨0, _⟩ => show win0_0.index t (0 : Fin 2) * 5000 + 1 * p.val = t.val * 5000 + p.val; rw [e0]; omega
  | ⟨1, _⟩ => show win0_0.index t (1 : Fin 2) * 128 + 1 * n.val = n.val; rw [e1]; omega

/-- Row `p` of tile `t`'s block of the neighbours' sums is row `5000 t + p` of the array. -/
theorem a_block (c : Dev nD) (t : Fin cfg0.N) (p : Fin 5000) (n : Fin 128) :
    (iblk0 V c 1 t : Vec Ideal S5000x128 .f32) (ix2 p n) = A V c (GinSpec.tileRow (tileOf t) p) n := by
  obtain ⟨-, -, e0, e1, -⟩ := idx_facts t
  unfold iblk0 A
  rw [View.read_apply]
  refine congrArg (V c (Pipeline.arrRef spec0 1) : S50000x128.Idx → EReal) ?_
  funext a; apply Fin.ext
  match a with
  | ⟨0, _⟩ => show win0_1.index t (0 : Fin 2) * 5000 + 1 * p.val = t.val * 5000 + p.val; rw [e0]; omega
  | ⟨1, _⟩ => show win0_1.index t (1 : Fin 2) * 128 + 1 * n.val = n.val; rw [e1]; omega

/-- The weight row's block is the whole row at every tile. -/
theorem e_block (c : Dev nD) (t : Fin cfg0.N) (n : Fin 128) :
    (iblk0 V c 2 t : Vec Ideal S1x128 .f32) (ix2 (0 : Fin 1) n) = E V c n := by
  obtain ⟨-, -, -, -, e0, e1, -⟩ := idx_facts t
  unfold iblk0 E
  rw [View.read_apply]
  refine congrArg (V c (Pipeline.arrRef spec0 2) : S1x128.Idx → EReal) ?_
  funext a; apply Fin.ext
  match a with
  | ⟨0, _⟩ => show win0_2.index t (0 : Fin 2) * 1 + 1 * 0 = 0; rw [e0]
  | ⟨1, _⟩ => show win0_2.index t (1 : Fin 2) * 128 + 1 * n.val = n.val; rw [e1]; omega

/-- The weight matrix's block is the whole matrix at every tile. -/
theorem w_block (c : Dev nD) (t : Fin cfg0.N) (n q : Fin 128) :
    (iblk0 V c 3 t : Vec Ideal S128x128 .f32) (ix2 n q) = W V c n q := by
  obtain ⟨-, -, -, -, -, -, e0, e1, -⟩ := idx_facts t
  unfold iblk0 W
  rw [View.read_apply]
  refine congrArg (V c (Pipeline.arrRef spec0 3) : S128x128.Idx → EReal) ?_
  funext a; apply Fin.ext
  match a with
  | ⟨0, _⟩ => show win0_3.index t (0 : Fin 2) * 128 + 1 * n.val = n.val; rw [e0]; omega
  | ⟨1, _⟩ => show win0_3.index t (1 : Fin 2) * 128 + 1 * q.val = q.val; rw [e1]; omega

/-- The bias row's block is the whole row at every tile. -/
theorem b_block (c : Dev nD) (t : Fin cfg0.N) (q : Fin 128) :
    (iblk0 V c 4 t : Vec Ideal S1x128 .f32) (ix2 (0 : Fin 1) q) = B V c q := by
  obtain ⟨-, -, -, -, -, -, -, -, e0, e1, -⟩ := idx_facts t
  unfold iblk0 B
  rw [View.read_apply]
  refine congrArg (V c (Pipeline.arrRef spec0 4) : S1x128.Idx → EReal) ?_
  funext a; apply Fin.ext
  match a with
  | ⟨0, _⟩ => show win0_4.index t (0 : Fin 2) * 1 + 1 * 0 = 0; rw [e0]
  | ⟨1, _⟩ => show win0_4.index t (1 : Fin 2) * 128 + 1 * q.val = q.val; rw [e1]; omega

/-- The dense stage of tile `t`'s blocks at entry `(p, q)` is the whole arrays' stage at row `5000 t + p`. -/
theorem pay1_blocks (c : Dev nD) (t : Fin cfg0.N) (p : Fin 5000) (q : Fin 128) :
    k0_pay1 (F := Ideal) (iblk0 V c 2 t) (iblk0 V c 0 t) (iblk0 V c 1 t) (iblk0 V c 3 t) (iblk0 V c 4 t) (ix2 p q)
      = L V c (GinSpec.tileRow (tileOf t) p) q := by
  refine (pay1_apply _ _ _ _ _ p q).trans ?_
  unfold L GinSpec.dense GinSpec.combine
  refine congrArg₂ (· + ·) (Finset.sum_congr rfl fun n _ => ?_) (b_block V c t q)
  rw [e_block V c t n, x_block V c t p n, a_block V c t p n, w_block V c t n q]

end Cert.KernelIdeal.RegionA

end
-- ==== Proof.RegionA.lean ====
/-
  The first dense stage over all 50000 rows, and its column sums tile by tile, as the three arrays one pass over the
  ten tiles of 5000 rows leaves.

  At tile `t` the pass reads rows `5000 t … 5000 t + 4999` of the node features and of the neighbours' sums, and the
  whole weight row, weight matrix and bias row.  It leaves, in rows `5000 t … 5000 t + 4999` of the first array, the dense
  stage of those rows (entry `(r, q)` depends on row `r` of the two feature arrays only); and in rows `8 t … 8 t + 7` of
  the second and third arrays, eight copies of one row: the sums over the tile's 5000 rows of the stage's column `q`, and
  of its square (entry `(8 t + k, q)` depends on every row of tile `t`).  The ten blocks of each array tile it: the
  tile that holds row `r` of the first is `r / 5000`, of the other two `r / 8`.
-/
import proofs.«158323_j1486058684700_2_alg».proof.Proof.Gen.KernelIdeal.Frame
import proofs.«158323_j1486058684700_2_alg».proof.Proof.Spec
import proofs.«158323_j1486058684700_2_alg».proof.Proof.RegionABlocks
import Idealize.ShloMosaic.Lib.ValueIdx
import Idealize.ShloMosaic.Lib.Pipeline.Value

set_option maxRecDepth 16384

noncomputable section

open scoped BigOperators

namespace Cert.KernelIdeal.RegionA

open Cert.KernelIdeal Cert.KernelIdeal.Gen Idealize.ShloMosaic Idealize.ShloMosaic.ValueIdx Idealize.ShloMosaic.TcCoe
open Idealize.SL.Sem
open Idealize.ShloMosaic.Pipeline (Dat)

variable (V : (c : Dev nD) → (b : Ref sig .tc) → Buf (Elt Ideal) ((c : Thread nD τ).loc b))

/-- What the pass leaves in a tile's three output blocks: the dense stage of the tile's blocks, its column sums and the
    column sums of its squares. -/
theorem lin_block (x0 x1 : Vec Ideal S5000x128 .f32) (x2 : Vec Ideal S1x128 .f32) (x3 : Vec Ideal S128x128 .f32)
    (x4 : Vec Ideal S1x128 .f32) : out0_5 (F := Ideal) x0 x1 x2 x3 x4 = k0_pay1 (F := Ideal) x2 x0 x1 x3 x4 := by
  unfold out0_5
  rw [View.canon_unit_zero hz]
  simp only [View.ld_unit_zero (S := S5000x128) hz, View.ld_unit_zero (S := S1x128) hz, View.ld_unit_zero (S := S128x128) hz]

theorem sum_block (x0 x1 : Vec Ideal S5000x128 .f32) (x2 : Vec Ideal S1x128 .f32) (x3 : Vec Ideal S128x128 .f32)
    (x4 : Vec Ideal S1x128 .f32) : out0_6 (F := Ideal) x0 x1 x2 x3 x4 = k0_pay2 (F := Ideal) x2 x0 x1 x3 x4 := by
  unfold out0_6
  rw [View.canon_unit_zero hz]
  simp only [View.ld_unit_zero (S := S5000x128) hz, View.ld_unit_zero (S := S1x128) hz, View.ld_unit_zero (S := S128x128) hz]

theorem sqsum_block (x0 x1 : Vec Ideal S5000x128 .f32) (x2 : Vec Ideal S1x128 .f32) (x3 : Vec Ideal S128x128 .f32)
    (x4 : Vec Ideal S1x128 .f32) : out0_7 (F := Ideal) x0 x1 x2 x3 x4 = k0_pay3 (F := Ideal) x2 x0 x1 x3 x4 := by
  unfold out0_7
  rw [View.canon_unit_zero hz]
  simp only [View.ld_unit_zero (S := S5000x128) hz, View.ld_unit_zero (S := S1x128) hz, View.ld_unit_zero (S := S128x128) hz]

/-- The first output array as one function of its index: the dense stage of the whole arrays. -/
def linArr (c : Dev nD) : S50000x128.Idx → EReal := fun i => L V c ⟨(i 0).val, idx2_lt0 i⟩ ⟨(i 1).val, idx2_lt1 i⟩

/-- Row `p` of tile `t`'s block of the first output array is row `5000 t + p` of the array. -/
theorem lin_emb (t : Fin cfg0.N) (p : Fin 5000) (q : Fin 128) :
    ((cfg0.win 5).blk t).view.emb (ix2 p q) = ix2 (GinSpec.tileRow (tileOf t) p) q := by
  obtain ⟨-, -, -, -, -, -, -, -, -, -, e0, e1, -⟩ := idx_facts t
  funext a; apply Fin.ext
  match a with
  | ⟨0, _⟩ => show win0_5.index t (0 : Fin 2) * 5000 + 1 * p.val = t.val * 5000 + p.val; rw [e0]; omega
  | ⟨1, _⟩ => show win0_5.index t (1 : Fin 2) * 128 + 1 * q.val = q.val; rw [e1]; omega

/-- What tile `t` writes back to the first output array is block `t` of the dense stage of the whole arrays. -/
theorem lin_flushed (c : Dev nD) (t : Fin cfg0.N) :
    (dat0 (F := Ideal) V c).flushed 5 t = ((cfg0.win 5).blk t).view.read (Elt Ideal) (linArr V c) := by
  show (cfg0.win 5).cut (grid0.coords t) ((dat0 (F := Ideal) V c).after 5 t) = _
  rw [after0_5, lin_block]
  funext j
  obtain ⟨p, q, rfl⟩ : ∃ (p : Fin 5000) (q : Fin 128), j = ix2 p q := ⟨j 0, j 1, eq_ix2 j⟩
  rw [View.read_apply, lin_emb]
  exact pay1_blocks V c t p q

/-- An index of the first output array is in tile `t`'s block iff each coordinate is in the block's range. -/
theorem lin_mem (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v22_0).slice (win0_5.rect t)).set ↔ _
  rw [View.set_slice_whole, Rect.mem_set_unit]
  exact Iff.rfl

/-- Every row of the first output array is in the block of the tile that holds it, `r / 5000`. -/
theorem lin_cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : grid0.N = 10 := N_0
  have ht : (i 0).val / 5000 < cfg0.N := by show _ < grid0.N; rw [hN]; omega
  obtain ⟨-, -, -, -, -, -, -, -, -, -, e0, e1, -⟩ := idx_facts ⟨(i 0).val / 5000, ht⟩
  refine ⟨⟨(i 0).val / 5000, ht⟩, flush0_5 _, ?_⟩
  rw [lin_mem]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val
      ∧ (i 1).val < win0_5.index ⟨(i 0).val / 5000, ht⟩ (1 : Fin 2) * 128 + 128
    rw [e1]; omega

/-- THE FIRST OUTPUT ARRAY after the pass is the dense stage of the whole arrays. -/
theorem lin_final (c : Dev nD) (r : Fin 50000) (q : Fin 128) :
    (dat0 (F := Ideal) V c).arrAt 5 cfg0.N (ix2 r q) = L V c r q :=
  congrFun ((dat0 (F := Ideal) V c).arrAt_eq_of_cover 5 (linArr V c) (fun t _ => lin_flushed V c t) lin_cover) (ix2 r q)

/-- The second output array as one function of its index: at row `r`, the column sums of the dense stage over the rows of tile `r / 8`. -/
def sumArr (c : Dev nD) : S80x128.Idx → EReal := fun i =>
  ∑ p : Fin 5000, L V c (GinSpec.tileRow ⟨(i 0).val / 8, by have := idx2_lt0 i; omega⟩ p) ⟨(i 1).val, idx2_lt1 i⟩

/-- At row `8 s + k` it is tile `s`'s sum, whatever `k`. -/
theorem sumArr_apply (c : Dev nD) (s : Fin 10) (k : Fin 8) (q : Fin 128) (h : s.val * 8 + k.val < 80) :
    sumArr V c (ix2 ⟨s.val * 8 + k.val, h⟩ q) = ∑ p : Fin 5000, L V c (GinSpec.tileRow s p) q := by
  have e : (⟨(s.val * 8 + k.val) / 8, by omega⟩ : Fin 10) = s := Fin.ext (by show (s.val * 8 + k.val) / 8 = s.val; omega)
  show ∑ p : Fin 5000, L V c (GinSpec.tileRow ⟨(s.val * 8 + k.val) / 8, _⟩ p) q = _
  rw [e]

/-- Row `k` of tile `t`'s block of the array is row `8 t + k` of the array. -/
theorem sum_emb (t : Fin cfg0.N) (k : Fin 8) (q : Fin 128) (h : (tileOf t).val * 8 + k.val < 80) :
    ((cfg0.win 6).blk t).view.emb (ix2 k q) = ix2 (⟨(tileOf t).val * 8 + k.val, h⟩ : Fin 80) q := by
  obtain ⟨-, -, -, -, -, -, -, -, -, -, -, -, e0, e1, -⟩ := idx_facts t
  funext a; apply Fin.ext
  match a with
  | ⟨0, _⟩ => show win0_6.index t (0 : Fin 2) * 8 + 1 * k.val = t.val * 8 + k.val; rw [e0]; omega
  | ⟨1, _⟩ => show win0_6.index t (1 : Fin 2) * 128 + 1 * q.val = q.val; rw [e1]; omega

/-- What tile `t` writes back to the second output array is block `t` of that function: the sums over ALL the tile's rows. -/
theorem sum_flushed (c : Dev nD) (t : Fin cfg0.N) :
    (dat0 (F := Ideal) V c).flushed 6 t = ((cfg0.win 6).blk t).view.read (Elt Ideal) (sumArr V c) := by
  show (cfg0.win 6).cut (grid0.coords t) ((dat0 (F := Ideal) V c).after 6 t) = _
  rw [after0_6, sum_block]
  funext j
  obtain ⟨k, q, rfl⟩ : ∃ (k : Fin 8) (q : Fin 128), j = ix2 k q := ⟨j 0, j 1, eq_ix2 j⟩
  have h : (tileOf t).val * 8 + k.val < 80 := by have := (tileOf t).isLt; have := k.isLt; omega
  rw [View.read_apply, sum_emb t k q h, sumArr_apply V c (tileOf t) k q h]
  refine (pay2_apply _ _ _ _ _ k q).trans (Finset.sum_congr rfl fun p _ => ?_)
  rw [pay1_blocks V c t p q]

/-- An index of the array is in tile `t`'s block iff each coordinate is in the block's range. -/
theorem sum_mem (t : Fin cfg0.N) (i : S80x128.Idx) :
    i ∈ ((cfg0.win 6).blk t).view.set ↔ ∀ a : Fin 2, win0_6.index t a * S8x128.size a ≤ (i a).val
      ∧ (i a).val < win0_6.index t a * S8x128.size a + S8x128.size a := by
  show i ∈ ((View.whole main_v22_1).slice (win0_6.rect t)).set ↔ _
  rw [View.set_slice_whole, Rect.mem_set_unit]
  exact Iff.rfl

/-- Every row of the array is in the block of the tile that holds it, `r / 8`. -/
theorem sum_cover (i : S80x128.Idx) :
    ∃ t : Fin cfg0.N, (cfg0.win 6).flush t = true ∧ i ∈ ((cfg0.win 6).blk t).view.set := by
  have hi0 : (i 0).val < 80 := (i 0).isLt
  have hi1 : (i 1).val < 128 := (i 1).isLt
  have hN : grid0.N = 10 := N_0
  have ht : (i 0).val / 8 < cfg0.N := by show _ < grid0.N; rw [hN]; omega
  obtain ⟨-, -, -, -, -, -, -, -, -, -, -, -, e0, e1, -⟩ := idx_facts ⟨(i 0).val / 8, ht⟩
  refine ⟨⟨(i 0).val / 8, ht⟩, flush0_6 _, ?_⟩
  rw [sum_mem]
  intro a
  match a with
  | ⟨0, _⟩ =>
    show win0_6.index ⟨(i 0).val / 8, ht⟩ (0 : Fin 2) * 8 ≤ (i 0).val
      ∧ (i 0).val < win0_6.index ⟨(i 0).val / 8, ht⟩ (0 : Fin 2) * 8 + 8
    rw [e0]; show (i 0).val / 8 * 8 ≤ (i 0).val ∧ (i 0).val < (i 0).val / 8 * 8 + 8; omega
  | ⟨1, _⟩ =>
    show win0_6.index ⟨(i 0).val / 8, ht⟩ (1 : Fin 2) * 128 ≤ (i 1).val
      ∧ (i 1).val < win0_6.index ⟨(i 0).val / 8, ht⟩ (1 : Fin 2) * 128 + 128
    rw [e1]; omega

/-- THE SECOND OUTPUT ARRAY after the pass: rows `8 t … 8 t + 7` hold tile `t`'s column sums of the dense stage. -/
theorem sum_final (c : Dev nD) (t : Fin 10) (k : Fin 8) (q : Fin 128) :
    (dat0 (F := Ideal) V c).arrAt 6 cfg0.N (ix2 ⟨t.val * 8 + k.val, by omega⟩ q)
      = ∑ p : Fin 5000, L V c (GinSpec.tileRow t p) q :=
  (congrFun ((dat0 (F := Ideal) V c).arrAt_eq_of_cover 6 (sumArr V c) (fun s _ => sum_flushed V c s) sum_cover) _).trans
    (sumArr_apply V c t k q _)

/-- The third output array as one function of its index: at row `r`, the column sums of the squares of the dense stage over the rows of tile `r / 8`. -/
def sqsumArr (c : Dev nD) : S80x128.Idx → EReal := fun i =>
  ∑ p : Fin 5000, L V c (GinSpec.tileRow ⟨(i 0).val / 8, by have := idx2_lt0 i; omega⟩ p) ⟨(i 1).val, idx2_lt1 i⟩ * L V c (GinSpec.tileRow ⟨(i 0).val / 8, by have := idx2_lt0 i; omega⟩ p) ⟨(i 1).val, idx2_lt1 i⟩

/-- At row `8 s + k` it is tile `s`'s sum, whatever `k`. -/
theorem sqsumArr_apply (c : Dev nD) (s : Fin 10) (k : Fin 8) (q : Fin 128) (h : s.val * 8 + k.val < 80) :
    sqsumArr V c (ix2 ⟨s.val * 8 + k.val, h⟩ q) = ∑ p : Fin 5000, L V c (GinSpec.tileRow s p) q * L V c (GinSpec.tileRow s p) q := by
  have e : (⟨(s.val * 8 + k.val) / 8, by omega⟩ : Fin 10) = s := Fin.ext (by show (s.val * 8 + k.val) / 8 = s.val; omega)
  show ∑ p : Fin 5000, L V c (GinSpec.tileRow ⟨(s.val * 8 + k.val) / 8, _⟩ p) q * L V c (GinSpec.tileRow ⟨(s.val * 8 + k.val) / 8, _⟩ p) q = _
  rw [e]

/-- Row `k` of tile `t`'s block of the array is row `8 t + k` of the array. -/
theorem sqsum_emb (t : Fin cfg0.N) (k : Fin 8) (q : Fin 128) (h : (tileOf t).val * 8 + k.val < 80) :
    ((cfg0.win 7).blk t).view.emb (ix2 k q) = ix2 (⟨(tileOf t).val * 8 + k.val, h⟩ : Fin 80) q := by
  obtain ⟨-, -, -, -, -, -, -, -, -, -, -, -, -, -, e0, e1⟩ := idx_facts t
  funext a; apply Fin.ext
  match a with
  | ⟨0, _⟩ => show win0_7.index t (0 : Fin 2) * 8 + 1 * k.val = t.val * 8 + k.val; rw [e0]; omega
  | ⟨1, _⟩ => show win0_7.index t (1 : Fin 2) * 128 + 1 * q.val = q.val; rw [e1]; omega

/-- What tile `t` writes back to the third output array is block `t` of that function. -/
theorem sqsum_flushed (c : Dev nD) (t : Fin cfg0.N) :
    (dat0 (F := Ideal) V c).flushed 7 t = ((cfg0.win 7).blk t).view.read (Elt Ideal) (sqsumArr V c) := by
  show (cfg0.win 7).cut (grid0.coords t) ((dat0 (F := Ideal) V c).after 7 t) = _
  rw [after0_7, sqsum_block]
  funext j
  obtain ⟨k, q, rfl⟩ : ∃ (k : Fin 8) (q : Fin 128), j = ix2 k q := ⟨j 0, j 1, eq_ix2 j⟩
  have h : (tileOf t).val * 8 + k.val < 80 := by have := (tileOf t).isLt; have := k.isLt; omega
  rw [View.read_apply, sqsum_emb t k q h, sqsumArr_apply V c (tileOf t) k q h]
  refine (pay3_apply _ _ _ _ _ k q).trans (Finset.sum_congr rfl fun p _ => ?_)
  rw [pay1_blocks V c t p q]

/-- An index of the array is in tile `t`'s block iff each coordinate is in the block's range. -/
theorem sqsum_mem (t : Fin cfg0.N) (i : S80x128.Idx) :
    i ∈ ((cfg0.win 7).blk t).view.set ↔ ∀ a : Fin 2, win0_7.index t a * S8x128.size a ≤ (i a).val
      ∧ (i a).val < win0_7.index t a * S8x128.size a + S8x128.size a := by
  show i ∈ ((View.whole main_v22_2).slice (win0_7.rect t)).set ↔ _
  rw [View.set_slice_whole, Rect.mem_set_unit]
  exact Iff.rfl

/-- Every row of the array is in the block of the tile that holds it, `r / 8`. -/
theorem sqsum_cover (i : S80x128.Idx) :
    ∃ t : Fin cfg0.N, (cfg0.win 7).flush t = true ∧ i ∈ ((cfg0.win 7).blk t).view.set := by
  have hi0 : (i 0).val < 80 := (i 0).isLt
  have hi1 : (i 1).val < 128 := (i 1).isLt
  have hN : grid0.N = 10 := N_0
  have ht : (i 0).val / 8 < cfg0.N := by show _ < grid0.N; rw [hN]; omega
  obtain ⟨-, -, -, -, -, -, -, -, -, -, -, -, -, -, e0, e1⟩ := idx_facts ⟨(i 0).val / 8, ht⟩
  refine ⟨⟨(i 0).val / 8, ht⟩, flush0_7 _, ?_⟩
  rw [sqsum_mem]
  intro a
  match a with
  | ⟨0, _⟩ =>
    show win0_7.index ⟨(i 0).val / 8, ht⟩ (0 : Fin 2) * 8 ≤ (i 0).val
      ∧ (i 0).val < win0_7.index ⟨(i 0).val / 8, ht⟩ (0 : Fin 2) * 8 + 8
    rw [e0]; show (i 0).val / 8 * 8 ≤ (i 0).val ∧ (i 0).val < (i 0).val / 8 * 8 + 8; omega
  | ⟨1, _⟩ =>
    show win0_7.index ⟨(i 0).val / 8, ht⟩ (1 : Fin 2) * 128 ≤ (i 1).val
      ∧ (i 1).val < win0_7.index ⟨(i 0).val / 8, ht⟩ (1 : Fin 2) * 128 + 128
    rw [e1]; omega

/-- THE THIRD OUTPUT ARRAY after the pass: rows `8 t … 8 t + 7` hold tile `t`'s column sums of the squares of the dense stage. -/
theorem sqsum_final (c : Dev nD) (t : Fin 10) (k : Fin 8) (q : Fin 128) :
    (dat0 (F := Ideal) V c).arrAt 7 cfg0.N (ix2 ⟨t.val * 8 + k.val, by omega⟩ q)
      = ∑ p : Fin 5000, L V c (GinSpec.tileRow t p) q * L V c (GinSpec.tileRow t p) q :=
  (congrFun ((dat0 (F := Ideal) V c).arrAt_eq_of_cover 7 (sqsumArr V c) (fun s _ => sqsum_flushed V c s) sqsum_cover) _).trans
    (sqsumArr_apply V c t k q _)

end Cert.KernelIdeal.RegionA

end
-- ==== Proof.RegionBBody.lean ====
/-
  The second kernel call's body, read entry by entry.

  At a tile of 5000 rows the body normalises every column of the tile by a mean row and a variance row, scales, shifts
  and clamps below at zero, multiplies the clamped tile [5000, 128] by a weight matrix [128, 128] into a zero
  accumulator and adds a bias row.  So entry (p, q) of what it stores is

      Σ n, max ( ((x p n - mean n) * rsqrt (var n + eps)) * scale n + shift n ) 0 * w n q  +  bias q .

  It also sums every column of that result, and of its entrywise square, over the tile's 5000 rows, and stores each
  of the two rows of sums spread over eight equal rows.  The two changes of number format before the product are the
  identity on extended reals.
-/
import proofs.«158323_j1486058684700_2_alg».proof.Proof.Gen.KernelIdeal.Skeleton
import proofs.«158323_j1486058684700_2_alg».proof.Proof.Spec
import proofs.«158323_j1486058684700_2_alg».proof.Proof.LibDenseLayer
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.RegionB

open Cert.KernelIdeal Cert.KernelIdeal.Gen Idealize.ShloMosaic Idealize.SL.Sem
open Idealize.ShloMosaic.ValueIdx

/-- Row `p`, column `n` of the normalised, scaled, shifted, clamped tile. -/
def normed (x0 : Vec Ideal S5000x128 .f32) (x1 x2 x3 x4 : Vec Ideal S1x128 .f32) (p : Fin 5000) (n : Fin 128) : EReal :=
  max (((x0 (ix2 p n) - x1 (ix2 (0 : Fin 1) n)) * Ideal.rsqrt (x2 (ix2 (0 : Fin 1) n) + GinSpec.cEps))
    * x3 (ix2 (0 : Fin 1) n) + x4 (ix2 (0 : Fin 1) n)) GinSpec.cZero

/-- Row `p`, column `q` of the dense layer's block: the normalised row times the weights' column, plus the bias. -/
theorem lin_apply (x0 : Vec Ideal S5000x128 .f32) (x1 x2 x3 x4 : Vec Ideal S1x128 .f32) (x5 : Vec Ideal S128x128 .f32)
    (x6 : Vec Ideal S1x128 .f32) (p : Fin 5000) (q : Fin 128) :
    k1_pay3 x0 x1 x2 x3 x4 x5 x6 (ix2 p q)
      = (∑ n : Fin 128, normed x0 x1 x2 x3 x4 p n * x5 (ix2 n q)) + x6 (ix2 (0 : Fin 1) q) := by
  unfold k1_pay3
  simp only [shapeCast_self]
  refine (DenseLayer.affine_apply dot_S5000x128_S128x128_S5000x128_1_0_0_1_n_n_wf _ _ _ _ p q).trans ?_
  refine congrArg (· + x6 (ix2 (0 : Fin 1) q)) (Finset.sum_congr rfl fun n _ => ?_)
  rw [truncf_apply, truncf_apply, maximumf_apply, addf_apply, mulf_apply, mulf_apply, subf_apply, broadcast_apply,
    broadcastTo_1b_ab_apply, broadcastTo_1b_ab_apply, broadcastTo_1b_ab_apply, broadcastTo_1b_ab_apply]
  rfl

/-- A sum down the 5000 rows of a tile, started from the zero word, at column `q`: the plain sum of the column. -/
theorem colsum_apply (src : FVec Ideal S5000x128 .f32) (q : Fin 128) :
    multiReduction (F := Ideal) .add [0] S128 src 0x00000000#32 reduces_S5000x128_S128 (.inl rfl) rfl (ix1 q)
      = ∑ p : Fin 5000, src (ix2 p q) := by
  refine (Ideal.multiReduction_add_single src 0x00000000#32 reduces_S5000x128_S128 (.inl rfl) rfl (ix1 q)).trans ?_
  show (∑ p : Fin 5000, src (reduces_S5000x128_S128.lift (ix1 q) p)) = _
  refine Finset.sum_congr rfl fun p _ => congrArg src (funext fun a => Fin.ext ?_)
  match a with
  | ⟨0, _⟩ => rfl
  | ⟨1, _⟩ => rfl

/-- The row of column sums of the dense layer's block. -/
theorem sums_apply (x0 : Vec Ideal S5000x128 .f32) (x1 x2 x3 x4 : Vec Ideal S1x128 .f32) (x5 : Vec Ideal S128x128 .f32)
    (x6 : Vec Ideal S1x128 .f32) (q : Fin 128) :
    k1_pay4 x0 x1 x2 x3 x4 x5 x6 (ix2 (0 : Fin 1) q) = ∑ p : Fin 5000, k1_pay3 x0 x1 x2 x3 x4 x5 x6 (ix2 p q) := by
  show shapeCast S1x128 (multiReduction (F := Ideal) .add [0] S128 (k1_pay3 x0 x1 x2 x3 x4 x5 x6) 0x00000000#32
    reduces_S5000x128_S128 (.inl rfl) rfl) shapeCasts_S128_S1x128 (ix2 (0 : Fin 1) q) = _
  rw [shapeCast_a_1a_apply, colsum_apply]

/-- The row of column sums of the entrywise square of the dense layer's block. -/
theorem sqsums_apply (x0 : Vec Ideal S5000x128 .f32) (x1 x2 x3 x4 : Vec Ideal S1x128 .f32) (x5 : Vec Ideal S128x128 .f32)
    (x6 : Vec Ideal S1x128 .f32) (q : Fin 128) :
    k1_pay5 x0 x1 x2 x3 x4 x5 x6 (ix2 (0 : Fin 1) q)
      = ∑ p : Fin 5000, k1_pay3 x0 x1 x2 x3 x4 x5 x6 (ix2 p q) * k1_pay3 x0 x1 x2 x3 x4 x5 x6 (ix2 p q) := by
  show shapeCast S1x128 (multiReduction (F := Ideal) .add [0] S128
    (mulf (k1_pay3 x0 x1 x2 x3 x4 x5 x6) (k1_pay3 x0 x1 x2 x3 x4 x5 x6)) 0x00000000#32
    reduces_S5000x128_S128 (.inl rfl) rfl) shapeCasts_S128_S1x128 (ix2 (0 : Fin 1) q) = _
  rw [shapeCast_a_1a_apply, colsum_apply]
  rfl

/-- One row spread over eight: every one of the eight rows is the row. -/
theorem spread_sums_apply (v : FVec Ideal S1x128 .f32) (k : Fin 8) (q : Fin 128) :
    k1_pay1 v (ix2 k q) = v (ix2 (0 : Fin 1) q) := by
  unfold k1_pay1
  simp only [shapeCast_self]
  rw [broadcastTo_1b_ab_apply]

/-- The same for the second row of sums. -/
theorem spread_sqsums_apply (v : FVec Ideal S1x128 .f32) (k : Fin 8) (q : Fin 128) :
    k1_pay2 v (ix2 k q) = v (ix2 (0 : Fin 1) q) := by
  unfold k1_pay2
  simp only [shapeCast_self]
  rw [broadcastTo_1b_ab_apply]

end Cert.KernelIdeal.RegionB

end
-- ==== Proof.RegionB.lean ====
/-
  The second kernel call: normalise, clamp, dense layer, and each tile's column sums.

  The call walks ten tiles of 5000 rows of a [50000, 128] matrix.  At a tile it reads the tile's rows, four rows of
  128 columns (mean, variance, scale, shift), a weight matrix [128, 128] and a bias row, and writes three things: the
  tile's rows of the dense layer applied to the normalised, clamped matrix; and, into eight equal rows each of two
  [80, 128] arrays, the sums over the tile's rows of every column of that result and of its entrywise square.

  The body's value at an entry is read in the module before this one.  Here: each window's block is its array read at
  the tile's rows (the matrix windows move one tile per point, the row and weight windows stay); the ten tiles cover
  the 50000 rows (row r lies in tile r / 5000) and the ten blocks of eight rows cover the 80 rows (row r in block
  r / 8); so the three output arrays end as functions of the arrays the call finds, entry by entry.
-/
import proofs.«158323_j1486058684700_2_alg».proof.Proof.Gen.KernelIdeal.Frame
import proofs.«158323_j1486058684700_2_alg».proof.Proof.Spec
import proofs.«158323_j1486058684700_2_alg».proof.Proof.RegionBBody
import Idealize.ShloMosaic.Lib.ValueIdx
import Idealize.ShloMosaic.Lib.Pipeline.Value
import Idealize.ShloMosaic.Lib.ValueLayout

set_option maxRecDepth 16384

noncomputable section

namespace Cert.KernelIdeal.RegionB

open Cert.KernelIdeal Cert.KernelIdeal.Gen Idealize.ShloMosaic Idealize.ShloMosaic.TcCoe Idealize.SL.Sem
open Idealize.ShloMosaic.Pipeline (Dat)
open Idealize.ShloMosaic.ValueIdx

/-! ## The arrays the call finds, as the layer's matrices and rows -/

variable (V : (c : Dev nD) → (b : Ref sig .tc) → Buf (Elt Ideal) ((c : Thread nD τ).loc b))

/-- The matrix the call normalises: the array of window 0. -/
abbrev X (c : Dev nD) : GinSpec.Mat := fun r n => V c (Pipeline.arrRef spec1 0) (ix2 r n)
/-- The columns' means: the one row of window 1. -/
abbrev MU (c : Dev nD) : GinSpec.Col := fun q => V c (Pipeline.arrRef spec1 1) (ix2 (0 : Fin 1) q)
/-- The columns' variances: the one row of window 2. -/
abbrev VAR (c : Dev nD) : GinSpec.Col := fun q => V c (Pipeline.arrRef spec1 2) (ix2 (0 : Fin 1) q)
/-- The scale: the one row of window 3. -/
abbrev G (c : Dev nD) : GinSpec.Col := fun q => V c (Pipeline.arrRef spec1 3) (ix2 (0 : Fin 1) q)
/-- The shift: the one row of window 4. -/
abbrev BE (c : Dev nD) : GinSpec.Col := fun q => V c (Pipeline.arrRef spec1 4) (ix2 (0 : Fin 1) q)
/-- The weights: the array of window 5. -/
abbrev W (c : Dev nD) : GinSpec.Wt := fun n q => V c (Pipeline.arrRef spec1 5) (ix2 n q)
/-- The bias: the one row of window 6. -/
abbrev B (c : Dev nD) : GinSpec.Col := fun q => V c (Pipeline.arrRef spec1 6) (ix2 (0 : Fin 1) q)
/-- The normalised, scaled, shifted, clamped matrix. -/
abbrev H (c : Dev nD) : GinSpec.Mat := GinSpec.normRelu (X V c) (MU V c) (VAR V c) (G V c) (BE V c)
/-- The dense layer applied to it. -/
abbrev L (c : Dev nD) : GinSpec.Mat := GinSpec.dense (H V c) (W V c) (B V c)

/-- What the first output array ends holding: the dense layer's result, entry by entry. -/
def linResult (c : Dev nD) : S50000x128.Idx → EReal := fun i => L V c (i 0) (i 1)

/-- The tile a row of an [80, 128] array of sums belongs to: eight rows per tile. -/
def tileOf (i : S80x128.Idx) : Fin 10 := ⟨(i 0).val / 8, by have h : (i 0).val < 80 := idx2_lt0 i; omega⟩

/-- What the second output array ends holding: in each of a tile's eight rows, the tile's column sums. -/
def sumResult (c : Dev nD) : S80x128.Idx → EReal :=
  fun i => ∑ p : Fin 5000, L V c (GinSpec.tileRow (tileOf i) p) (i 1)

/-- What the third output array ends holding: in each of a tile's eight rows, the tile's column sums of squares. -/
def sqsumResult (c : Dev nD) : S80x128.Idx → EReal :=
  fun i => ∑ p : Fin 5000, L V c (GinSpec.tileRow (tileOf i) p) (i 1) * L V c (GinSpec.tileRow (tileOf i) p) (i 1)

/-! ## Where each window's block sits -/

theorem origin : (![0, 0] : Fin 2 → Nat) = fun _ => 0 := funext fun a => by fin_cases a <;> rfl

/-- At tile `t` the matrix windows (input 0; outputs 7, 8, 9) sit `t` blocks down the rows; the row windows and the
    weights stay at the origin. -/
theorem where_0 : ∀ t : Fin cfg1.N, win1_0.index t (0 : Fin 2) = t.val ∧ win1_0.index t (1 : Fin 2) = 0 :=
  (by decide +kernel : ∀ t : Fin grid1.N, _)
theorem where_1 : ∀ t : Fin cfg1.N, win1_1.index t (0 : Fin 2) = 0 ∧ win1_1.index t (1 : Fin 2) = 0 :=
  (by decide +kernel : ∀ t : Fin grid1.N, _)
theorem where_2 : ∀ t : Fin cfg1.N, win1_2.index t (0 : Fin 2) = 0 ∧ win1_2.index t (1 : Fin 2) = 0 :=
  (by decide +kernel : ∀ t : Fin grid1.N, _)
theorem where_3 : ∀ t : Fin cfg1.N, win1_3.index t (0 : Fin 2) = 0 ∧ win1_3.index t (1 : Fin 2) = 0 :=
  (by decide +kernel : ∀ t : Fin grid1.N, _)
theorem where_4 : ∀ t : Fin cfg1.N, win1_4.index t (0 : Fin 2) = 0 ∧ win1_4.index t (1 : Fin 2) = 0 :=
  (by decide +kernel : ∀ t : Fin grid1.N, _)
theorem where_5 : ∀ t : Fin cfg1.N, win1_5.index t (0 : Fin 2) = 0 ∧ win1_5.index t (1 : Fin 2) = 0 :=
  (by decide +kernel : ∀ t : Fin grid1.N, _)
theorem where_6 : ∀ t : Fin cfg1.N, win1_6.index t (0 : Fin 2) = 0 ∧ win1_6.index t (1 : Fin 2) = 0 :=
  (by decide +kernel : ∀ t : Fin grid1.N, _)
theorem where_7 : ∀ t : Fin cfg1.N, win1_7.index t (0 : Fin 2) = t.val ∧ win1_7.index t (1 : Fin 2) = 0 :=
  (by decide +kernel : ∀ t : Fin grid1.N, _)
theorem where_8 : ∀ t : Fin cfg1.N, win1_8.index t (0 : Fin 2) = t.val ∧ win1_8.index t (1 : Fin 2) = 0 :=
  (by decide +kernel : ∀ t : Fin grid1.N, _)
theorem where_9 : ∀ t : Fin cfg1.N, win1_9.index t (0 : Fin 2) = t.val ∧ win1_9.index t (1 : Fin 2) = 0 :=
  (by decide +kernel : ∀ t : Fin grid1.N, _)

/-- Entry `(p, n)` of the matrix window's block at tile `t` is the matrix at row `t * 5000 + p`. -/
theorem tile_apply (c : Dev nD) (t : Fin cfg1.N) (p : Fin 5000) (n : Fin 128) (r : Fin 50000)
    (hr : r.val = t.val * 5000 + p.val) :
    (iblk1 V c 0 t : Vec Ideal S5000x128 .f32) (ix2 p n) = X V c r n := by
  obtain ⟨e0, e1⟩ := where_0 t
  unfold iblk1
  rw [View.read_apply]
  show V c (Pipeline.arrRef spec1 0) _ = V c (Pipeline.arrRef spec1 0) (ix2 r n)
  congr 1
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * n.val = n.val; rw [e1]; omega

/-- The mean window's block, at any tile, is the mean row. -/
theorem mean_apply (c : Dev nD) (t : Fin cfg1.N) (q : Fin 128) :
    (iblk1 V c 1 t : Vec Ideal S1x128 .f32) (ix2 (0 : Fin 1) q) = MU V c q := by
  obtain ⟨e0, e1⟩ := where_1 t
  unfold iblk1
  rw [View.read_apply]
  show V c (Pipeline.arrRef spec1 1) _ = V c (Pipeline.arrRef spec1 1) (ix2 (0 : Fin 1) q)
  congr 1
  funext a
  apply Fin.ext
  match a with
  | ⟨0, _⟩ => show win1_1.index t (0 : Fin 2) * 1 + 1 * 0 = 0; rw [e0]
  | ⟨1, _⟩ => show win1_1.index t (1 : Fin 2) * 128 + 1 * q.val = q.val; rw [e1]; omega

/-- The variance window's block, at any tile, is the variance row. -/
theorem var_apply (c : Dev nD) (t : Fin cfg1.N) (q : Fin 128) :
    (iblk1 V c 2 t : Vec Ideal S1x128 .f32) (ix2 (0 : Fin 1) q) = VAR V c q := by
  obtain ⟨e0, e1⟩ := where_2 t
  unfold iblk1
  rw [View.read_apply]
  show V c (Pipeline.arrRef spec1 2) _ = V c (Pipeline.arrRef spec1 2) (ix2 (0 : Fin 1) q)
  congr 1
  funext a
  apply Fin.ext
  match a with
  | ⟨0, _⟩ => show win1_2.index t (0 : Fin 2) * 1 + 1 * 0 = 0; rw [e0]
  | ⟨1, _⟩ => show win1_2.index t (1 : Fin 2) * 128 + 1 * q.val = q.val; rw [e1]; omega

/-- The scale window's block, at any tile, is the scale row. -/
theorem scale_apply (c : Dev nD) (t : Fin cfg1.N) (q : Fin 128) :
    (iblk1 V c 3 t : Vec Ideal S1x128 .f32) (ix2 (0 : Fin 1) q) = G V c q := by
  obtain ⟨e0, e1⟩ := where_3 t
  unfold iblk1
  rw [View.read_apply]
  show V c (Pipeline.arrRef spec1 3) _ = V c (Pipeline.arrRef spec1 3) (ix2 (0 : Fin 1) q)
  congr 1
  funext a
  apply Fin.ext
  match a with
  | ⟨0, _⟩ => show win1_3.index t (0 : Fin 2) * 1 + 1 * 0 = 0; rw [e0]
  | ⟨1, _⟩ => show win1_3.index t (1 : Fin 2) * 128 + 1 * q.val = q.val; rw [e1]; omega

/-- The shift window's block, at any tile, is the shift row. -/
theorem shift_apply (c : Dev nD) (t : Fin cfg1.N) (q : Fin 128) :
    (iblk1 V c 4 t : Vec Ideal S1x128 .f32) (ix2 (0 : Fin 1) q) = BE V c q := by
  obtain ⟨e0, e1⟩ := where_4 t
  unfold iblk1
  rw [View.read_apply]
  show V c (Pipeline.arrRef spec1 4) _ = V c (Pipeline.arrRef spec1 4) (ix2 (0 : Fin 1) q)
  congr 1
  funext a
  apply Fin.ext
  match a with
  | ⟨0, _⟩ => show win1_4.index t (0 : Fin 2) * 1 + 1 * 0 = 0; rw [e0]
  | ⟨1, _⟩ => show win1_4.index t (1 : Fin 2) * 128 + 1 * q.val = q.val; rw [e1]; omega

/-- The bias window's block, at any tile, is the bias row. -/
theorem bias_apply (c : Dev nD) (t : Fin cfg1.N) (q : Fin 128) :
    (iblk1 V c 6 t : Vec Ideal S1x128 .f32) (ix2 (0 : Fin 1) q) = B V c q := by
  obtain ⟨e0, e1⟩ := where_6 t
  unfold iblk1
  rw [View.read_apply]
  show V c (Pipeline.arrRef spec1 6) _ = V c (Pipeline.arrRef spec1 6) (ix2 (0 : Fin 1) q)
  congr 1
  funext a
  apply Fin.ext
  match a with
  | ⟨0, _⟩ => show win1_6.index t (0 : Fin 2) * 1 + 1 * 0 = 0; rw [e0]
  | ⟨1, _⟩ => show win1_6.index t (1 : Fin 2) * 128 + 1 * q.val = q.val; rw [e1]; omega

/-- The weight window's block, at any tile, is the weight matrix. -/
theorem weight_apply (c : Dev nD) (t : Fin cfg1.N) (n q : Fin 128) :
    (iblk1 V c 5 t : Vec Ideal S128x128 .f32) (ix2 n q) = W V c n q := by
  obtain ⟨e0, e1⟩ := where_5 t
  unfold iblk1
  rw [View.read_apply]
  show V c (Pipeline.arrRef spec1 5) _ = V c (Pipeline.arrRef spec1 5) (ix2 n q)
  congr 1
  funext a
  apply Fin.ext
  match a with
  | ⟨0, _⟩ => show win1_5.index t (0 : Fin 2) * 128 + 1 * n.val = n.val; rw [e0]; omega
  | ⟨1, _⟩ => show win1_5.index t (1 : Fin 2) * 128 + 1 * q.val = q.val; rw [e1]; omega

/-! ## The body at a tile, in terms of the arrays -/

/-- Entry `(p, q)` of the dense layer's block at tile `t` is the dense layer's result at row `t * 5000 + p`. -/
theorem lin_tile (c : Dev nD) (t : Fin cfg1.N) (p : Fin 5000) (q : Fin 128) (r : Fin 50000)
    (hr : r.val = t.val * 5000 + p.val) :
    k1_pay3 (iblk1 V c 0 t) (iblk1 V c 1 t) (iblk1 V c 2 t) (iblk1 V c 3 t) (iblk1 V c 4 t) (iblk1 V c 5 t) (iblk1 V c 6 t)
      (ix2 p q) = L V c r q := by
  refine (lin_apply (iblk1 V c 0 t) (iblk1 V c 1 t) (iblk1 V c 2 t) (iblk1 V c 3 t) (iblk1 V c 4 t) (iblk1 V c 5 t)
    (iblk1 V c 6 t) p q).trans ?_
  show _ = (∑ n : Fin 128, H V c r n * W V c n q) + B V c q
  rw [bias_apply V c t q]
  refine congrArg (· + B V c q) (Finset.sum_congr rfl fun n _ => ?_)
  unfold normed
  rw [tile_apply V c t p n r hr, mean_apply V c t n, var_apply V c t n, scale_apply V c t n, shift_apply V c t n,
    weight_apply V c t n q]
  rfl

/-! ## What a tile writes back -/

/-- What tile `t` writes back to the first output is block `t` of `linResult`. -/
theorem lin_written (c : Dev nD) (t : Fin cfg1.N) :
    (dat1 V c).flushed 7 t = ((cfg1.win 7).blk t).view.read (Elt Ideal) (linResult V c) := by
  show (cfg1.win 7).cut (grid1.coords t) ((dat1 V c).after 7 t) = _
  rw [after1_7]
  unfold out1_7
  rw [View.canon_unit_zero origin]
  simp only [View.ld_unit_zero (S := S5000x128) origin, View.ld_unit_zero (S := S1x128) origin,
    View.ld_unit_zero (S := S128x128) origin]
  obtain ⟨e0, e1⟩ := where_7 t
  have hN : cfg1.N = 10 := N_1
  have ht : t.val < 10 := hN ▸ t.isLt
  funext j
  obtain ⟨p, q, rfl⟩ : ∃ (p : Fin 5000) (q : Fin 128), j = ix2 p q := ⟨j 0, j 1, eq_ix2 j⟩
  have hp : p.val < 5000 := p.isLt
  have hemb : ((cfg1.win 7).blk t).view.emb (ix2 p q)
      = ix2 (⟨t.val * 5000 + p.val, by omega⟩ : Fin 50000) q := by
    funext a
    apply Fin.ext
    match a with
    | ⟨0, _⟩ => show win1_7.index t (0 : Fin 2) * 5000 + 1 * p.val = t.val * 5000 + p.val; rw [e0]; omega
    | ⟨1, _⟩ => show win1_7.index t (1 : Fin 2) * 128 + 1 * q.val = q.val; rw [e1]; omega
  show k1_pay3 (iblk1 V c 0 t) (iblk1 V c 1 t) (iblk1 V c 2 t) (iblk1 V c 3 t) (iblk1 V c 4 t) (iblk1 V c 5 t) (iblk1 V c 6 t) (ix2 p q)
    = linResult V c (((cfg1.win 7).blk t).view.emb (ix2 p q))
  rw [hemb]
  exact lin_tile V c t p q ⟨t.val * 5000 + p.val, by omega⟩ rfl

/-- What tile `t` writes back to the second output is block `t` of `sumResult`: eight rows of the tile's column sums. -/
theorem sums_written (c : Dev nD) (t : Fin cfg1.N) :
    (dat1 V c).flushed 8 t = ((cfg1.win 8).blk t).view.read (Elt Ideal) (sumResult V c) := by
  show (cfg1.win 8).cut (grid1.coords t) ((dat1 V c).after 8 t) = _
  rw [after1_8]
  unfold out1_8
  rw [View.canon_unit_zero origin]
  simp only [View.ld_unit_zero (S := S5000x128) origin, View.ld_unit_zero (S := S1x128) origin,
    View.ld_unit_zero (S := S128x128) origin]
  obtain ⟨e0, e1⟩ := where_8 t
  have hN : cfg1.N = 10 := N_1
  have ht : t.val < 10 := hN ▸ t.isLt
  funext j
  obtain ⟨k, q, rfl⟩ : ∃ (k : Fin 8) (q : Fin 128), j = ix2 k q := ⟨j 0, j 1, eq_ix2 j⟩
  have hk : k.val < 8 := k.isLt
  have hemb : ((cfg1.win 8).blk t).view.emb (ix2 k q)
      = ix2 (⟨t.val * 8 + k.val, by omega⟩ : Fin 80) q := by
    funext a
    apply Fin.ext
    match a with
    | ⟨0, _⟩ => show win1_8.index t (0 : Fin 2) * 8 + 1 * k.val = t.val * 8 + k.val; rw [e0]; omega
    | ⟨1, _⟩ => show win1_8.index t (1 : Fin 2) * 128 + 1 * q.val = q.val; rw [e1]; omega
  show k1_pay1 (k1_pay4 (iblk1 V c 0 t) (iblk1 V c 1 t) (iblk1 V c 2 t) (iblk1 V c 3 t) (iblk1 V c 4 t) (iblk1 V c 5 t) (iblk1 V c 6 t)) (ix2 k q)
    = sumResult V c (((cfg1.win 8).blk t).view.emb (ix2 k q))
  rw [hemb]
  refine (spread_sums_apply _ k q).trans ?_
  refine (sums_apply (iblk1 V c 0 t) (iblk1 V c 1 t) (iblk1 V c 2 t) (iblk1 V c 3 t) (iblk1 V c 4 t) (iblk1 V c 5 t) (iblk1 V c 6 t) q).trans ?_
  have hrow : ∀ p : Fin 5000, (GinSpec.tileRow (tileOf (ix2 (⟨t.val * 8 + k.val, by omega⟩ : Fin 80) q)) p).val
      = t.val * 5000 + p.val := fun p => by
    show (t.val * 8 + k.val) / 8 * 5000 + p.val = t.val * 5000 + p.val
    omega
  show _ = ∑ p : Fin 5000, L V c (GinSpec.tileRow (tileOf (ix2 (⟨t.val * 8 + k.val, by omega⟩ : Fin 80) q)) p) q
  refine Finset.sum_congr rfl fun p _ => ?_
  exact lin_tile V c t p q _ (hrow p)

/-- What tile `t` writes back to the third output is block `t` of `sqsumResult`: eight rows of the tile's column sums of squares. -/
theorem sqsums_written (c : Dev nD) (t : Fin cfg1.N) :
    (dat1 V c).flushed 9 t = ((cfg1.win 9).blk t).view.read (Elt Ideal) (sqsumResult V c) := by
  show (cfg1.win 9).cut (grid1.coords t) ((dat1 V c).after 9 t) = _
  rw [after1_9]
  unfold out1_9
  rw [View.canon_unit_zero origin]
  simp only [View.ld_unit_zero (S := S5000x128) origin, View.ld_unit_zero (S := S1x128) origin,
    View.ld_unit_zero (S := S128x128) origin]
  obtain ⟨e0, e1⟩ := where_9 t
  have hN : cfg1.N = 10 := N_1
  have ht : t.val < 10 := hN ▸ t.isLt
  funext j
  obtain ⟨k, q, rfl⟩ : ∃ (k : Fin 8) (q : Fin 128), j = ix2 k q := ⟨j 0, j 1, eq_ix2 j⟩
  have hk : k.val < 8 := k.isLt
  have hemb : ((cfg1.win 9).blk t).view.emb (ix2 k q)
      = ix2 (⟨t.val * 8 + k.val, by omega⟩ : Fin 80) q := by
    funext a
    apply Fin.ext
    match a with
    | ⟨0, _⟩ => show win1_9.index t (0 : Fin 2) * 8 + 1 * k.val = t.val * 8 + k.val; rw [e0]; omega
    | ⟨1, _⟩ => show win1_9.index t (1 : Fin 2) * 128 + 1 * q.val = q.val; rw [e1]; omega
  show k1_pay2 (k1_pay5 (iblk1 V c 0 t) (iblk1 V c 1 t) (iblk1 V c 2 t) (iblk1 V c 3 t) (iblk1 V c 4 t) (iblk1 V c 5 t) (iblk1 V c 6 t)) (ix2 k q)
    = sqsumResult V c (((cfg1.win 9).blk t).view.emb (ix2 k q))
  rw [hemb]
  refine (spread_sqsums_apply _ k q).trans ?_
  refine (sqsums_apply (iblk1 V c 0 t) (iblk1 V c 1 t) (iblk1 V c 2 t) (iblk1 V c 3 t) (iblk1 V c 4 t) (iblk1 V c 5 t) (iblk1 V c 6 t) q).trans ?_
  have hrow : ∀ p : Fin 5000, (GinSpec.tileRow (tileOf (ix2 (⟨t.val * 8 + k.val, by omega⟩ : Fin 80) q)) p).val
      = t.val * 5000 + p.val := fun p => by
    show (t.val * 8 + k.val) / 8 * 5000 + p.val = t.val * 5000 + p.val
    omega
  show _ = ∑ p : Fin 5000, L V c (GinSpec.tileRow (tileOf (ix2 (⟨t.val * 8 + k.val, by omega⟩ : Fin 80) q)) p) q
      * L V c (GinSpec.tileRow (tileOf (ix2 (⟨t.val * 8 + k.val, by omega⟩ : Fin 80) q)) p) q
  refine Finset.sum_congr rfl fun p _ => ?_
  rw [lin_tile V c t p q _ (hrow p)]

/-! ## The blocks cover the arrays -/

/-- An index of the array lies in point `t`'s block of window 7 iff each coordinate lies in the block's range on its axis. -/
theorem mem_lin_tile (t : Fin cfg1.N) (i : S50000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v39_0).slice (win1_7.rect t)).set ↔ _
  rw [View.set_slice_whole, Rect.mem_set_unit]
  exact Iff.rfl

/-- An index of the array lies in point `t`'s block of window 8 iff each coordinate lies in the block's range on its axis. -/
theorem mem_sums_tile (t : Fin cfg1.N) (i : S80x128.Idx) :
    i ∈ ((cfg1.win 8).blk t).view.set ↔ ∀ a : Fin 2, win1_8.index t a * S8x128.size a ≤ (i a).val
      ∧ (i a).val < win1_8.index t a * S8x128.size a + S8x128.size a := by
  show i ∈ ((View.whole main_v39_1).slice (win1_8.rect t)).set ↔ _
  rw [View.set_slice_whole, Rect.mem_set_unit]
  exact Iff.rfl

/-- An index of the array lies in point `t`'s block of window 9 iff each coordinate lies in the block's range on its axis. -/
theorem mem_sqsums_tile (t : Fin cfg1.N) (i : S80x128.Idx) :
    i ∈ ((cfg1.win 9).blk t).view.set ↔ ∀ a : Fin 2, win1_9.index t a * S8x128.size a ≤ (i a).val
      ∧ (i a).val < win1_9.index t a * S8x128.size a + S8x128.size a := by
  show i ∈ ((View.whole main_v39_2).slice (win1_9.rect t)).set ↔ _
  rw [View.set_slice_whole, Rect.mem_set_unit]
  exact Iff.rfl

/-- Every index of the first output lies in some tile's block: row `r` in tile `r / 5000`. -/
theorem lin_tiles_cover (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨e0, e1⟩ := where_7 t
  refine ⟨t, flush1_7 t, ?_⟩
  rw [mem_lin_tile]
  intro a
  match a with
  | ⟨0, _⟩ =>
    show win1_7.index t (0 : Fin 2) * 5000 ≤ (i 0).val ∧ (i 0).val < win1_7.index t (0 : Fin 2) * 5000 + 5000
    rw [e0, ht]; omega
  | ⟨1, _⟩ =>
    show win1_7.index t (1 : Fin 2) * 128 ≤ (i 1).val ∧ (i 1).val < win1_7.index t (1 : Fin 2) * 128 + 128
    rw [e1]; omega

/-- Every index of the second output lies in some tile's block: row `r` in block `r / 8`. -/
theorem sums_tiles_cover (i : S80x128.Idx) :
    ∃ t : Fin cfg1.N, (cfg1.win 8).flush t = true ∧ i ∈ ((cfg1.win 8).blk t).view.set := by
  have hi0 : (i 0).val < 80 := (i 0).isLt
  have hi1 : (i 1).val < 128 := (i 1).isLt
  have hN : cfg1.N = 10 := N_1
  obtain ⟨t, ht⟩ : ∃ t : Fin cfg1.N, t.val = (i 0).val / 8 := ⟨⟨(i 0).val / 8, by rw [hN]; omega⟩, rfl⟩
  obtain ⟨e0, e1⟩ := where_8 t
  refine ⟨t, flush1_8 t, ?_⟩
  rw [mem_sums_tile]
  intro a
  match a with
  | ⟨0, _⟩ =>
    show win1_8.index t (0 : Fin 2) * 8 ≤ (i 0).val ∧ (i 0).val < win1_8.index t (0 : Fin 2) * 8 + 8
    rw [e0, ht]; omega
  | ⟨1, _⟩ =>
    show win1_8.index t (1 : Fin 2) * 128 ≤ (i 1).val ∧ (i 1).val < win1_8.index t (1 : Fin 2) * 128 + 128
    rw [e1]; omega

/-- Every index of the third output lies in some tile's block: row `r` in block `r / 8`. -/
theorem sqsums_tiles_cover (i : S80x128.Idx) :
    ∃ t : Fin cfg1.N, (cfg1.win 9).flush t = true ∧ i ∈ ((cfg1.win 9).blk t).view.set := by
  have hi0 : (i 0).val < 80 := (i 0).isLt
  have hi1 : (i 1).val < 128 := (i 1).isLt
  have hN : cfg1.N = 10 := N_1
  obtain ⟨t, ht⟩ : ∃ t : Fin cfg1.N, t.val = (i 0).val / 8 := ⟨⟨(i 0).val / 8, by rw [hN]; omega⟩, rfl⟩
  obtain ⟨e0, e1⟩ := where_9 t
  refine ⟨t, flush1_9 t, ?_⟩
  rw [mem_sqsums_tile]
  intro a
  match a with
  | ⟨0, _⟩ =>
    show win1_9.index t (0 : Fin 2) * 8 ≤ (i 0).val ∧ (i 0).val < win1_9.index t (0 : Fin 2) * 8 + 8
    rw [e0, ht]; omega
  | ⟨1, _⟩ =>
    show win1_9.index t (1 : Fin 2) * 128 ≤ (i 1).val ∧ (i 1).val < win1_9.index t (1 : Fin 2) * 128 + 128
    rw [e1]; omega

/-! ## The three output arrays after the call -/

theorem lin_array (c : Dev nD) : (dat1 V c).arrAt 7 cfg1.N = linResult V c :=
  (dat1 V c).arrAt_eq_of_cover 7 (linResult V c) (fun t _ => lin_written V c t) lin_tiles_cover

theorem sum_array (c : Dev nD) : (dat1 V c).arrAt 8 cfg1.N = sumResult V c :=
  (dat1 V c).arrAt_eq_of_cover 8 (sumResult V c) (fun t _ => sums_written V c t) sums_tiles_cover

theorem sqsum_array (c : Dev nD) : (dat1 V c).arrAt 9 cfg1.N = sqsumResult V c :=
  (dat1 V c).arrAt_eq_of_cover 9 (sqsumResult V c) (fun t _ => sqsums_written V c t) sqsums_tiles_cover

/-- Row `k` of tile `t`'s eight rows of an [80, 128] array of sums belongs to tile `t`. -/
theorem tileOf_row (t : Fin 10) (k : Fin 8) (q : Fin 128) (h : t.val * 8 + k.val < 80) :
    tileOf (ix2 (⟨t.val * 8 + k.val, h⟩ : Fin 80) q) = t :=
  Fin.ext (by
    show (t.val * 8 + k.val) / 8 = t.val
    have := k.isLt
    omega)

/-- Entry `(r, q)` of the first output after the call: the dense layer of the normalised, clamped matrix. -/
theorem lin_final (c : Dev nD) (r : Fin 50000) (q : Fin 128) :
    (dat1 (F := Ideal) V c).arrAt 7 cfg1.N (ix2 r q) = L V c r q := by
  rw [lin_array V c]
  rfl

/-- Each of tile `t`'s eight rows of the second output after the call: the tile's column sums of the dense layer. -/
theorem sum_final (c : Dev nD) (t : Fin 10) (k : Fin 8) (q : Fin 128) :
    (dat1 (F := Ideal) V c).arrAt 8 cfg1.N
        (ix2 (⟨t.val * 8 + k.val, by have := t.isLt; have := k.isLt; omega⟩ : Fin 80) q)
      = ∑ p : Fin 5000, L V c (GinSpec.tileRow t p) q := by
  rw [sum_array V c]
  show (∑ p : Fin 5000, L V c (GinSpec.tileRow (tileOf (ix2 (⟨t.val * 8 + k.val, _⟩ : Fin 80) q)) p) q) = _
  rw [tileOf_row t k q]

/-- Each of tile `t`'s eight rows of the third output after the call: the tile's column sums of squares. -/
theorem sqsum_final (c : Dev nD) (t : Fin 10) (k : Fin 8) (q : Fin 128) :
    (dat1 (F := Ideal) V c).arrAt 9 cfg1.N
        (ix2 (⟨t.val * 8 + k.val, by have := t.isLt; have := k.isLt; omega⟩ : Fin 80) q)
      = ∑ p : Fin 5000, L V c (GinSpec.tileRow t p) q * L V c (GinSpec.tileRow t p) q := by
  rw [sqsum_array V c]
  show (∑ p : Fin 5000, L V c (GinSpec.tileRow (tileOf (ix2 (⟨t.val * 8 + k.val, _⟩ : Fin 80) q)) p) q
    * L V c (GinSpec.tileRow (tileOf (ix2 (⟨t.val * 8 + k.val, _⟩ : Fin 80) q)) p) q) = _
  rw [tileOf_row t k q]

end Cert.KernelIdeal.RegionB

end
-- ==== Proof.RegionC.lean ====
/-
  The third kernel call: each column of the second dense layer's output is normalised, scaled, shifted and clamped.

  The call walks ten tiles of 5000 rows of a [50000, 128] matrix.  At a tile it reads the tile's rows, and four
  whole rows of 128 columns (a mean, a variance, a scale, a shift), and writes for row p and column q of the tile

      max ( ((x p q - mean q) * rsqrt (var q + eps)) * scale q + shift q ) 0 .

  Three steps.  The body's value at an entry of a tile (every operation acts entry by entry; a [1, 128] row spread
  over 5000 rows reads the one row at the entry's column).  Each tile's blocks are the arrays read at rows
  t * 5000 + p: the matrix windows move one tile per point, the row windows stay.  The ten tiles cover the 50000
  rows, row r lying in tile r / 5000, so the output array ends as the one function above of the arrays the call finds.
-/
import proofs.«158323_j1486058684700_2_alg».proof.Proof.Gen.KernelIdeal.Frame
import proofs.«158323_j1486058684700_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.RegionC

open Cert.KernelIdeal Cert.KernelIdeal.Gen Idealize.ShloMosaic Idealize.ShloMosaic.TcCoe Idealize.SL.Sem
open Idealize.ShloMosaic.Pipeline (Dat)
open Idealize.ShloMosaic.ValueIdx

/-! ## The body's value at an entry of a tile -/

/-- Row `p`, column `q` of what the body stores: the tile's entry less the mean's, times the reciprocal root of the
    guarded variance's, times the scale's, plus the shift's, clamped below at zero. -/
theorem body_apply (x0 : Vec Ideal S5000x128 .f32) (x1 x2 x3 x4 : Vec Ideal S1x128 .f32) (p : Fin 5000) (q : Fin 128) :
    k2_pay1 x0 x1 x2 x3 x4 (ix2 p q)
      = max (((x0 (ix2 p q) - x1 (ix2 (0 : Fin 1) q)) * Ideal.rsqrt (x2 (ix2 (0 : Fin 1) q) + GinSpec.cEps))
          * x3 (ix2 (0 : Fin 1) q) + x4 (ix2 (0 : Fin 1) q)) GinSpec.cZero := by
  unfold k2_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply]
  rfl

/-! ## The arrays the call finds, as the layer's matrices and rows -/

variable (V : (c : Dev nD) → (b : Ref sig .tc) → Buf (Elt Ideal) ((c : Thread nD τ).loc b))

/-- The matrix the call normalises: the array of window 0. -/
abbrev X (c : Dev nD) : GinSpec.Mat := fun r n => V c (Pipeline.arrRef spec2 0) (ix2 r n)
/-- The columns' means: the one row of window 1. -/
abbrev MU (c : Dev nD) : GinSpec.Col := fun q => V c (Pipeline.arrRef spec2 1) (ix2 (0 : Fin 1) q)
/-- The columns' variances: the one row of window 2. -/
abbrev VAR (c : Dev nD) : GinSpec.Col := fun q => V c (Pipeline.arrRef spec2 2) (ix2 (0 : Fin 1) q)
/-- The scale: the one row of window 3. -/
abbrev G (c : Dev nD) : GinSpec.Col := fun q => V c (Pipeline.arrRef spec2 3) (ix2 (0 : Fin 1) q)
/-- The shift: the one row of window 4. -/
abbrev BE (c : Dev nD) : GinSpec.Col := fun q => V c (Pipeline.arrRef spec2 4) (ix2 (0 : Fin 1) q)

/-- What the output array ends holding: the normalised, scaled, shifted, clamped matrix, entry by entry. -/
def result (c : Dev nD) : S50000x128.Idx → EReal :=
  fun i => GinSpec.normRelu (X V c) (MU V c) (VAR V c) (G V c) (BE V c) (i 0) (i 1)

/-! ## Where each window's block sits -/

theorem origin : (![0, 0] : Fin 2 → Nat) = fun _ => 0 := funext fun a => by fin_cases a <;> rfl

/-- At tile `t` the two matrix windows (the input and the output) sit `t` blocks down the rows; the four row
    windows stay at the origin. -/
theorem where_blocks : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Entry `(p, q)` of the matrix window's block at tile `t` is the matrix at row `t * 5000 + p`. -/
theorem tile_apply (c : Dev nD) (t : Fin cfg2.N) (p : Fin 5000) (q : Fin 128) (r : Fin 50000)
    (hr : r.val = t.val * 5000 + p.val) :
    (iblk2 V c 0 t : Vec Ideal S5000x128 .f32) (ix2 p q) = X V c r q := by
  obtain ⟨e0, e1, -⟩ := where_blocks t
  unfold iblk2
  rw [View.read_apply]
  show V c (Pipeline.arrRef spec2 0) _ = V c (Pipeline.arrRef spec2 0) (ix2 r q)
  congr 1
  funext a
  apply Fin.ext
  match a with
  | ⟨0, _⟩ => show win2_0.index t (0 : Fin 2) * 5000 + 1 * p.val = r.val; rw [e0, hr]; omega
  | ⟨1, _⟩ => show win2_0.index t (1 : Fin 2) * 128 + 1 * q.val = q.val; rw [e1]; omega

/-- The mean window's block, at any tile, is the mean row. -/
theorem mean_apply (c : Dev nD) (t : Fin cfg2.N) (q : Fin 128) :
    (iblk2 V c 1 t : Vec Ideal S1x128 .f32) (ix2 (0 : Fin 1) q) = MU V c q := by
  obtain ⟨-, -, e0, e1, -⟩ := where_blocks t
  unfold iblk2
  rw [View.read_apply]
  show V c (Pipeline.arrRef spec2 1) _ = V c (Pipeline.arrRef spec2 1) (ix2 (0 : Fin 1) q)
  congr 1
  funext a
  apply Fin.ext
  match a with
  | ⟨0, _⟩ => show win2_1.index t (0 : Fin 2) * 1 + 1 * 0 = 0; rw [e0]
  | ⟨1, _⟩ => show win2_1.index t (1 : Fin 2) * 128 + 1 * q.val = q.val; rw [e1]; omega

/-- The variance window's block, at any tile, is the variance row. -/
theorem var_apply (c : Dev nD) (t : Fin cfg2.N) (q : Fin 128) :
    (iblk2 V c 2 t : Vec Ideal S1x128 .f32) (ix2 (0 : Fin 1) q) = VAR V c q := by
  obtain ⟨-, -, -, -, e0, e1, -⟩ := where_blocks t
  unfold iblk2
  rw [View.read_apply]
  show V c (Pipeline.arrRef spec2 2) _ = V c (Pipeline.arrRef spec2 2) (ix2 (0 : Fin 1) q)
  congr 1
  funext a
  apply Fin.ext
  match a with
  | ⟨0, _⟩ => show win2_2.index t (0 : Fin 2) * 1 + 1 * 0 = 0; rw [e0]
  | ⟨1, _⟩ => show win2_2.index t (1 : Fin 2) * 128 + 1 * q.val = q.val; rw [e1]; omega

/-- The scale window's block, at any tile, is the scale row. -/
theorem scale_apply (c : Dev nD) (t : Fin cfg2.N) (q : Fin 128) :
    (iblk2 V c 3 t : Vec Ideal S1x128 .f32) (ix2 (0 : Fin 1) q) = G V c q := by
  obtain ⟨-, -, -, -, -, -, e0, e1, -⟩ := where_blocks t
  unfold iblk2
  rw [View.read_apply]
  show V c (Pipeline.arrRef spec2 3) _ = V c (Pipeline.arrRef spec2 3) (ix2 (0 : Fin 1) q)
  congr 1
  funext a
  apply Fin.ext
  match a with
  | ⟨0, _⟩ => show win2_3.index t (0 : Fin 2) * 1 + 1 * 0 = 0; rw [e0]
  | ⟨1, _⟩ => show win2_3.index t (1 : Fin 2) * 128 + 1 * q.val = q.val; rw [e1]; omega

/-- The shift window's block, at any tile, is the shift row. -/
theorem shift_apply (c : Dev nD) (t : Fin cfg2.N) (q : Fin 128) :
    (iblk2 V c 4 t : Vec Ideal S1x128 .f32) (ix2 (0 : Fin 1) q) = BE V c q := by
  obtain ⟨-, -, -, -, -, -, -, -, e0, e1, -⟩ := where_blocks t
  unfold iblk2
  rw [View.read_apply]
  show V c (Pipeline.arrRef spec2 4) _ = V c (Pipeline.arrRef spec2 4) (ix2 (0 : Fin 1) q)
  congr 1
  funext a
  apply Fin.ext
  match a with
  | ⟨0, _⟩ => show win2_4.index t (0 : Fin 2) * 1 + 1 * 0 = 0; rw [e0]
  | ⟨1, _⟩ => show win2_4.index t (1 : Fin 2) * 128 + 1 * q.val = q.val; rw [e1]; omega

/-! ## What a tile writes back, and the whole array -/

/-- What tile `t` writes back is block `t` of `result`. -/
theorem tile_written (c : Dev nD) (t : Fin cfg2.N) :
    (dat2 V c).flushed 5 t = ((cfg2.win 5).blk t).view.read (Elt Ideal) (result V c) := by
  show (cfg2.win 5).cut (grid2.coords t) ((dat2 V c).after 5 t) = _
  rw [after2_5]
  unfold out2_5
  rw [View.canon_unit_zero origin]
  simp only [View.ld_unit_zero (S := S5000x128) origin, View.ld_unit_zero (S := S1x128) origin]
  obtain ⟨-, -, -, -, -, -, -, -, -, -, e0, e1⟩ := where_blocks t
  have hN : cfg2.N = 10 := N_2
  funext j
  obtain ⟨p, q, rfl⟩ : ∃ (p : Fin 5000) (q : Fin 128), j = ix2 p q := ⟨j 0, j 1, eq_ix2 j⟩
  have ht : t.val < 10 := hN ▸ t.isLt
  have hemb : ((cfg2.win 5).blk t).view.emb (ix2 p q)
      = ix2 (⟨t.val * 5000 + p.val, by have := p.isLt; omega⟩ : Fin 50000) q := by
    funext a
    apply Fin.ext
    match a with
    | ⟨0, _⟩ => show win2_5.index t (0 : Fin 2) * 5000 + 1 * p.val = t.val * 5000 + p.val; rw [e0]; omega
    | ⟨1, _⟩ => show win2_5.index t (1 : Fin 2) * 128 + 1 * q.val = q.val; rw [e1]; omega
  show k2_pay1 (iblk2 V c 0 t) (iblk2 V c 1 t) (iblk2 V c 2 t) (iblk2 V c 3 t) (iblk2 V c 4 t) (ix2 p q)
    = result V c (((cfg2.win 5).blk t).view.emb (ix2 p q))
  rw [hemb]
  refine (body_apply (iblk2 V c 0 t) (iblk2 V c 1 t) (iblk2 V c 2 t) (iblk2 V c 3 t) (iblk2 V c 4 t) p q).trans ?_
  rw [tile_apply V c t p q ⟨t.val * 5000 + p.val, by have := p.isLt; omega⟩ rfl, mean_apply V c t q, var_apply V c t q,
    scale_apply V c t q, shift_apply V c t q]
  rfl

/-- An index of the array lies in tile `t`'s block iff each coordinate lies in the block's range on its axis. -/
theorem mem_tile (t : Fin cfg2.N) (i : S50000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v56).slice (win2_5.rect t)).set ↔ _
  rw [View.set_slice_whole, Rect.mem_set_unit]
  exact Iff.rfl

/-- Every index of the array lies in some tile's block: row `r` in tile `r / 5000`. -/
theorem tiles_cover (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, -, -, -, -, -, -, e0, e1⟩ := where_blocks t
  refine ⟨t, flush2_5 t, ?_⟩
  rw [mem_tile]
  intro a
  match a with
  | ⟨0, _⟩ =>
    show win2_5.index t (0 : Fin 2) * 5000 ≤ (i 0).val ∧ (i 0).val < win2_5.index t (0 : Fin 2) * 5000 + 5000
    rw [e0, ht]; omega
  | ⟨1, _⟩ =>
    show win2_5.index t (1 : Fin 2) * 128 ≤ (i 1).val ∧ (i 1).val < win2_5.index t (1 : Fin 2) * 128 + 128
    rw [e1]; omega

/-- The output array after the call is `result`. -/
theorem out_array (c : Dev nD) : (dat2 V c).arrAt 5 cfg2.N = result V c :=
  (dat2 V c).arrAt_eq_of_cover 5 (result V c) (fun t _ => tile_written V c t) tiles_cover

/-- Entry `(r, q)` of the output array after the call: the matrix normalised by the mean and variance rows, scaled,
    shifted and clamped below at zero. -/
theorem out_final (c : Dev nD) (r : Fin 50000) (q : Fin 128) :
    (dat2 (F := Ideal) V c).arrAt 5 cfg2.N (ix2 r q)
      = GinSpec.normRelu (X V c) (MU V c) (VAR V c) (G V c) (BE V c) r q := by
  rw [out_array V c]
  rfl

end Cert.KernelIdeal.RegionC

end
-- ==== Proof.KernelValue.lean ====
/-
  The idealized kernel program's result, entry by entry.

  The third grid computation normalises the second stage's dense output by the mean row and the variance row the host
  made from the second computation's per-tile partial sums; the second computation did the same to the first stage's
  dense output before applying the second dense layer; the first computation combined every node's features with its
  neighbours' sum and applied the first dense layer.  Read back through the three computations and the host stretches
  between them, entry (r, q) of the result is the layer of the specification with every mean and variance taken from
  tile sums, over the arrays as launched.
-/
import proofs.«158323_j1486058684700_2_alg».proof.Proof.GlueMid
import proofs.«158323_j1486058684700_2_alg».proof.Proof.RegionA
import proofs.«158323_j1486058684700_2_alg».proof.Proof.RegionB
import proofs.«158323_j1486058684700_2_alg».proof.Proof.RegionC

set_option maxRecDepth 16384

noncomputable section

open scoped BigOperators

namespace Cert.KernelIdeal.Out

open Cert.KernelIdeal Cert.KernelIdeal.Gen Cert.KernelIdeal.HostStat Cert.KernelIdeal.Glue
open Idealize.ShloMosaic Idealize.ShloMosaic.TcCoe Idealize.SL.Sem Idealize.ShloMosaic.ValueIdx

variable (m : (ℓ : Loc nD τ sig) → Buf (Elt Ideal) ℓ) (ρ : Dev nD → PrngReg)

/-! ## The launch arrays as the specification's data -/

abbrev aE (c : Dev nD) : GinSpec.Col := fun _ => m ((c : Thread nD τ).loc main_arg2) (ix1 (0 : Fin 1))
abbrev aX (c : Dev nD) : GinSpec.Mat := fun r n => m ((c : Thread nD τ).loc main_arg0) (ix2 r n)
abbrev aA (c : Dev nD) : GinSpec.Mat := fun r n =>
  neighbourSum (m ((c : Thread nD τ).loc main_arg0)) (m ((c : Thread nD τ).loc main_arg1)) (ix2 r n)
abbrev aW1 (c : Dev nD) : GinSpec.Wt := fun n q => m ((c : Thread nD τ).loc main_arg3) (ix2 n q)
abbrev aB1 (c : Dev nD) : GinSpec.Col := fun q => m ((c : Thread nD τ).loc main_arg4) (ix1 q)
abbrev aG1 (c : Dev nD) : GinSpec.Col := fun q => m ((c : Thread nD τ).loc main_arg5) (ix1 q)
abbrev aBe1 (c : Dev nD) : GinSpec.Col := fun q => m ((c : Thread nD τ).loc main_arg6) (ix1 q)
abbrev aW2 (c : Dev nD) : GinSpec.Wt := fun n q => m ((c : Thread nD τ).loc main_arg7) (ix2 n q)
abbrev aB2 (c : Dev nD) : GinSpec.Col := fun q => m ((c : Thread nD τ).loc main_arg8) (ix1 q)
abbrev aG2 (c : Dev nD) : GinSpec.Col := fun q => m ((c : Thread nD τ).loc main_arg9) (ix1 q)
abbrev aBe2 (c : Dev nD) : GinSpec.Col := fun q => m ((c : Thread nD τ).loc main_arg10) (ix1 q)

/-- The first stage's dense output, the first stage's result, the second stage's dense output. -/
def L1 (c : Dev nD) : GinSpec.Mat := GinSpec.dense (GinSpec.combine (aE m c) (aX m c) (aA m c)) (aW1 m c) (aB1 m c)
def H1 (c : Dev nD) : GinSpec.Mat :=
  GinSpec.normRelu (L1 m c) (GinSpec.colMeanTiled (L1 m c)) (GinSpec.colVarTiled (L1 m c)) (aG1 m c) (aBe1 m c)
def L2 (c : Dev nD) : GinSpec.Mat := GinSpec.dense (H1 m c) (aW2 m c) (aB2 m c)

/-! ## A statistic row of tile sums is the tiled column statistic -/

/-- If row `8·t` of an 80-row array holds tile `t`'s column sums of `f`, its statistic row is `f`'s tiled column mean. -/
theorem stat_of_tiles (S : FVec Ideal S80x128 .f32) (f : GinSpec.Mat)
    (hS : ∀ (t : Fin 10) (q : Fin 128), S (ix2 (⟨t.val * 8, by have := t.isLt; omega⟩ : Fin 80) q) = ∑ p : Fin 5000, f (GinSpec.tileRow t p) q)
    (q : Fin 128) : statRow S (ix2 (0 : Fin 1) q) = Ideal.div (GinSpec.colSumTiled f q) GinSpec.cCount := by
  rw [statRow_apply]
  unfold GinSpec.colSumTiled
  exact congrArg (fun s => Ideal.div (GinSpec.cZero + s) GinSpec.cCount) (Finset.sum_congr rfl fun t _ => hS t q)

/-! ## The first computation -/

theorem regionA_L (c : Dev nD) : RegionA.L (V1 m ρ) c = L1 m c := by
  funext r q
  show GinSpec.dense (GinSpec.combine (fun n => V1 m ρ c (Pipeline.arrRef spec0 2) (ix2 (0 : Fin 1) n))
      (fun r n => V1 m ρ c (Pipeline.arrRef spec0 0) (ix2 r n)) (fun r n => V1 m ρ c (Pipeline.arrRef spec0 1) (ix2 r n)))
      (fun n q => V1 m ρ c (Pipeline.arrRef spec0 3) (ix2 n q)) (fun q => V1 m ρ c (Pipeline.arrRef spec0 4) (ix2 (0 : Fin 1) q)) r q = _
  rw [in0_0, in0_1, in0_2, in0_3, in0_4]
  simp only [weightRow_apply, asRow_apply]
  rfl

theorem lin1_at (c : Dev nD) (r : Fin 50000) (q : Fin 128) : (dat0 (V1 m ρ) c).arrAt 5 cfg0.N (ix2 r q) = L1 m c r q :=
  (RegionA.lin_final (V1 m ρ) c r q).trans (congrFun (congrFun (regionA_L m ρ c) r) q)

theorem mean1_at (c : Dev nD) (q : Fin 128) :
    statRow ((dat0 (V1 m ρ) c).arrAt 6 cfg0.N) (ix2 (0 : Fin 1) q) = GinSpec.colMeanTiled (L1 m c) q :=
  stat_of_tiles _ (L1 m c) (fun t q => (RegionA.sum_final (V1 m ρ) c t (0 : Fin 8) q).trans (by rw [regionA_L])) q

theorem var1_at (c : Dev nD) (q : Fin 128) :
    varRow (statRow ((dat0 (V1 m ρ) c).arrAt 6 cfg0.N)) (statRow ((dat0 (V1 m ρ) c).arrAt 7 cfg0.N)) (ix2 (0 : Fin 1) q)
      = GinSpec.colVarTiled (L1 m c) q := by
  rw [varRow_apply, mean1_at,
    stat_of_tiles _ (fun r q => L1 m c r q * L1 m c r q)
      (fun t q => (RegionA.sqsum_final (V1 m ρ) c t (0 : Fin 8) q).trans (by rw [regionA_L])) q]
  rfl

/-! ## The second computation -/

theorem regionB_L (c : Dev nD) : RegionB.L (V3 m ρ) c = L2 m c := by
  funext r q
  show GinSpec.dense (GinSpec.normRelu (fun r n => V3 m ρ c (Pipeline.arrRef spec1 0) (ix2 r n))
      (fun q => V3 m ρ c (Pipeline.arrRef spec1 1) (ix2 (0 : Fin 1) q)) (fun q => V3 m ρ c (Pipeline.arrRef spec1 2) (ix2 (0 : Fin 1) q))
      (fun q => V3 m ρ c (Pipeline.arrRef spec1 3) (ix2 (0 : Fin 1) q)) (fun q => V3 m ρ c (Pipeline.arrRef spec1 4) (ix2 (0 : Fin 1) q)))
      (fun n q => V3 m ρ c (Pipeline.arrRef spec1 5) (ix2 n q)) (fun q => V3 m ρ c (Pipeline.arrRef spec1 6) (ix2 (0 : Fin 1) q)) r q = _
  rw [in1_0, in1_1, in1_2, in1_3, in1_4, in1_5, in1_6]
  simp only [lin1_at, mean1_at, var1_at, asRow_apply]
  rfl

theorem lin2_at (c : Dev nD) (r : Fin 50000) (q : Fin 128) : (dat1 (V3 m ρ) c).arrAt 7 cfg1.N (ix2 r q) = L2 m c r q :=
  (RegionB.lin_final (V3 m ρ) c r q).trans (congrFun (congrFun (regionB_L m ρ c) r) q)

theorem mean2_at (c : Dev nD) (q : Fin 128) :
    statRow ((dat1 (V3 m ρ) c).arrAt 8 cfg1.N) (ix2 (0 : Fin 1) q) = GinSpec.colMeanTiled (L2 m c) q :=
  stat_of_tiles _ (L2 m c) (fun t q => (RegionB.sum_final (V3 m ρ) c t (0 : Fin 8) q).trans (by rw [regionB_L])) q

theorem var2_at (c : Dev nD) (q : Fin 128) :
    varRow (statRow ((dat1 (V3 m ρ) c).arrAt 8 cfg1.N)) (statRow ((dat1 (V3 m ρ) c).arrAt 9 cfg1.N)) (ix2 (0 : Fin 1) q)
      = GinSpec.colVarTiled (L2 m c) q := by
  rw [varRow_apply, mean2_at,
    stat_of_tiles _ (fun r q => L2 m c r q * L2 m c r q)
      (fun t q => (RegionB.sqsum_final (V3 m ρ) c t (0 : Fin 8) q).trans (by rw [regionB_L])) q]
  rfl

/-! ## The third computation and the result -/

/-- Entry (r, q) of the result array after the run. -/
theorem result_at (c : Dev nD) (r : Fin 50000) (q : Fin 128) :
    W6 m ρ c (Proc.devRef .tc main_v56) (ix2 r q)
      = GinSpec.layerTiled (aE m c) (aX m c) (aA m c) (aW1 m c) (aB1 m c) (aG1 m c) (aBe1 m c) (aW2 m c) (aB2 m c) (aG2 m c) (aBe2 m c) r q := by
  have h5 : W6 m ρ c (Proc.devRef .tc main_v56) = (dat2 (V5 m ρ) c).arrAt 5 cfg2.N := W6_arr m ρ c 5
  rw [h5, RegionC.out_final (V5 m ρ) c r q]
  show GinSpec.normRelu (fun r n => V5 m ρ c (Pipeline.arrRef spec2 0) (ix2 r n))
      (fun q => V5 m ρ c (Pipeline.arrRef spec2 1) (ix2 (0 : Fin 1) q)) (fun q => V5 m ρ c (Pipeline.arrRef spec2 2) (ix2 (0 : Fin 1) q))
      (fun q => V5 m ρ c (Pipeline.arrRef spec2 3) (ix2 (0 : Fin 1) q)) (fun q => V5 m ρ c (Pipeline.arrRef spec2 4) (ix2 (0 : Fin 1) q)) r q = _
  rw [in2_0, in2_1, in2_2, in2_3, in2_4]
  simp only [lin2_at, mean2_at, var2_at, asRow_apply]
  rfl

end Cert.KernelIdeal.Out

end
-- ==== Proof.FiniteInputsOps.lean ====
/-
  Real-valuedness carried through three array operations, over the extended reals.

  An entry is called real when it is the image of a real number.  A sum of two real entries is real, hence so is
  any finite sum of real entries.  Three consequences for arrays:
  * a gather reads each of its entries from the operand at some index, so a gather of an all-real operand is all real;
  * an accumulating scatter leaves at each index the operand's entry plus the finite sum of the updates that land
    there, so from an all-real operand and all-real updates it is all real;
  * an array filled with the zero word is all real, the zero word denoting the real number zero.
-/
import proofs.«158323_j1486058684700_2_alg».proof.Proof.Spec
import Idealize.ShloMosaic.PureOps.Ideal
import Idealize.ShloMosaic.PureOps.Ideal.Laws
import Idealize.ShloMosaic.PureOps.Contract
import Idealize.ShloMosaic.PureOps.ShapeOps

open scoped BigOperators

namespace Cert.FiniteInputs

open Idealize.ShloMosaic

/-- The sum of two real entries is real. -/
theorem isReal_add {a b : EReal} (ha : GinSpec.IsReal a) (hb : GinSpec.IsReal b) : GinSpec.IsReal (a + b) := by
  obtain ⟨r, rfl⟩ := ha
  obtain ⟨t, rfl⟩ := hb
  exact ⟨r + t, (EReal.coe_add r t).symm⟩

/-- A finite sum of real entries is real: by induction on the index set, from the empty sum zero and `isReal_add`. -/
theorem isReal_sum {ι : Type} (s : Finset ι) (f : ι → EReal) (h : ∀ j ∈ s, GinSpec.IsReal (f j)) :
    GinSpec.IsReal (∑ j ∈ s, f j) := by
  classical
  induction s using Finset.induction_on with
  | empty => exact ⟨0, by rw [Finset.sum_empty, EReal.coe_zero]⟩
  | insert a s ha ih =>
    rw [Finset.sum_insert ha]
    exact isReal_add (h a (Finset.mem_insert_self a s)) (ih fun j hj => h j (Finset.mem_insert_of_mem hj))

/-- A gathered entry is the operand's entry at the index the gather reads, so it is real when every operand entry is. -/
theorem gather_real {s si t : Shape} {w : Nat} (d : GatherDims s si t) (x : s.Idx → EReal) (idx : IVec si w)
    (hx : ∀ i, GinSpec.IsReal (x i)) (j : t.Idx) : GinSpec.IsReal (Host.gather d x idx j) :=
  hx (d.operandIdx j idx)

/-- An accumulating scatter's entry is the operand's entry plus the sum of the updates landing on it: real entries in,
    real entries out. -/
theorem scatterAdd_real {s si su : Shape} {w : Nat} (d : ScatterDims s si su) (x : FVec Ideal s .f32) (idx : IVec si w)
    (upd : FVec Ideal su .f32) (hx : ∀ i, GinSpec.IsReal (x i)) (hu : ∀ j, GinSpec.IsReal (upd j)) (i : s.Idx) :
    GinSpec.IsReal (Host.scatterAdd d x idx upd i) := by
  unfold Host.scatterAdd
  rw [Ideal.hostScatterAdd_def]
  unfold Ideal.hostScatterAdd
  exact isReal_add (hx i) (isReal_sum _ _ fun j _ => hu j)

/-- Every entry of the zero word spread over a shape is the real number zero. -/
theorem zero_fill_real {S : Shape} (hb : (⟨0, ![]⟩ : Shape).BroadcastsInDim S (![] : Fin 0 → Fin S.rank)) (j : S.Idx) :
    GinSpec.IsReal (broadcastInDim S ![] hb (constant (F := Ideal) ⟨0, ![]⟩ .f32 0x00000000#32) j) :=
  ⟨0, by
    show Ideal.ofBits .f32 0x00000000#32 = ((0 : ℝ) : EReal)
    rw [Ideal.ofBits_zero_f32, EReal.coe_zero]⟩

end Cert.FiniteInputs
-- ==== Proof.Bridge.lean ====
/-
  The two programs add up the neighbours in the same way.

  Both programs gather the features at the edges' sources and add them into the rows the edges' destinations name,
  from zero, with the same treatment of a negative source.  Written over the same two arrays the two terms are one,
  and every entry of the sum is a real number when every feature is: a gathered entry is a feature, and a finite sum
  of reals added to zero is a real.
-/
import proofs.«158323_j1486058684700_2_alg».proof.Proof.GlueIn
import proofs.«158323_j1486058684700_2_alg».proof.Proof.Gen.ReferenceIdeal.Read
import proofs.«158323_j1486058684700_2_alg».proof.Proof.FiniteInputsOps

set_option maxRecDepth 16384

noncomputable section

namespace Cert.Bridge

open Idealize.ShloMosaic Idealize.ShloMosaic.ValueIdx

/-- The kernel program's neighbours' sum is the reference's. -/
theorem neighbourSum_eq (x0 : FVec Ideal Cert.KernelIdeal.S50000x128 .f32) (x1 : IVec Cert.KernelIdeal.S2x800000 32) :
    Cert.KernelIdeal.Glue.neighbourSum x0 x1 = Cert.ReferenceIdeal.Read.val_main_v13 (F := Ideal) x0 x1 := by
  unfold Cert.KernelIdeal.Glue.neighbourSum Cert.KernelIdeal.Glue.srcCol
    Cert.ReferenceIdeal.Read.val_main_v13 Cert.ReferenceIdeal.Read.val_main_v12 Cert.ReferenceIdeal.Read.val_main_v11 Cert.ReferenceIdeal.Read.val_main_v10 Cert.ReferenceIdeal.Read.val_main_v9
    Cert.ReferenceIdeal.Read.val_main_v8 Cert.ReferenceIdeal.Read.val_main_v7 Cert.ReferenceIdeal.Read.val_main_v6 Cert.ReferenceIdeal.Read.val_main_v5 Cert.ReferenceIdeal.Read.val_main_v4
    Cert.ReferenceIdeal.Read.val_main_v3 Cert.ReferenceIdeal.Read.val_main_v2 Cert.ReferenceIdeal.Read.val_main_v1 Cert.ReferenceIdeal.Read.val_main_v0
    Cert.ReferenceIdeal.Read.val_main_c Cert.ReferenceIdeal.Read.val_main_c_0 Cert.ReferenceIdeal.Read.val_main_cst
  rfl

/-- Every entry of the neighbours' sum is real when every feature is. -/
theorem neighbourSum_real (x0 : FVec Ideal Cert.KernelIdeal.S50000x128 .f32) (x1 : IVec Cert.KernelIdeal.S2x800000 32)
    (hx : ∀ i, GinSpec.IsReal (x0 i)) (i : Cert.KernelIdeal.S50000x128.Idx) :
    GinSpec.IsReal (Cert.KernelIdeal.Glue.neighbourSum x0 x1 i) := by
  unfold Cert.KernelIdeal.Glue.neighbourSum
  exact Cert.FiniteInputs.scatterAdd_real _ _ _ _ (fun j => Cert.FiniteInputs.zero_fill_real _ j)
    (fun j => Cert.FiniteInputs.gather_real _ _ _ hx j) i

end Cert.Bridge

end
-- ==== Proof.RefSide.lean ====
/-
  The reference program, read entry by entry, is the graph layer of the specification with each column's variance taken
  as the mean of the squared deviations from the column's mean.

  The neighbours' sum stays one opaque array.  Every other stage of the reference is read at a single entry:
  the combined features (one plus the weight, times the node's own features, plus the neighbours' sum); a dense stage
  (an entry is the sum over the 128 input columns of row entry times weight entry, plus the bias of the output column);
  a column's mean (the zero word plus the sum of the column over the 50000 rows, divided by the row count); a column's
  variance (the same with the squared deviations from the mean); and the normalised, scaled, shifted and clamped entry,
  which depends on its own row only through the dense stage's entry and on all rows through the column's mean and variance.
  The second stage repeats the first on the first stage's output.  Each broadcast of a per-column vector over the
  rows reads the vector at the entry's column, and each sum over the rows of column `q` reads entries `(k, q)`.
  The two sides associate every operation in the same order, so after the index equations no algebraic law is used.
-/
import proofs.«158323_j1486058684700_2_alg».proof.Proof.Gen.ReferenceIdeal.Read
import proofs.«158323_j1486058684700_2_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- Two rank-2 indices with the same two coordinates are equal. -/
local macro "idx2" : tactic =>
  `(tactic| exact funext fun a => Fin.ext (by match a with | ⟨0, _⟩ => rfl | ⟨1, _⟩ => rfl))
/-- Two rank-1 indices with the same coordinate are equal. -/
local macro "idx1" : tactic =>
  `(tactic| exact funext fun a => Fin.ext (by match a with | ⟨0, _⟩ => rfl))

variable (x0 : (⟨S50000x128, .f32⟩ : BufTy).Contents (Elt Ideal)) (x1 : (⟨S2x800000, .i32⟩ : BufTy).Contents (Elt Ideal)) (x2 : (⟨S1, .f32⟩ : BufTy).Contents (Elt Ideal)) (x3 : (⟨S128x128, .f32⟩ : BufTy).Contents (Elt Ideal)) (x4 x5 x6 : (⟨S128, .f32⟩ : BufTy).Contents (Elt Ideal)) (x7 : (⟨S128x128, .f32⟩ : BufTy).Contents (Elt Ideal)) (x8 x9 x10 : (⟨S128, .f32⟩ : BufTy).Contents (Elt Ideal))

/-! ## The first stage -/

/-- The combined features: one plus the weight, times the node's own features, plus the neighbours' sum. -/
def comb : GinSpec.Mat :=
  GinSpec.combine (fun _ => x2 (ix1 0)) (fun r n => x0 (ix2 r n)) (fun r n => val_main_v13 (F := Ideal) x0 x1 (ix2 r n))

/-- The first dense stage of the combined features. -/
def lin1 : GinSpec.Mat := GinSpec.dense (comb x0 x1 x2) (fun n q => x3 (ix2 n q)) (fun q => x4 (ix1 q))

/-- The first stage's output: the dense stage normalised by its columns' means and variances, scaled, shifted, clamped. -/
def out1 : GinSpec.Mat :=
  GinSpec.normRelu (lin1 x0 x1 x2 x3 x4) (GinSpec.colMean (lin1 x0 x1 x2 x3 x4)) (GinSpec.colVar (lin1 x0 x1 x2 x3 x4))
    (fun q => x5 (ix1 q)) (fun q => x6 (ix1 q))

/-- An entry of the combined features: the scalar weight is broadcast to every entry. -/
theorem v19_at (r : Fin 50000) (n : Fin 128) :
    val_main_v19 (F := Ideal) x0 x1 x2 (ix2 r n) = comb x0 x1 x2 r n := by
  rw [val_main_v19_apply, val_main_v18_apply, val_main_v17_apply, val_main_v16_apply, val_main_v15_apply,
    val_main_v14_apply, val_main_cst_1_apply,
    show idx_main_v16 (idx_main_v17 (ix2 r n)) = ix1 0 from by idx1]
  rfl

/-- The first bias broadcast over the rows reads the bias at the entry's column. -/
theorem v22_at (r : Fin 50000) (q : Fin 128) : val_main_v22 (F := Ideal) x4 (ix2 r q) = x4 (ix1 q) := by
  rw [val_main_v22_apply, val_main_v21_apply, show idx_main_v21 (idx_main_v22 (ix2 r q)) = ix1 q from by idx1]

/-- An entry of the first dense stage: row `r` of the combined features against column `q` of the weights, plus the bias. -/
theorem v23_at (r : Fin 50000) (q : Fin 128) :
    val_main_v23 (F := Ideal) x0 x1 x2 x3 x4 (ix2 r q) = lin1 x0 x1 x2 x3 x4 r q := by
  rw [val_main_v23_apply, val_main_v20_apply, v22_at, Ideal.addf_def]
  refine congrArg (· + x4 (ix1 q)) (Finset.sum_congr rfl fun k _ => ?_)
  rw [show lidx_main_v20 (ix2 r q) k = ix2 r k from by idx2, show ridx_main_v20 (ix2 r q) k = ix2 k q from by idx2, v19_at]

/-- The first stage's column mean: the zero word plus the column's sum over all rows, divided by the row count. -/
theorem v26_at (q : Fin 128) :
    val_main_v26 (F := Ideal) x0 x1 x2 x3 x4 (ix1 q) = GinSpec.colMean (lin1 x0 x1 x2 x3 x4) q := by
  rw [val_main_v26_apply, val_main_v24_apply, val_main_v25_apply, val_main_cst_3_apply, val_main_cst_2_apply]
  have hs : (∑ k : Fin 50000, val_main_v23 (F := Ideal) x0 x1 x2 x3 x4 (idx_main_v24 (ix1 q) k))
      = ∑ k : Fin 50000, (lin1 x0 x1 x2 x3 x4) k q := Finset.sum_congr rfl fun k _ => by
    rw [show idx_main_v24 (ix1 q) k = ix2 k q from by idx2, v23_at]
  rw [hs, Ideal.hostDivf_def, Ideal.ofBits_def, Ideal.ofBits_def]
  rfl

/-- The mean broadcast over the rows (for the deviations under the variance's sum) reads the mean at the entry's column. -/
theorem v28_at (r : Fin 50000) (q : Fin 128) :
    val_main_v28 (F := Ideal) x0 x1 x2 x3 x4 (ix2 r q) = GinSpec.colMean (lin1 x0 x1 x2 x3 x4) q := by
  rw [val_main_v28_apply, val_main_v27_apply, show idx_main_v27 (idx_main_v28 (ix2 r q)) = ix1 q from by idx1, v26_at]

/-- The first stage's column variance: the mean over the rows of the squared deviation from the column's mean. -/
theorem v33_at (q : Fin 128) :
    val_main_v33 (F := Ideal) x0 x1 x2 x3 x4 (ix1 q) = GinSpec.colVar (lin1 x0 x1 x2 x3 x4) q := by
  rw [val_main_v33_apply, val_main_v31_apply, val_main_v32_apply, val_main_cst_5_apply, val_main_cst_4_apply]
  have hs : (∑ k : Fin 50000, val_main_v30 (F := Ideal) x0 x1 x2 x3 x4 (idx_main_v31 (ix1 q) k))
      = ∑ k : Fin 50000, ((lin1 x0 x1 x2 x3 x4) k q - GinSpec.colMean (lin1 x0 x1 x2 x3 x4) q) * ((lin1 x0 x1 x2 x3 x4) k q - GinSpec.colMean (lin1 x0 x1 x2 x3 x4) q) :=
    Finset.sum_congr rfl fun k _ => by
      rw [show idx_main_v31 (ix1 q) k = ix2 k q from by idx2, val_main_v30_apply, val_main_v29_apply, v23_at, v28_at,
        Ideal.mulf_def, Ideal.subf_def]
  rw [hs, Ideal.hostDivf_def, Ideal.ofBits_def, Ideal.ofBits_def]
  rfl

/-- The mean broadcast over the rows (for the centred entry) reads the mean at the entry's column. -/
theorem v35_at (r : Fin 50000) (q : Fin 128) :
    val_main_v35 (F := Ideal) x0 x1 x2 x3 x4 (ix2 r q) = GinSpec.colMean (lin1 x0 x1 x2 x3 x4) q := by
  rw [val_main_v35_apply, val_main_v34_apply, show idx_main_v34 (idx_main_v35 (ix2 r q)) = ix1 q from by idx1, v26_at]

/-- The reciprocal square root of the guarded variance, broadcast over the rows, read at the entry's column. -/
theorem v41_at (r : Fin 50000) (q : Fin 128) :
    val_main_v41 (F := Ideal) x0 x1 x2 x3 x4 (ix2 r q) = Ideal.rsqrt (GinSpec.colVar (lin1 x0 x1 x2 x3 x4) q + GinSpec.cEps) := by
  rw [val_main_v41_apply, val_main_v40_apply, show idx_main_v40 (idx_main_v41 (ix2 r q)) = ix1 q from by idx1,
    val_main_v39_apply, val_main_v38_apply, v33_at, val_main_v37_apply, val_main_cst_6_apply,
    Ideal.hostUnary_rsqrt_def, Ideal.addf_def, Ideal.ofBits_def]

/-- The scale broadcast over the rows reads the scale at the entry's column. -/
theorem v44_at (r : Fin 50000) (q : Fin 128) : val_main_v44 (F := Ideal) x5 (ix2 r q) = x5 (ix1 q) := by
  rw [val_main_v44_apply, val_main_v43_apply, show idx_main_v43 (idx_main_v44 (ix2 r q)) = ix1 q from by idx1]

/-- The shift broadcast over the rows reads the shift at the entry's column. -/
theorem v47_at (r : Fin 50000) (q : Fin 128) : val_main_v47 (F := Ideal) x6 (ix2 r q) = x6 (ix1 q) := by
  rw [val_main_v47_apply, val_main_v46_apply, show idx_main_v46 (idx_main_v47 (ix2 r q)) = ix1 q from by idx1]

/-- An entry of the first stage's output: centred, times the reciprocal square root, times the scale, plus the shift, clamped at zero. -/
theorem v49_at (r : Fin 50000) (q : Fin 128) :
    val_main_v49 (F := Ideal) x0 x1 x2 x3 x4 x5 x6 (ix2 r q) = out1 x0 x1 x2 x3 x4 x5 x6 r q := by
  rw [val_main_v49_apply, val_main_v48_apply, val_main_v45_apply, val_main_v42_apply, val_main_v36_apply,
    v23_at, v35_at, v41_at, v44_at, v47_at, val_main_call0_v0_apply, val_main_call0_cst_apply,
    Ideal.maximumf_def, Ideal.addf_def, Ideal.mulf_def, Ideal.mulf_def, Ideal.subf_def, Ideal.ofBits_def]
  rfl

/-! ## The second stage -/

/-- The second dense stage, of the first stage's output. -/
def lin2 : GinSpec.Mat := GinSpec.dense (out1 x0 x1 x2 x3 x4 x5 x6) (fun n q => x7 (ix2 n q)) (fun q => x8 (ix1 q))

/-- The second stage's output. -/
def out2 : GinSpec.Mat :=
  GinSpec.normRelu (lin2 x0 x1 x2 x3 x4 x5 x6 x7 x8) (GinSpec.colMean (lin2 x0 x1 x2 x3 x4 x5 x6 x7 x8))
    (GinSpec.colVar (lin2 x0 x1 x2 x3 x4 x5 x6 x7 x8)) (fun q => x9 (ix1 q)) (fun q => x10 (ix1 q))

/-- The second bias broadcast over the rows reads the bias at the entry's column. -/
theorem v52_at (r : Fin 50000) (q : Fin 128) : val_main_v52 (F := Ideal) x8 (ix2 r q) = x8 (ix1 q) := by
  rw [val_main_v52_apply, val_main_v51_apply, show idx_main_v51 (idx_main_v52 (ix2 r q)) = ix1 q from by idx1]

/-- An entry of the second dense stage: row `r` of the first stage's output against column `q` of the weights, plus the bias. -/
theorem v53_at (r : Fin 50000) (q : Fin 128) :
    val_main_v53 (F := Ideal) x0 x1 x2 x3 x4 x5 x6 x7 x8 (ix2 r q) = lin2 x0 x1 x2 x3 x4 x5 x6 x7 x8 r q := by
  rw [val_main_v53_apply, val_main_v50_apply, v52_at, Ideal.addf_def]
  refine congrArg (· + x8 (ix1 q)) (Finset.sum_congr rfl fun k _ => ?_)
  rw [show lidx_main_v50 (ix2 r q) k = ix2 r k from by idx2, show ridx_main_v50 (ix2 r q) k = ix2 k q from by idx2, v49_at]

/-- The second stage's column mean: the zero word plus the column's sum over all rows, divided by the row count. -/
theorem v56_at (q : Fin 128) :
    val_main_v56 (F := Ideal) x0 x1 x2 x3 x4 x5 x6 x7 x8 (ix1 q) = GinSpec.colMean (lin2 x0 x1 x2 x3 x4 x5 x6 x7 x8) q := by
  rw [val_main_v56_apply, val_main_v54_apply, val_main_v55_apply, val_main_cst_8_apply, val_main_cst_7_apply]
  have hs : (∑ k : Fin 50000, val_main_v53 (F := Ideal) x0 x1 x2 x3 x4 x5 x6 x7 x8 (idx_main_v54 (ix1 q) k))
      = ∑ k : Fin 50000, (lin2 x0 x1 x2 x3 x4 x5 x6 x7 x8) k q := Finset.sum_congr rfl fun k _ => by
    rw [show idx_main_v54 (ix1 q) k = ix2 k q from by idx2, v53_at]
  rw [hs, Ideal.hostDivf_def, Ideal.ofBits_def, Ideal.ofBits_def]
  rfl

/-- The mean broadcast over the rows (for the deviations under the variance's sum) reads the mean at the entry's column. -/
theorem v58_at (r : Fin 50000) (q : Fin 128) :
    val_main_v58 (F := Ideal) x0 x1 x2 x3 x4 x5 x6 x7 x8 (ix2 r q) = GinSpec.colMean (lin2 x0 x1 x2 x3 x4 x5 x6 x7 x8) q := by
  rw [val_main_v58_apply, val_main_v57_apply, show idx_main_v57 (idx_main_v58 (ix2 r q)) = ix1 q from by idx1, v56_at]

/-- The second stage's column variance: the mean over the rows of the squared deviation from the column's mean. -/
theorem v63_at (q : Fin 128) :
    val_main_v63 (F := Ideal) x0 x1 x2 x3 x4 x5 x6 x7 x8 (ix1 q) = GinSpec.colVar (lin2 x0 x1 x2 x3 x4 x5 x6 x7 x8) q := by
  rw [val_main_v63_apply, val_main_v61_apply, val_main_v62_apply, val_main_cst_10_apply, val_main_cst_9_apply]
  have hs : (∑ k : Fin 50000, val_main_v60 (F := Ideal) x0 x1 x2 x3 x4 x5 x6 x7 x8 (idx_main_v61 (ix1 q) k))
      = ∑ k : Fin 50000, ((lin2 x0 x1 x2 x3 x4 x5 x6 x7 x8) k q - GinSpec.colMean (lin2 x0 x1 x2 x3 x4 x5 x6 x7 x8) q) * ((lin2 x0 x1 x2 x3 x4 x5 x6 x7 x8) k q - GinSpec.colMean (lin2 x0 x1 x2 x3 x4 x5 x6 x7 x8) q) :=
    Finset.sum_congr rfl fun k _ => by
      rw [show idx_main_v61 (ix1 q) k = ix2 k q from by idx2, val_main_v60_apply, val_main_v59_apply, v53_at, v58_at,
        Ideal.mulf_def, Ideal.subf_def]
  rw [hs, Ideal.hostDivf_def, Ideal.ofBits_def, Ideal.ofBits_def]
  rfl

/-- The mean broadcast over the rows (for the centred entry) reads the mean at the entry's column. -/
theorem v65_at (r : Fin 50000) (q : Fin 128) :
    val_main_v65 (F := Ideal) x0 x1 x2 x3 x4 x5 x6 x7 x8 (ix2 r q) = GinSpec.colMean (lin2 x0 x1 x2 x3 x4 x5 x6 x7 x8) q := by
  rw [val_main_v65_apply, val_main_v64_apply, show idx_main_v64 (idx_main_v65 (ix2 r q)) = ix1 q from by idx1, v56_at]

/-- The reciprocal square root of the guarded variance, broadcast over the rows, read at the entry's column. -/
theorem v71_at (r : Fin 50000) (q : Fin 128) :
    val_main_v71 (F := Ideal) x0 x1 x2 x3 x4 x5 x6 x7 x8 (ix2 r q) = Ideal.rsqrt (GinSpec.colVar (lin2 x0 x1 x2 x3 x4 x5 x6 x7 x8) q + GinSpec.cEps) := by
  rw [val_main_v71_apply, val_main_v70_apply, show idx_main_v70 (idx_main_v71 (ix2 r q)) = ix1 q from by idx1,
    val_main_v69_apply, val_main_v68_apply, v63_at, val_main_v67_apply, val_main_cst_11_apply,
    Ideal.hostUnary_rsqrt_def, Ideal.addf_def, Ideal.ofBits_def]

/-- The scale broadcast over the rows reads the scale at the entry's column. -/
theorem v74_at (r : Fin 50000) (q : Fin 128) : val_main_v74 (F := Ideal) x9 (ix2 r q) = x9 (ix1 q) := by
  rw [val_main_v74_apply, val_main_v73_apply, show idx_main_v73 (idx_main_v74 (ix2 r q)) = ix1 q from by idx1]

/-- The shift broadcast over the rows reads the shift at the entry's column. -/
theorem v77_at (r : Fin 50000) (q : Fin 128) : val_main_v77 (F := Ideal) x10 (ix2 r q) = x10 (ix1 q) := by
  rw [val_main_v77_apply, val_main_v76_apply, show idx_main_v76 (idx_main_v77 (ix2 r q)) = ix1 q from by idx1]

/-- An entry of the second stage's output: centred, times the reciprocal square root, times the scale, plus the shift, clamped at zero. -/
theorem v79_at (r : Fin 50000) (q : Fin 128) :
    val_main_v79 (F := Ideal) x0 x1 x2 x3 x4 x5 x6 x7 x8 x9 x10 (ix2 r q) = out2 x0 x1 x2 x3 x4 x5 x6 x7 x8 x9 x10 r q := by
  rw [val_main_v79_apply, val_main_v78_apply, val_main_v75_apply, val_main_v72_apply, val_main_v66_apply,
    v53_at, v65_at, v71_at, v74_at, v77_at, val_main_call1_v0_apply, val_main_call1_cst_apply,
    Ideal.maximumf_def, Ideal.addf_def, Ideal.mulf_def, Ideal.mulf_def, Ideal.subf_def, Ideal.ofBits_def]
  rfl

/-! ## The reference is the layer -/

/-- The second stage's output, spelt with the stages' names, is the specification's layer (its `let`s opened). -/
theorem out2_eq :
    out2 x0 x1 x2 x3 x4 x5 x6 x7 x8 x9 x10
      = GinSpec.layerDev (fun _ => x2 (ix1 0)) (fun r n => x0 (ix2 r n)) (fun r n => Cert.ReferenceIdeal.Read.val_main_v13 (F := Ideal) x0 x1 (ix2 r n)) (fun n q => x3 (ix2 n q)) (fun q => x4 (ix1 q)) (fun q => x5 (ix1 q)) (fun q => x6 (ix1 q)) (fun n q => x7 (ix2 n q)) (fun q => x8 (ix1 q)) (fun q => x9 (ix1 q)) (fun q => x10 (ix1 q)) := rfl

/-- Every entry of the reference's result is the layer's, the neighbours' sum being the reference's own. -/
theorem ref_is_layer (x0 : (⟨S50000x128, .f32⟩ : BufTy).Contents (Elt Ideal)) (x1 : (⟨S2x800000, .i32⟩ : BufTy).Contents (Elt Ideal)) (x2 : (⟨S1, .f32⟩ : BufTy).Contents (Elt Ideal)) (x3 : (⟨S128x128, .f32⟩ : BufTy).Contents (Elt Ideal)) (x4 x5 x6 : (⟨S128, .f32⟩ : BufTy).Contents (Elt Ideal)) (x7 : (⟨S128x128, .f32⟩ : BufTy).Contents (Elt Ideal)) (x8 x9 x10 : (⟨S128, .f32⟩ : BufTy).Contents (Elt Ideal)) (r : Fin 50000) (q : Fin 128) :
    Cert.ReferenceIdeal.Read.val_main_v79 (F := Ideal) x0 x1 x2 x3 x4 x5 x6 x7 x8 x9 x10 (ix2 r q)
      = GinSpec.layerDev (fun _ => x2 (ix1 0)) (fun r n => x0 (ix2 r n)) (fun r n => Cert.ReferenceIdeal.Read.val_main_v13 (F := Ideal) x0 x1 (ix2 r n)) (fun n q => x3 (ix2 n q)) (fun q => x4 (ix1 q)) (fun q => x5 (ix1 q)) (fun q => x6 (ix1 q)) (fun n q => x7 (ix2 n q)) (fun q => x8 (ix1 q)) (fun q => x9 (ix1 q)) (fun q => x10 (ix1 q)) r q := by
  rw [v79_at, out2_eq]

end Cert.ReferenceIdeal.RefValue

end
-- ==== Proof.Algebra.lean ====
/-
  The two ways of writing a column's variance give the same layer on real data.

  Everything here is arithmetic over the extended reals, about the definitions of the specification: no program is
  mentioned.  Four facts carry the result.

  * The four float words are the reals 1, 50000, a positive guard, and 0.
  * Ten tiles of 5000 consecutive rows list each of the 50000 rows exactly once (row = tile * 5000 + place), so a sum
    taken tile by tile is the sum over all rows.  This needs no finiteness: addition of extended reals is commutative
    and associative.  Hence the two column sums, and the two column means, agree for every matrix.
  * For a column of real numbers the sums are sums of reals, division by the row count is multiplication by 1/50000,
    and over the reals the mean of the squared deviations from the mean equals the mean of the squares minus the
    square of the mean.  (With an infinite entry the two sides differ, so realness is needed here.)
  * Realness passes through every stage: sums, differences, products, finite sums and maxima of reals are reals; the
    variance of a real column is a real that is not negative, so adding the positive guard gives a positive real, whose
    reciprocal square root is a real.  So a dense stage of real data is real and a normalised stage of real data is
    real.

  The layer identity follows stage by stage: the first dense stage is real, so its two variances agree; then the first
  normalised stage is the same real matrix on both sides, so is the second dense stage, and its two variances agree.
-/
import proofs.«158323_j1486058684700_2_alg».proof.Proof.Spec
import Idealize.ShloMosaic.PureOps.Ideal
import Idealize.ShloMosaic.PureOps.Ideal.Laws
import Mathlib.Tactic
import Mathlib.Algebra.BigOperators.Fin

noncomputable section

open scoped BigOperators

namespace GinSpec

open Idealize.ShloMosaic

/-! ### The four float words as extended reals -/

theorem cZero_eq : cZero = 0 := Ideal.ofBits_zero_f32

theorem cOne_eq : cOne = 1 := by
  simp [Ideal.ofBits, Ideal.ieee, -EReal.coe_mul]; norm_num

theorem cCount_eq : cCount = ((50000 : ℝ) : EReal) := by
  simp [Ideal.ofBits, Ideal.ieee, -EReal.coe_mul]; norm_num

theorem cEps_eq : cEps = ((10995116 * (2 : ℝ) ^ (-40 : ℤ) : ℝ) : EReal) := by
  simp [Ideal.ofBits, Ideal.ieee, -EReal.coe_mul]

theorem cEps_pos : ∃ ε : ℝ, 0 < ε ∧ cEps = (ε : EReal) :=
  ⟨10995116 * (2 : ℝ) ^ (-40 : ℤ), by positivity, cEps_eq⟩

/-! ### Tiles: ten runs of 5000 consecutive rows list every row once -/

theorem tileRow_bijective : Function.Bijective (fun tp : Fin 10 × Fin 5000 => tileRow tp.1 tp.2) := by
  constructor
  · rintro ⟨t, p⟩ ⟨t', p'⟩ h
    have hv : t.val * 5000 + p.val = t'.val * 5000 + p'.val := congrArg Fin.val h
    have ht := t.isLt
    have ht' := t'.isLt
    have hp := p.isLt
    have hp' := p'.isLt
    have h1 : t.val = t'.val := by omega
    have h2 : p.val = p'.val := by omega
    exact Prod.ext (Fin.ext h1) (Fin.ext h2)
  · intro r
    have hr := r.isLt
    refine ⟨(⟨r.val / 5000, by omega⟩, ⟨r.val % 5000, Nat.mod_lt _ (by norm_num)⟩), ?_⟩
    apply Fin.ext
    show r.val / 5000 * 5000 + r.val % 5000 = r.val
    omega

/-- A sum over all rows may be taken tile by tile; no finiteness is needed, the extended reals being a
    commutative monoid under addition. -/
theorem sum_tiles (f : Fin 50000 → EReal) :
    ∑ t : Fin 10, ∑ p : Fin 5000, f (tileRow t p) = ∑ r : Fin 50000, f r := by
  rw [← Fintype.sum_prod_type' (fun t p => f (tileRow t p))]
  exact Fintype.sum_bijective _ tileRow_bijective _ _ (fun _ => rfl)

theorem colSumTiled_eq (h : Mat) : colSumTiled h = colSum h := by
  funext q
  unfold colSumTiled colSum
  rw [sum_tiles (fun r => h r q)]

theorem colMeanTiled_eq (h : Mat) : colMeanTiled h = colMean h := by
  funext q
  unfold colMeanTiled colMean
  rw [colSumTiled_eq]

/-! ### Real numbers inside the extended reals -/

theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Division by the row count is multiplication by its reciprocal. -/
theorem div_cCount (v : EReal) : Ideal.div v cCount = v * ((1 / 50000 : ℝ) : EReal) := by
  rw [cCount_eq]
  exact Ideal.div_coe (by norm_num) v

theorem isReal_coe (r : ℝ) : IsReal (r : EReal) := ⟨r, rfl⟩

theorem isReal_zero : IsReal (0 : EReal) := ⟨0, rfl⟩

theorem isReal_add {a b : EReal} (ha : IsReal a) (hb : IsReal b) : IsReal (a + b) := by
  obtain ⟨x, rfl⟩ := ha
  obtain ⟨y, rfl⟩ := hb
  exact ⟨x + y, (EReal.coe_add x y).symm⟩

theorem isReal_sub {a b : EReal} (ha : IsReal a) (hb : IsReal b) : IsReal (a - b) := by
  obtain ⟨x, rfl⟩ := ha
  obtain ⟨y, rfl⟩ := hb
  exact ⟨x - y, (EReal.coe_sub x y).symm⟩

theorem isReal_mul {a b : EReal} (ha : IsReal a) (hb : IsReal b) : IsReal (a * b) := by
  obtain ⟨x, rfl⟩ := ha
  obtain ⟨y, rfl⟩ := hb
  exact ⟨x * y, (EReal.coe_mul x y).symm⟩

theorem isReal_max {a b : EReal} (ha : IsReal a) (hb : IsReal b) : IsReal (max a b) := by
  rcases max_choice a b with h | h <;> rw [h] <;> assumption

theorem isReal_sum {ι : Type} (s : Finset ι) (f : ι → EReal) (hf : ∀ i, IsReal (f i)) :
    IsReal (∑ i ∈ s, f i) := by
  choose g hg using hf
  refine ⟨∑ i ∈ s, g i, ?_⟩
  rw [coe_sum]
  exact Finset.sum_congr rfl (fun i _ => hg i)

theorem isReal_cZero : IsReal cZero := by rw [cZero_eq]; exact isReal_zero

theorem isReal_cOne : IsReal cOne := by rw [cOne_eq]; exact ⟨1, rfl⟩

theorem isReal_div_cCount {v : EReal} (hv : IsReal v) : IsReal (Ideal.div v cCount) := by
  rw [div_cCount]
  exact isReal_mul hv (isReal_coe _)

theorem isReal_combine {e : Col} {x aggr : Mat} (he : ∀ n, IsReal (e n)) (hx : ∀ r n, IsReal (x r n))
    (ha : ∀ r n, IsReal (aggr r n)) : ∀ r n, IsReal (combine e x aggr r n) := fun r n =>
  isReal_add (isReal_mul (isReal_add isReal_cOne (he n)) (hx r n)) (ha r n)

theorem isReal_dense {a : Mat} {w : Wt} {b : Col} (ha : ∀ r n, IsReal (a r n)) (hw : ∀ n q, IsReal (w n q))
    (hb : ∀ q, IsReal (b q)) : ∀ r q, IsReal (dense a w b r q) := fun r q =>
  isReal_add (isReal_sum _ _ (fun n => isReal_mul (ha r n) (hw n q))) (hb q)

/-! ### A column of real numbers: its mean and both forms of its variance -/

/-- Over the reals: the mean of the squared deviations from the mean is the mean of the squares minus the
    square of the mean. -/
theorem real_var_identity (f : Fin 50000 → ℝ) :
    (∑ r, (f r - (∑ r, f r) * (1 / 50000)) * (f r - (∑ r, f r) * (1 / 50000))) * (1 / 50000)
      = (∑ r, f r * f r) * (1 / 50000) - (∑ r, f r) * (1 / 50000) * ((∑ r, f r) * (1 / 50000)) := by
  generalize hS : (∑ r, f r) = S
  have h1 : ∀ r, (f r - S * (1 / 50000)) * (f r - S * (1 / 50000))
      = f r * f r - 2 * (S * (1 / 50000)) * f r + S * (1 / 50000) * (S * (1 / 50000)) := fun r => by ring
  simp_rw [h1]
  rw [Finset.sum_add_distrib, Finset.sum_sub_distrib, ← Finset.mul_sum, hS, Finset.sum_const, Finset.card_univ,
    Fintype.card_fin, nsmul_eq_mul]
  push_cast
  ring

theorem real_var_nonneg (f : Fin 50000 → ℝ) (m : ℝ) : 0 ≤ (∑ r, (f r - m) * (f r - m)) * (1 / 50000) :=
  mul_nonneg (Finset.sum_nonneg (fun r _ => mul_self_nonneg _)) (by norm_num)

theorem colMean_real (h : Mat) (f : Fin 50000 → Fin 128 → ℝ) (hf : ∀ r q, h r q = (f r q : EReal)) (q : Fin 128) :
    colMean h q = (((∑ r, f r q) * (1 / 50000) : ℝ) : EReal) := by
  have hs : ∑ r, h r q = ((∑ r, f r q : ℝ) : EReal) := by
    rw [coe_sum]
    exact Finset.sum_congr rfl (fun r _ => hf r q)
  unfold colMean colSum
  rw [hs, div_cCount, cZero_eq, zero_add, EReal.coe_mul]

theorem colVar_real (h : Mat) (f : Fin 50000 → Fin 128 → ℝ) (hf : ∀ r q, h r q = (f r q : EReal)) (q : Fin 128) :
    colVar h q = (((∑ r, (f r q - (∑ r, f r q) * (1 / 50000)) * (f r q - (∑ r, f r q) * (1 / 50000)))
      * (1 / 50000) : ℝ) : EReal) := by
  have hs : ∀ m : ℝ, ∑ r, (h r q - (m : EReal)) * (h r q - (m : EReal))
      = ((∑ r, (f r q - m) * (f r q - m) : ℝ) : EReal) := fun m => by
    rw [coe_sum]
    refine Finset.sum_congr rfl (fun r _ => ?_)
    rw [hf r q, ← EReal.coe_sub, ← EReal.coe_mul]
  unfold colVar
  rw [colMean_real h f hf q, hs, div_cCount, cZero_eq, zero_add, EReal.coe_mul]

theorem colVarTiled_real (h : Mat) (f : Fin 50000 → Fin 128 → ℝ) (hf : ∀ r q, h r q = (f r q : EReal))
    (q : Fin 128) :
    colVarTiled h q = (((∑ r, f r q * f r q) * (1 / 50000)
      - (∑ r, f r q) * (1 / 50000) * ((∑ r, f r q) * (1 / 50000)) : ℝ) : EReal) := by
  have hs : ∑ r, h r q * h r q = ((∑ r, f r q * f r q : ℝ) : EReal) := by
    rw [coe_sum]
    refine Finset.sum_congr rfl (fun r _ => ?_)
    rw [hf r q, ← EReal.coe_mul]
  unfold colVarTiled
  rw [colMeanTiled_eq, colSumTiled_eq, colMean_real h f hf q]
  unfold colSum
  rw [hs, div_cCount, cZero_eq, zero_add, EReal.coe_sub]
  simp only [EReal.coe_mul]

/-- On a matrix of real numbers the two forms of every column's variance agree. -/
theorem colVarTiled_eq {h : Mat} (hh : ∀ r q, IsReal (h r q)) : colVarTiled h = colVar h := by
  choose f hf using hh
  funext q
  rw [colVarTiled_real h f hf q, colVar_real h f hf q, real_var_identity]

/-- The reciprocal square root of a positive real is a real. -/
theorem isReal_rsqrt_pos {v : ℝ} (hv : 0 < v) : IsReal (Ideal.rsqrt (v : EReal)) := by
  rw [Ideal.rsqrt_coe, if_neg (not_lt.mpr hv.le), if_neg hv.ne']
  exact ⟨_, rfl⟩

theorem isReal_colMean {h : Mat} (hh : ∀ r q, IsReal (h r q)) : ∀ q, IsReal (colMean h q) := by
  choose f hf using hh
  exact fun q => ⟨_, colMean_real h f hf q⟩

/-- The variance of a real column is a real that is not negative, so with the guard added it is positive and its
    reciprocal square root is a real. -/
theorem isReal_rsqrt_colVar {h : Mat} (hh : ∀ r q, IsReal (h r q)) :
    ∀ q, IsReal (Ideal.rsqrt (colVar h q + cEps)) := by
  choose f hf using hh
  intro q
  obtain ⟨ε, hε, hce⟩ := cEps_pos
  rw [colVar_real h f hf q, hce, ← EReal.coe_add]
  exact isReal_rsqrt_pos (add_pos_of_nonneg_of_pos (real_var_nonneg _ _) hε)

theorem isReal_normRelu {h : Mat} {g beta : Col} (hh : ∀ r q, IsReal (h r q)) (hg : ∀ q, IsReal (g q))
    (hb : ∀ q, IsReal (beta q)) : ∀ r q, IsReal (normRelu h (colMean h) (colVar h) g beta r q) := fun r q =>
  isReal_max (isReal_add (isReal_mul (isReal_mul (isReal_sub (hh r q) (isReal_colMean hh q))
    (isReal_rsqrt_colVar hh q)) (hg q)) (hb q)) isReal_cZero

/-! ### The two layers -/

theorem normRelu_tiled_eq {h : Mat} (hh : ∀ r q, IsReal (h r q)) (g beta : Col) :
    normRelu h (colMeanTiled h) (colVarTiled h) g beta = normRelu h (colMean h) (colVar h) g beta := by
  rw [colMeanTiled_eq, colVarTiled_eq hh]

/-- With real inputs the layer whose means and variances come from tile sums, the variance as mean of squares minus
    squared mean, is the layer whose variance is the mean of squared deviations: the first dense stage is real, so
    its two variances agree and are not negative, so the first normalised stage is real, and so on once more. -/
theorem layerTiled_eq_layerDev (e : Col) (x aggr : Mat) (w1 : Wt) (b1 g1 be1 : Col) (w2 : Wt) (b2 g2 be2 : Col)
    (he : ∀ n, IsReal (e n)) (hx : ∀ r n, IsReal (x r n)) (ha : ∀ r n, IsReal (aggr r n)) (hw1 : ∀ n q, IsReal (w1 n q)) (hb1 : ∀ q, IsReal (b1 q)) (hg1 : ∀ q, IsReal (g1 q)) (hbe1 : ∀ q, IsReal (be1 q)) (hw2 : ∀ n q, IsReal (w2 n q)) (hb2 : ∀ q, IsReal (b2 q)) (hg2 : ∀ q, IsReal (g2 q)) (hbe2 : ∀ q, IsReal (be2 q)) :
    layerTiled e x aggr w1 b1 g1 be1 w2 b2 g2 be2 = layerDev e x aggr w1 b1 g1 be1 w2 b2 g2 be2 := by
  have hl1 := isReal_dense (isReal_combine he hx ha) hw1 hb1
  have hh1 := isReal_normRelu hl1 hg1 hbe1
  have hl2 := isReal_dense hh1 hw2 hb2
  unfold layerTiled layerDev
  dsimp only
  rw [normRelu_tiled_eq hl1, normRelu_tiled_eq hl2]

end GinSpec

end
-- ==== Proof.FiniteInputs.lean ====
/-
  From the finiteness precondition to "every entry of every float argument is a real number".

  The precondition is a conjunction, over the ten float arguments, of one statement per argument: the conjunction over
  ALL entries x of the argument of the comparison |x| < +∞, where |x| is the larger of x and -x and +∞ is what the
  word 0x7F800000 denotes.  That the whole is the truth word says that each of the ten conjuncts is, that each
  conjunct being the truth word says that the comparison holds at every entry, and on the extended reals |x| < +∞
  fails at both infinities (where |x| = +∞) and so leaves only the images of real numbers.

  The step from one argument's conjunct to its entries is proved once, for an array of any shape, and used ten times;
  no array is ever opened entry by entry.
-/
import proofs.«158323_j1486058684700_2_alg».proof.Pre_finite_inputs
import proofs.«158323_j1486058684700_2_alg».proof.Proof.Spec
import Idealize.ShloMosaic.Lib.ReduceAll
import Idealize.ShloMosaic.Lib.ValueIdx
import Idealize.ShloMosaic.PureOps.Ideal
import Idealize.ShloMosaic.PureOps.Ideal.Laws

namespace Cert.FiniteInputs

open Idealize.ShloMosaic

/-- The word 0x7F800000 denotes +∞: exponent field all ones, fraction zero, sign clear. -/
theorem ofBits_inf : Ideal.ofBits .f32 0x7F800000#32 = (⊤ : EReal) := by
  simp [Ideal.ofBits, Ideal.ieee]

/-- An extended real whose absolute value compares strictly below +∞ is a real number: at either infinity the larger
    of x and -x is +∞, which is not below itself. -/
theorem real_of_abs_lt (x : EReal)
    (h : Ideal.cmp .olt (max x (-x)) (Ideal.ofBits .f32 0x7F800000#32) = 1#1) : GinSpec.IsReal x := by
  rw [ofBits_inf] at h
  induction x using EReal.rec with
  | bot => simp [Ideal.cmp] at h
  | coe r => exact ⟨r, rfl⟩
  | top => simp [Ideal.cmp] at h

/-- One argument's conjunct, for an array of any shape: if the conjunction over all entries of |x| < +∞ is the truth
    word, every entry is a real number. -/
theorem real_of_all {S : Shape} {axes : List (Fin S.rank)} (a : FVec Ideal S .f32)
    (hb : (⟨0, ![]⟩ : Shape).BroadcastsInDim S (![] : Fin 0 → Fin S.rank))
    (hr : S.ReducesTo axes (⟨0, ![]⟩ : Shape)) (h_ : 0 < (⟨0, ![]⟩ : Shape).numel)
    (h : Host.reduce IntOp.andi
          (cmpf .olt (Host.absf a) (broadcastInDim S ![] hb (constant (F := Ideal) (⟨0, ![]⟩ : Shape) .f32 0x7F800000#32)))
          (constantI (⟨0, ![]⟩ : Shape) 1 1#1) hr h_ ValueIdx.ix0 = 1#1)
    (i : S.Idx) : GinSpec.IsReal (a i) := by
  haveI : Subsingleton (⟨0, ![]⟩ : Shape).Idx := ⟨fun a b => funext fun d => d.elim0⟩
  have e := Host.reduce_andi_all _ _ hr h_ ValueIdx.ix0 h i
  exact real_of_abs_lt (a i) e

/-- The precondition decoded: every entry of each of the ten float arguments is a real number. -/
theorem real_of_pre [Cert.Pre_finite_inputs.Facts]
    (a0 : FVec Ideal Cert.Pre_finite_inputs.S50000x128 .f32) (a1 : IVec Cert.Pre_finite_inputs.S2x800000 32)
    (a2 : FVec Ideal Cert.Pre_finite_inputs.S1 .f32) (a3 : FVec Ideal Cert.Pre_finite_inputs.S128x128 .f32)
    (a4 a5 a6 : FVec Ideal Cert.Pre_finite_inputs.S128 .f32) (a7 : FVec Ideal Cert.Pre_finite_inputs.S128x128 .f32)
    (a8 a9 a10 : FVec Ideal Cert.Pre_finite_inputs.S128 .f32)
    (h : Cert.Pre_finite_inputs.fn (F := Ideal) a0 a1 a2 a3 a4 a5 a6 a7 a8 a9 a10 = fun _ => 1#1) :
    (∀ i, GinSpec.IsReal (a0 i)) ∧ (∀ i, GinSpec.IsReal (a2 i)) ∧ (∀ i, GinSpec.IsReal (a3 i)) ∧
    (∀ i, GinSpec.IsReal (a4 i)) ∧ (∀ i, GinSpec.IsReal (a5 i)) ∧ (∀ i, GinSpec.IsReal (a6 i)) ∧
    (∀ i, GinSpec.IsReal (a7 i)) ∧ (∀ i, GinSpec.IsReal (a8 i)) ∧ (∀ i, GinSpec.IsReal (a9 i)) ∧
    (∀ i, GinSpec.IsReal (a10 i)) := by
  have e := congrFun h ValueIdx.ix0
  dsimp only [Cert.Pre_finite_inputs.fn, Cert.Pre_finite_inputs.fn_part1, Cert.Pre_finite_inputs.fn_part2] at e
  simp only [andi, IntOp.andi_eq_one] at e
  obtain ⟨⟨⟨⟨⟨⟨⟨⟨⟨h0, h2⟩, h3⟩, h4⟩, h5⟩, h6⟩, h7⟩, h8⟩, h9⟩, h10⟩ := e
  exact ⟨real_of_all a0 _ _ _ h0, real_of_all a2 _ _ _ h2, real_of_all a3 _ _ _ h3, real_of_all a4 _ _ _ h4,
    real_of_all a5 _ _ _ h5, real_of_all a6 _ _ _ h6, real_of_all a7 _ _ _ h7, real_of_all a8 _ _ _ h8,
    real_of_all a9 _ _ _ h9, real_of_all a10 _ _ _ h10⟩

end Cert.FiniteInputs
-- ==== Proof.Result.lean ====
/-
  Both programs' results are one function of the arguments.

  The reference's result is the layer of the specification with each column's variance as the mean of the squared
  deviations.  The kernel program's result is the same layer with each mean and variance taken from tile sums and the
  variance as the mean of the squares minus the squared mean.  When every float argument is a real number — which
  the precondition says — every entry of both dense outputs is real, the two forms of the statistics agree, and
  the two results are equal entry by entry.
-/
import proofs.«158323_j1486058684700_2_alg».proof.Proof.KernelValue
import proofs.«158323_j1486058684700_2_alg».proof.Proof.Bridge
import proofs.«158323_j1486058684700_2_alg».proof.Proof.RefSide
import proofs.«158323_j1486058684700_2_alg».proof.Proof.Algebra
import proofs.«158323_j1486058684700_2_alg».proof.Proof.FiniteInputs

set_option maxRecDepth 16384

noncomputable section

namespace Cert.Result

open Idealize.ShloMosaic Idealize.ShloMosaic.TcCoe Idealize.SL.Sem Idealize.ShloMosaic.ValueIdx

/-- The layer's result as an array, from the eleven argument arrays. -/
def layer (x0 : FVec Ideal Cert.KernelIdeal.S50000x128 .f32) (x1 : IVec Cert.KernelIdeal.S2x800000 32) (x2 : FVec Ideal Cert.KernelIdeal.S1 .f32)
    (x3 : FVec Ideal Cert.KernelIdeal.S128x128 .f32) (x4 x5 x6 : FVec Ideal Cert.KernelIdeal.S128 .f32) (x7 : FVec Ideal Cert.KernelIdeal.S128x128 .f32)
    (x8 x9 x10 : FVec Ideal Cert.KernelIdeal.S128 .f32) : Cert.KernelIdeal.S50000x128.Idx → EReal := fun i =>
  GinSpec.layerDev (fun _ => x2 (ix1 (0 : Fin 1))) (fun r n => x0 (ix2 r n))
    (fun r n => Cert.ReferenceIdeal.Read.val_main_v13 (F := Ideal) x0 x1 (ix2 r n)) (fun n q => x3 (ix2 n q))
    (fun q => x4 (ix1 q)) (fun q => x5 (ix1 q)) (fun q => x6 (ix1 q)) (fun n q => x7 (ix2 n q)) (fun q => x8 (ix1 q))
    (fun q => x9 (ix1 q)) (fun q => x10 (ix1 q)) (i 0) (i 1)

/-- The reference's result term is the layer. -/
theorem reference_eq (x0 : FVec Ideal Cert.KernelIdeal.S50000x128 .f32) (x1 : IVec Cert.KernelIdeal.S2x800000 32) (x2 : FVec Ideal Cert.KernelIdeal.S1 .f32)
    (x3 : FVec Ideal Cert.KernelIdeal.S128x128 .f32) (x4 x5 x6 : FVec Ideal Cert.KernelIdeal.S128 .f32) (x7 : FVec Ideal Cert.KernelIdeal.S128x128 .f32)
    (x8 x9 x10 : FVec Ideal Cert.KernelIdeal.S128 .f32) :
    Cert.ReferenceIdeal.Read.val_main_v79 (F := Ideal) x0 x1 x2 x3 x4 x5 x6 x7 x8 x9 x10 = layer x0 x1 x2 x3 x4 x5 x6 x7 x8 x9 x10 := by
  funext i
  obtain ⟨r, q, rfl⟩ : ∃ (r : Fin 50000) (q : Fin 128), i = ix2 r q := ⟨i 0, i 1, eq_ix2 i⟩
  exact Cert.ReferenceIdeal.RefValue.ref_is_layer x0 x1 x2 x3 x4 x5 x6 x7 x8 x9 x10 r q

open Cert.KernelIdeal Cert.KernelIdeal.Gen in
/-- The kernel program's result array after the run is the layer, when every float argument is real. -/
theorem kernel_eq (m : (ℓ : Loc Cert.KernelIdeal.nD Cert.KernelIdeal.τ Cert.KernelIdeal.sig) → Buf (Elt Ideal) ℓ) (ρ : Dev Cert.KernelIdeal.nD → PrngReg) (c : Dev Cert.KernelIdeal.nD)
    (h0 : ∀ i, GinSpec.IsReal (m ((c : Thread nD τ).loc main_arg0) i)) (h2 : ∀ i, GinSpec.IsReal (m ((c : Thread nD τ).loc main_arg2) i))
    (h3 : ∀ i, GinSpec.IsReal (m ((c : Thread nD τ).loc main_arg3) i)) (h4 : ∀ i, GinSpec.IsReal (m ((c : Thread nD τ).loc main_arg4) i))
    (h5 : ∀ i, GinSpec.IsReal (m ((c : Thread nD τ).loc main_arg5) i)) (h6 : ∀ i, GinSpec.IsReal (m ((c : Thread nD τ).loc main_arg6) i))
    (h7 : ∀ i, GinSpec.IsReal (m ((c : Thread nD τ).loc main_arg7) i)) (h8 : ∀ i, GinSpec.IsReal (m ((c : Thread nD τ).loc main_arg8) i))
    (h9 : ∀ i, GinSpec.IsReal (m ((c : Thread nD τ).loc main_arg9) i)) (h10 : ∀ i, GinSpec.IsReal (m ((c : Thread nD τ).loc main_arg10) i)) :
    W6 m ρ c (Proc.devRef .tc main_v56)
      = layer (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) := by
  funext i
  obtain ⟨r, q, rfl⟩ : ∃ (r : Fin 50000) (q : Fin 128), i = ix2 r q := ⟨i 0, i 1, eq_ix2 i⟩
  refine (Cert.KernelIdeal.Out.result_at m ρ c r q).trans ?_
  have hagg : Cert.KernelIdeal.Out.aA m c = fun r n => Cert.ReferenceIdeal.Read.val_main_v13 (F := Ideal)
      (m ((c : Thread nD τ).loc main_arg0)) (m ((c : Thread nD τ).loc main_arg1)) (ix2 r n) :=
    funext fun r => funext fun n => congrFun (Cert.Bridge.neighbourSum_eq _ _) (ix2 r n)
  have ha : ∀ r n, GinSpec.IsReal (Cert.KernelIdeal.Out.aA m c r n) := fun r n => Cert.Bridge.neighbourSum_real _ _ h0 (ix2 r n)
  have key := GinSpec.layerTiled_eq_layerDev (Cert.KernelIdeal.Out.aE m c) (Cert.KernelIdeal.Out.aX m c) (Cert.KernelIdeal.Out.aA m c)
    (Cert.KernelIdeal.Out.aW1 m c) (Cert.KernelIdeal.Out.aB1 m c) (Cert.KernelIdeal.Out.aG1 m c) (Cert.KernelIdeal.Out.aBe1 m c)
    (Cert.KernelIdeal.Out.aW2 m c) (Cert.KernelIdeal.Out.aB2 m c) (Cert.KernelIdeal.Out.aG2 m c) (Cert.KernelIdeal.Out.aBe2 m c)
    (fun _ => h2 _) (fun r n => h0 _) ha (fun n q => h3 _) (fun q => h4 _) (fun q => h5 _) (fun q => h6 _)
    (fun n q => h7 _) (fun q => h8 _) (fun q => h9 _) (fun q => h10 _)
  rw [key, hagg]
  rfl

end Cert.Result

end
-- ==== Proof.lean ====
/-
  The certificate: a graph layer computed by three tiled grid computations against its plain reference.

  The kernel program gathers and adds the neighbours' features on the host, then runs three grid computations over
  ten tiles of 5000 nodes: the first forms every node's combined features and the first dense layer and leaves, per
  tile, the column sums and the column sums of squares of its output; the second normalises that output with the mean
  and variance the host made from those partial sums, clamps at zero, applies the second dense layer and again leaves
  per-tile sums; the third normalises and clamps once more.  The reference computes the same layer with each column's
  mean as a sum over all nodes and each variance as the mean of the squared deviations from the mean.

  Over the extended reals a dense layer computed tile by tile is the layer computed whole, a sum taken tile by tile is
  the sum, and "mean of squares minus squared mean" is "mean of squared deviations" once every entry is a real number.
  The precondition says every float argument is finite; the gathered and added neighbours' features are then real,
  so are both dense outputs (each variance is at least zero, so its guarded reciprocal square root is real), and the
  two programs end with equal results.  Each program terminates without a fault and leaves its arguments unchanged; the
  idealized kernel program is the kernel program's own text read over the extended reals, nothing rewritten.
-/
import proofs.«158323_j1486058684700_2_alg».proof.Defs
import proofs.«158323_j1486058684700_2_alg».proof.Proof.Gen.Kernel
import proofs.«158323_j1486058684700_2_alg».proof.Proof.Gen.Kernel.Skeleton
import proofs.«158323_j1486058684700_2_alg».proof.Proof.Gen.Kernel.Launch
import proofs.«158323_j1486058684700_2_alg».proof.Proof.Gen.Kernel.Points
import proofs.«158323_j1486058684700_2_alg».proof.Proof.Gen.Kernel.Frame
import proofs.«158323_j1486058684700_2_alg».proof.Proof.Gen.KernelIdeal
import proofs.«158323_j1486058684700_2_alg».proof.Proof.Gen.KernelIdeal.Skeleton
import proofs.«158323_j1486058684700_2_alg».proof.Proof.Gen.KernelIdeal.Launch
import proofs.«158323_j1486058684700_2_alg».proof.Proof.Gen.KernelIdeal.Points
import proofs.«158323_j1486058684700_2_alg».proof.Proof.Gen.KernelIdeal.Frame
import proofs.«158323_j1486058684700_2_alg».proof.Proof.Gen.ReferenceIdeal
import proofs.«158323_j1486058684700_2_alg».proof.Proof.Gen.Pre_finite_inputs
import proofs.«158323_j1486058684700_2_alg».proof.Proof.Gen.ReferenceIdeal.Run
import proofs.«158323_j1486058684700_2_alg».proof.Proof.Gen.ReferenceIdeal.Read
import proofs.«158323_j1486058684700_2_alg».proof.Proof.KernelRun
import proofs.«158323_j1486058684700_2_alg».proof.Proof.Result
import Idealize.ShloMosaic.Adequacy
import Idealize.ShloMosaic.Init

set_option maxRecDepth 16384

noncomputable section

namespace Cert.Proof

open Idealize.ShloMosaic Idealize.ShloMosaic.TcCoe Idealize.SL.Sem

/-- The two idealized programs, run from memories that agree on the arguments, end with the same result array: the
    layer of the specification over the arguments, which the kernel program reaches through its three grid computations
    and the reference directly. -/
theorem algebraic : Cert.algebraic_KernelIdeal_ReferenceIdeal := by
  intro m ρ m' ρ' hpre hagree
  refine ⟨fun c => Cert.Result.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · refine (θ_run Cert.KernelIdeal.defs _ _).mono (fun r h c => ⟨(h c).1.trans ?_, (h c).2⟩)
      (Cert.KernelIdeal.RunValue.run_value (F := Ideal) m ρ)
    obtain ⟨h0, h2, h3, h4, h5, h6, h7, h8, h9, h10⟩ := Cert.FiniteInputs.real_of_pre _ _ _ _ _ _ _ _ _ _ _ (hpre c)
    exact Cert.Result.kernel_eq m ρ c h0 h2 h3 h4 h5 h6 h7 h8 h9 h10
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10⟩ := hagree c
    rw [Cert.ReferenceIdeal.Read.val_main_v79_eq, e0, e1, e2, e3, e4, e5, e6, e7, e8, e9, e10]
    exact Cert.Result.reference_eq _ _ _ _ _ _ _ _ _ _ _

/-- The claim: the three programs' frames (the kernel programs' by their grid computations' launch proofs, the reference's by
    its run with the result dropped), nothing rewritten between the kernel program and its idealization, and the equal results. -/
theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2) (Cert.ReferenceIdeal.Value.run (F := Ideal) m ρ),
    trivial,
    algebraic⟩

end Cert.Proof

end
